-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x16 : Shape := ⟨2, ![50000, 16]⟩
abbrev S50000x2 : Shape := ⟨2, ![50000, 2]⟩
abbrev S1600000x1 : Shape := ⟨2, ![1600000, 1]⟩
abbrev S1600000 : Shape := ⟨1, ![1600000]⟩
abbrev S21x32 : Shape := ⟨2, ![21, 32]⟩
abbrev S32 : Shape := ⟨1, ![32]⟩
abbrev S32x64 : Shape := ⟨2, ![32, 64]⟩
abbrev S64 : Shape := ⟨1, ![64]⟩
abbrev S69x32 : Shape := ⟨2, ![69, 32]⟩
abbrev S194x32 : Shape := ⟨2, ![194, 32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S50000x2 : S_.BroadcastsInDim S50000x2 (![] : Fin 0 → Fin S50000x2.rank)
  reducesTo_S50000x2_S_d0_1 : S50000x2.ReducesTo [0, 1] S_
  bcast_S_S1600000x1 : S_.BroadcastsInDim S1600000x1 (![] : Fin 0 → Fin S1600000x1.rank)
  reducesTo_S1600000x1_S_d0_1 : S1600000x1.ReducesTo [0, 1] S_
  bcast_S_S21x32 : S_.BroadcastsInDim S21x32 (![] : Fin 0 → Fin S21x32.rank)
  reducesTo_S21x32_S_d0_1 : S21x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S69x32 : S_.BroadcastsInDim S69x32 (![] : Fin 0 → Fin S69x32.rank)
  reducesTo_S69x32_S_d0_1 : S69x32.ReducesTo [0, 1] S_
  bcast_S_S194x32 : S_.BroadcastsInDim S194x32 (![] : Fin 0 → Fin S194x32.rank)
  reducesTo_S194x32_S_d0_1 : S194x32.ReducesTo [0, 1] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg18 : FVec F S194x32 .f32) (main_arg19 : FVec F S32 .f32) (main_arg20 : FVec F S32x64 .f32) (main_arg21 : FVec F S64 .f32) (main_v63 : IVec S_ 1) (main_v67 : IVec S_ 1) : IVec S_ 1 :=
  let main_v68 : IVec S_ 1 := andi main_v63 main_v67
  let main_v69 : FVec F S194x32 .f32 := Host.absf main_arg18
  let main_cst_26 : FVec F S_ .f32 := constant S_ .f32 0x7F800000#32
  let main_v70 : FVec F S194x32 .f32 := broadcastInDim S194x32 ![] bcast_S_S194x32 main_cst_26
  let main_v71 : IVec S194x32 1 := cmpf .olt main_v69 main_v70
  let main_c_27 : IVec S_ 1 := constantI S_ 1 1#1
  let main_v72 : IVec S_ 1 := (fun x v => Host.reduce IntOp.andi x v reducesTo_S194x32_S_d0_1 h_S_) main_v71 main_c_27
  let main_v73 : IVec S_ 1 := andi main_v68 main_v72
  let main_v74 : FVec F S32 .f32 := Host.absf main_arg19
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32x64 .f32 := Host.absf main_arg20
  let main_cst_30 : FVec F S_ .f32 := constant S_ .f32 0x7F800000#32
  let main_v80 : FVec F S32x64 .f32 := broadcastInDim S32x64 ![] bcast_S_S32x64 main_cst_30
  let main_v81 : IVec S32x64 1 := cmpf .olt main_v79 main_v80
  let main_c_31 : IVec S_ 1 := constantI S_ 1 1#1
  let main_v82 : IVec S_ 1 := (fun x v => Host.reduce IntOp.andi x v reducesTo_S32x64_S_d0_1 h_S_) main_v81 main_c_31
  let main_v83 : IVec S_ 1 := andi main_v78 main_v82
  let main_v84 : FVec F S64 .f32 := Host.absf main_arg21
  let main_cst_32 : FVec F S_ .f32 := constant S_ .f32 0x7F800000#32
  fn_part5 (F := F) main_v83 main_v84 main_cst_32

def fn_part3 {F : FTy → Type} [FloatOps F] (main_arg15 : FVec F S32 .f32) (main_arg16 : FVec F S32x64 .f32) (main_arg17 : FVec F S64 .f32) (main_arg18 : FVec F S194x32 .f32) (main_arg19 : FVec F S32 .f32) (main_arg20 : FVec F S32x64 .f32) (main_arg21 : FVec F S64 .f32) (main_v48 : IVec S_ 1) (main_v49 : FVec F S69x32 .f32) (main_v50 : FVec F S69x32 .f32) : IVec S_ 1 :=
  let main_v51 : IVec S69x32 1 := cmpf .olt main_v49 main_v50
  let main_c_19 : IVec S_ 1 := constantI S_ 1 1#1
  let main_v52 : IVec S_ 1 := (fun x v => Host.reduce IntOp.andi x v reducesTo_S69x32_S_d0_1 h_S_) main_v51 main_c_19
  let main_v53 : IVec S_ 1 := andi main_v48 main_v52
  let main_v54 : FVec F S32 .f32 := Host.absf main_arg15
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg16
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_arg20 main_arg21 main_v63 main_v67

def fn_part2 {F : FTy → Type} [FloatOps F] (main_arg11 : FVec F S32 .f32) (main_arg12 : FVec F S32x64 .f32) (main_arg13 : FVec F S64 .f32) (main_arg14 : FVec F S69x32 .f32) (main_arg15 : FVec F S32 .f32) (main_arg16 : FVec F S32x64 .f32) (main_arg17 : FVec F S64 .f32) (main_arg18 : FVec F S194x32 .f32) (main_arg19 : FVec F S32 .f32) (main_arg20 : FVec F S32x64 .f32) (main_arg21 : FVec F S64 .f32) (main_v33 : IVec S_ 1) : IVec S_ 1 :=
  let main_v34 : FVec F S32 .f32 := Host.absf main_arg11
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg12
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S69x32 .f32 := Host.absf main_arg14
  let main_cst_18 : FVec F S_ .f32 := constant S_ .f32 0x7F800000#32
  let main_v50 : FVec F S69x32 .f32 := broadcastInDim S69x32 ![] bcast_S_S69x32 main_cst_18
  fn_part3 (F := F) main_arg15 main_arg16 main_arg17 main_arg18 main_arg19 main_arg20 main_arg21 main_v48 main_v49 main_v50

def fn_part1 {F : FTy → Type} [FloatOps F] (main_arg4 : FVec F S1600000x1 .f32) (main_arg5 : FVec F S1600000x1 .f32) (main_arg10 : FVec F S21x32 .f32) (main_arg11 : FVec F S32 .f32) (main_arg12 : FVec F S32x64 .f32) (main_arg13 : FVec F S64 .f32) (main_arg14 : FVec F S69x32 .f32) (main_arg15 : FVec F S32 .f32) (main_arg16 : FVec F S32x64 .f32) (main_arg17 : FVec F S64 .f32) (main_arg18 : FVec F S194x32 .f32) (main_arg19 : FVec F S32 .f32) (main_arg20 : FVec F S32x64 .f32) (main_arg21 : FVec F S64 .f32) (main_v13 : IVec S_ 1) (main_v16 : IVec S50000x2 1) : IVec S_ 1 :=
  let main_c_5 : IVec S_ 1 := constantI S_ 1 1#1
  let main_v17 : IVec S_ 1 := (fun x v => Host.reduce IntOp.andi x v reducesTo_S50000x2_S_d0_1 h_S_) main_v16 main_c_5
  let main_v18 : IVec S_ 1 := andi main_v13 main_v17
  let main_v19 : FVec F S1600000x1 .f32 := Host.absf main_arg4
  let main_cst_6 : FVec F S_ .f32 := constant S_ .f32 0x7F800000#32
  let main_v20 : FVec F S1600000x1 .f32 := broadcastInDim S1600000x1 ![] bcast_S_S1600000x1 main_cst_6
  let main_v21 : IVec S1600000x1 1 := cmpf .olt main_v19 main_v20
  let main_c_7 : IVec S_ 1 := constantI S_ 1 1#1
  let main_v22 : IVec S_ 1 := (fun x v => Host.reduce IntOp.andi x v reducesTo_S1600000x1_S_d0_1 h_S_) main_v21 main_c_7
  let main_v23 : IVec S_ 1 := andi main_v18 main_v22
  let main_v24 : FVec F S1600000x1 .f32 := Host.absf main_arg5
  let main_cst_8 : FVec F S_ .f32 := constant S_ .f32 0x7F800000#32
  let main_v25 : FVec F S1600000x1 .f32 := broadcastInDim S1600000x1 ![] bcast_S_S1600000x1 main_cst_8
  let main_v26 : IVec S1600000x1 1 := cmpf .olt main_v24 main_v25
  let main_c_9 : IVec S_ 1 := constantI S_ 1 1#1
  let main_v27 : IVec S_ 1 := (fun x v => Host.reduce IntOp.andi x v reducesTo_S1600000x1_S_d0_1 h_S_) main_v26 main_c_9
  let main_v28 : IVec S_ 1 := andi main_v23 main_v27
  let main_v29 : FVec F S21x32 .f32 := Host.absf main_arg10
  let main_cst_10 : FVec F S_ .f32 := constant S_ .f32 0x7F800000#32
  let main_v30 : FVec F S21x32 .f32 := broadcastInDim S21x32 ![] bcast_S_S21x32 main_cst_10
  let main_v31 : IVec S21x32 1 := cmpf .olt main_v29 main_v30
  let main_c_11 : IVec S_ 1 := constantI S_ 1 1#1
  let main_v32 : IVec S_ 1 := (fun x v => Host.reduce IntOp.andi x v reducesTo_S21x32_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S50000x64 .f32) (main_arg1 : FVec F S50000x16 .f32) (main_arg2 : FVec F S50000x2 .f32) (main_arg3 : FVec F S50000x2 .f32) (main_arg4 : FVec F S1600000x1 .f32) (main_arg5 : FVec F S1600000x1 .f32) (main_arg6 : IVec S1600000 32) (main_arg7 : IVec S1600000 32) (main_arg8 : IVec S1600000 32) (main_arg9 : IVec S1600000 32) (main_arg10 : FVec F S21x32 .f32) (main_arg11 : FVec F S32 .f32) (main_arg12 : FVec F S32x64 .f32) (main_arg13 : FVec F S64 .f32) (main_arg14 : FVec F S69x32 .f32) (main_arg15 : FVec F S32 .f32) (main_arg16 : FVec F S32x64 .f32) (main_arg17 : FVec F S64 .f32) (main_arg18 : FVec F S194x32 .f32) (main_arg19 : FVec F S32 .f32) (main_arg20 : FVec F S32x64 .f32) (main_arg21 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x16 .f32 := Host.absf main_arg1
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S50000x2 .f32 := Host.absf main_arg2
  let main_cst_2 : FVec F S_ .f32 := constant S_ .f32 0x7F800000#32
  let main_v10 : FVec F S50000x2 .f32 := broadcastInDim S50000x2 ![] bcast_S_S50000x2 main_cst_2
  let main_v11 : IVec S50000x2 1 := cmpf .olt main_v9 main_v10
  let main_c_3 : IVec S_ 1 := constantI S_ 1 1#1
  let main_v12 : IVec S_ 1 := (fun x v => Host.reduce IntOp.andi x v reducesTo_S50000x2_S_d0_1 h_S_) main_v11 main_c_3
  let main_v13 : IVec S_ 1 := andi main_v8 main_v12
  let main_v14 : FVec F S50000x2 .f32 := Host.absf main_arg3
  let main_cst_4 : FVec F S_ .f32 := constant S_ .f32 0x7F800000#32
  let main_v15 : FVec F S50000x2 .f32 := broadcastInDim S50000x2 ![] bcast_S_S50000x2 main_cst_4
  let main_v16 : IVec S50000x2 1 := cmpf .olt main_v14 main_v15
  fn_part1 (F := F) main_arg4 main_arg5 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S50000x16 : Shape := ⟨2, ![50000, 16]⟩
abbrev S50000x2 : Shape := ⟨2, ![50000, 2]⟩
abbrev S1600000x1 : Shape := ⟨2, ![1600000, 1]⟩
abbrev S1600000 : Shape := ⟨1, ![1600000]⟩
abbrev S21x32 : Shape := ⟨2, ![21, 32]⟩
abbrev S32 : Shape := ⟨1, ![32]⟩
abbrev S32x64 : Shape := ⟨2, ![32, 64]⟩
abbrev S64 : Shape := ⟨1, ![64]⟩
abbrev S69x32 : Shape := ⟨2, ![69, 32]⟩
abbrev S194x32 : Shape := ⟨2, ![194, 32]⟩
abbrev S_ : Shape := ⟨0, ![]⟩
abbrev S1600000x2 : Shape := ⟨2, ![1600000, 2]⟩
abbrev S1600000x16 : Shape := ⟨2, ![1600000, 16]⟩
abbrev S1600000x21 : Shape := ⟨2, ![1600000, 21]⟩
abbrev S1600000x64 : Shape := ⟨2, ![1600000, 64]⟩
abbrev S10000x21 : Shape := ⟨2, ![10000, 21]⟩
abbrev S10000x64 : Shape := ⟨2, ![10000, 64]⟩
abbrev S10000x32 : Shape := ⟨2, ![10000, 32]⟩
abbrev S1x32 : Shape := ⟨2, ![1, 32]⟩
abbrev S1x64 : Shape := ⟨2, ![1, 64]⟩
abbrev S1600000x69 : Shape := ⟨2, ![1600000, 69]⟩
abbrev S10000x69 : Shape := ⟨2, ![10000, 69]⟩
abbrev S50000x194 : Shape := ⟨2, ![50000, 194]⟩
abbrev S5000x194 : Shape := ⟨2, ![5000, 194]⟩
abbrev S5000x64 : Shape := ⟨2, ![5000, 64]⟩
abbrev S5000x32 : Shape := ⟨2, ![5000, 32]⟩

abbrev nBuf : Space → Nat
  | .hbm => 90
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S50000x16, .f32⟩
  | .hbm, ⟨2, _⟩ => ⟨S50000x2, .f32⟩
  | .hbm, ⟨3, _⟩ => ⟨S50000x2, .f32⟩
  | .hbm, ⟨4, _⟩ => ⟨S1600000x1, .f32⟩
  | .hbm, ⟨5, _⟩ => ⟨S1600000x1, .f32⟩
  | .hbm, ⟨6, _⟩ => ⟨S1600000, .i32⟩
  | .hbm, ⟨7, _⟩ => ⟨S1600000, .i32⟩
  | .hbm, ⟨8, _⟩ => ⟨S1600000, .i32⟩
  | .hbm, ⟨9, _⟩ => ⟨S1600000, .i32⟩
  | .hbm, ⟨10, _⟩ => ⟨S21x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S69x32, .f32⟩
  | .hbm, ⟨15, _⟩ => ⟨S32, .f32⟩
  | .hbm, ⟨16, _⟩ => ⟨S32x64, .f32⟩
  | .hbm, ⟨17, _⟩ => ⟨S64, .f32⟩
  | .hbm, ⟨18, _⟩ => ⟨S194x32, .f32⟩
  | .hbm, ⟨19, _⟩ => ⟨S32, .f32⟩
  | .hbm, ⟨20, _⟩ => ⟨S32x64, .f32⟩
  | .hbm, ⟨21, _⟩ => ⟨S64, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x2, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x2, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x16, .f32⟩
  | .hbm, ⟨49, _⟩ => ⟨S1600000x21, .f32⟩
  | .hbm, ⟨50, _⟩ => ⟨S1600000x64, .f32⟩
  | .hbm, ⟨51, _⟩ => ⟨S_, .f32⟩
  | .hbm, ⟨52, _⟩ => ⟨S50000x64, .f32⟩
  | .hbm, ⟨53, _⟩ => ⟨S1600000x1, .i32⟩
  | .hbm, ⟨54, _⟩ => ⟨S50000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x2, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x2, .f32⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x64, .f32⟩
  | .hbm, ⟨82, _⟩ => ⟨S1600000x69, .f32⟩
  | .hbm, ⟨83, _⟩ => ⟨S1600000x64, .f32⟩
  | .hbm, ⟨84, _⟩ => ⟨S_, .f32⟩
  | .hbm, ⟨85, _⟩ => ⟨S50000x64, .f32⟩
  | .hbm, ⟨86, _⟩ => ⟨S1600000x1, .i32⟩
  | .hbm, ⟨87, _⟩ => ⟨S50000x64, .f32⟩
  | .hbm, ⟨88, _⟩ => ⟨S50000x194, .f32⟩
  | .hbm, ⟨89, _⟩ => ⟨S50000x64, .f32⟩
  | .local _ .vmem, ⟨0, _⟩ => ⟨S10000x21, .f32⟩
  | .local _ .vmem, ⟨1, _⟩ => ⟨S10000x21, .f32⟩
  | .local _ .vmem, ⟨2, _⟩ => ⟨S21x32, .f32⟩
  | .local _ .vmem, ⟨3, _⟩ => ⟨S32, .f32⟩
  | .local _ .vmem, ⟨4, _⟩ => ⟨S32x64, .f32⟩
  | .local _ .vmem, ⟨5, _⟩ => ⟨S64, .f32⟩
  | .local _ .vmem, ⟨6, _⟩ => ⟨S10000x64, .f32⟩
  | .local _ .vmem, ⟨7, _⟩ => ⟨S10000x64, .f32⟩
  | .local _ .vmem, ⟨8, _⟩ => ⟨S10000x69, .f32⟩
  | .local _ .vmem, ⟨9, _⟩ => ⟨S10000x69, .f32⟩
  | .local _ .vmem, ⟨10, _⟩ => ⟨S69x32, .f32⟩
  | .local _ .vmem, ⟨11, _⟩ => ⟨S32, .f32⟩
  | .local _ .vmem, ⟨12, _⟩ => ⟨S32x64, .f32⟩
  | .local _ .vmem, ⟨13, _⟩ => ⟨S64, .f32⟩
  | .local _ .vmem, ⟨14, _⟩ => ⟨S10000x64, .f32⟩
  | .local _ .vmem, ⟨15, _⟩ => ⟨S10000x64, .f32⟩
  | .local _ .vmem, ⟨16, _⟩ => ⟨S5000x194, .f32⟩
  | .local _ .vmem, ⟨17, _⟩ => ⟨S5000x194, .f32⟩
  | .local _ .vmem, ⟨18, _⟩ => ⟨S194x32, .f32⟩
  | .local _ .vmem, ⟨19, _⟩ => ⟨S32, .f32⟩
  | .local _ .vmem, ⟨20, _⟩ => ⟨S32x64, .f32⟩
  | .local _ .vmem, ⟨21, _⟩ => ⟨S64, .f32⟩
  | .local _ .vmem, ⟨22, _⟩ => ⟨S5000x64, .f32⟩
  | .local _ .vmem, ⟨23, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_c_6 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_7 : Ref sig .tc := ⟨.hbm, 64, rfl⟩
abbrev main_v33 : Ref sig .tc := ⟨.hbm, 65, rfl⟩
abbrev main_v34 : Ref sig .tc := ⟨.hbm, 66, rfl⟩
abbrev main_c_8 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_c_10 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_11 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x21 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S21x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x69 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S69x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x194 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S194x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x2_S1600000x2_S1600000x1_S1600000x16_S1600000x21_d1 : Shape.Concatenates [S1600000x2, S1600000x2, S1600000x1, S1600000x16] S1600000x21 1
  inb_S10000x21_S10000x21_0_0 : ∀ a, (![0, 0] : Fin 2 → Nat) a + S10000x21.size a ≤ S10000x21.size a
  h_S10000x21 : 0 < S10000x21.numel
  shapeCasts_S10000x21_S10000x21 : S10000x21.ShapeCasts S10000x21
  bitsLt_bf16_f32 : FTy.bits .bf16 < FTy.bits .f32
  inb_S21x32_S21x32_0_0 : ∀ a, (![0, 0] : Fin 2 → Nat) a + S21x32.size a ≤ S21x32.size a
  h_S21x32 : 0 < S21x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  concatenates_S1600000x2_S1600000x2_S1600000x1_S1600000x64_S1600000x69_d1 : Shape.Concatenates [S1600000x2, S1600000x2, S1600000x1, S1600000x64] S1600000x69 1
  inb_S10000x69_S10000x69_0_0 : ∀ a, (![0, 0] : Fin 2 → Nat) a + S10000x69.size a ≤ S10000x69.size a
  h_S10000x69 : 0 < S10000x69.numel
  shapeCasts_S10000x69_S10000x69 : S10000x69.ShapeCasts S10000x69
  inb_S69x32_S69x32_0_0 : ∀ a, (![0, 0] : Fin 2 → Nat) a + S69x32.size a ≤ S69x32.size a
  h_S69x32 : 0 < S69x32.numel
  concatenates_S50000x2_S50000x64_S50000x64_S50000x64_S50000x194_d1 : Shape.Concatenates [S50000x2, S50000x64, S50000x64, S50000x64] S50000x194 1
  inb_S5000x194_S5000x194_0_0 : ∀ a, (![0, 0] : Fin 2 → Nat) a + S5000x194.size a ≤ S5000x194.size a
  h_S5000x194 : 0 < S5000x194.numel
  shapeCasts_S5000x194_S5000x194 : S5000x194.ShapeCasts S5000x194
  inb_S194x32_S194x32_0_0 : ∀ a, (![0, 0] : Fin 2 → Nat) a + S194x32.size a ≤ S194x32.size a
  h_S194x32 : 0 < S194x32.numel
  broadcasts_S1x32_S5000x32 : S1x32.Broadcasts S5000x32
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x2_S1600000x1_S1600000x2_1_0_n_n_0_1_12_wf : GatherDims.WF S50000x2 S1600000x1 S1600000x2 [1] [0] [] [0] [] 1 ![1, 2]
  gather_S50000x16_S1600000x1_S1600000x16_1_0_n_n_0_1_116_wf : GatherDims.WF S50000x16 S1600000x1 S1600000x16 [1] [0] [] [0] [] 1 ![1, 16]
  dot_S10000x21_S21x32_S10000x32_1_0_0_1_n_n_wf : DotDims.WF S10000x21 S21x32 S10000x32 [1] [0] [0] [1] [] []
  dot_S10000x32_S32x64_S10000x64_1_0_0_1_n_n_wf : DotDims.WF S10000x32 S32x64 S10000x64 [1] [0] [0] [1] [] []
  scatter_S50000x64_S1600000x1_S1600000x64_1_0_0_1_wf : ScatterDims.WF S50000x64 S1600000x1 S1600000x64 [1] [0] [0] 1
  gather_S50000x64_S1600000x1_S1600000x64_1_0_n_n_0_1_164_wf : GatherDims.WF S50000x64 S1600000x1 S1600000x64 [1] [0] [] [0] [] 1 ![1, 64]
  dot_S10000x69_S69x32_S10000x32_1_0_0_1_n_n_wf : DotDims.WF S10000x69 S69x32 S10000x32 [1] [0] [0] [1] [] []
  dot_S5000x194_S194x32_S5000x32_1_0_0_1_n_n_wf : DotDims.WF S5000x194 S194x32 S5000x32 [1] [0] [0] [1] [] []
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x21.size a ≤ S1600000x21.size a
  hwx0_0 : ∀ i : grid0.Coords, EltTy.bits .f32 = 32 ∨ (Rect.block (s := S1600000x21) S10000x21.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S21x32.size a ≤ S21x32.size a
  hwx0_1 : ∀ i : grid0.Coords, EltTy.bits .f32 = 32 ∨ (Rect.block (s := S21x32) S21x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1600000x64.size a
  hwx0_5 : ∀ i : grid0.Coords, EltTy.bits .f32 = 32 ∨ (Rect.block (s := S1600000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x69.size a ≤ S1600000x69.size a
  hwx1_0 : ∀ i : grid1.Coords, EltTy.bits .f32 = 32 ∨ (Rect.block (s := S1600000x69) S10000x69.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S69x32.size a ≤ S69x32.size a
  hwx1_1 : ∀ i : grid1.Coords, EltTy.bits .f32 = 32 ∨ (Rect.block (s := S69x32) S69x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S1600000x64.size a
  hwx1_5 : ∀ i : grid1.Coords, EltTy.bits .f32 = 32 ∨ (Rect.block (s := S1600000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x194.size a ≤ S50000x194.size a
  hwx2_0 : ∀ i : grid2.Coords, EltTy.bits .f32 = 32 ∨ (Rect.block (s := S50000x194) S5000x194.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S194x32.size a ≤ S194x32.size a
  hwx2_1 : ∀ i : grid2.Coords, EltTy.bits .f32 = 32 ∨ (Rect.block (s := S194x32) S194x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x64.size a ≤ S32x64.size a
  hwx2_3 : ∀ i : grid2.Coords, EltTy.bits .f32 = 32 ∨ (Rect.block (s := S32x64) S32x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S10000x21_S21x32_S10000x32_1_0_0_1_n_n : DotDims S10000x21 S21x32 S10000x32 where
  lhsContracting := [1]
  rhsContracting := [0]
  lhsNonContracting := [0]
  rhsNonContracting := [1]
  lhsBatch := []
  rhsBatch := []
  wf := dot_S10000x21_S21x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S10000x69_S69x32_S10000x32_1_0_0_1_n_n : DotDims S10000x69 S69x32 S10000x32 where
  lhsContracting := [1]
  rhsContracting := [0]
  lhsNonContracting := [0]
  rhsNonContracting := [1]
  lhsBatch := []
  rhsBatch := []
  wf := dot_S10000x69_S69x32_S10000x32_1_0_0_1_n_n_wf
def dot_S5000x194_S194x32_S5000x32_1_0_0_1_n_n : DotDims S5000x194 S194x32 S5000x32 where
  lhsContracting := [1]
  rhsContracting := [0]
  lhsNonContracting := [0]
  rhsNonContracting := [1]
  lhsBatch := []
  rhsBatch := []
  wf := dot_S5000x194_S194x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_v21) S10000x21.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S21x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg13) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S10000x69.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S69x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg15) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg17) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x194.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg18) S194x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S32x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg21) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S50000x16 : Shape := ⟨2, ![50000, 16]⟩
abbrev S50000x2 : Shape := ⟨2, ![50000, 2]⟩
abbrev S1600000x1 : Shape := ⟨2, ![1600000, 1]⟩
abbrev S1600000 : Shape := ⟨1, ![1600000]⟩
abbrev S21x32 : Shape := ⟨2, ![21, 32]⟩
abbrev S32 : Shape := ⟨1, ![32]⟩
abbrev S32x64 : Shape := ⟨2, ![32, 64]⟩
abbrev S64 : Shape := ⟨1, ![64]⟩
abbrev S69x32 : Shape := ⟨2, ![69, 32]⟩
abbrev S194x32 : Shape := ⟨2, ![194, 32]⟩
abbrev S_ : Shape := ⟨0, ![]⟩
abbrev S1600000x2 : Shape := ⟨2, ![1600000, 2]⟩
abbrev S1600000x16 : Shape := ⟨2, ![1600000, 16]⟩
abbrev S1600000x21 : Shape := ⟨2, ![1600000, 21]⟩
abbrev S1600000x32 : Shape := ⟨2, ![1600000, 32]⟩
abbrev S1x32 : Shape := ⟨2, ![1, 32]⟩
abbrev S1600000x64 : Shape := ⟨2, ![1600000, 64]⟩
abbrev S1x64 : Shape := ⟨2, ![1, 64]⟩
abbrev S1600000x69 : Shape := ⟨2, ![1600000, 69]⟩
abbrev S50000x194 : Shape := ⟨2, ![50000, 194]⟩
abbrev S50000x32 : Shape := ⟨2, ![50000, 32]⟩

abbrev nBuf : Space → Nat
  | .hbm => 135
  | .vmem => 0
  | .smem => 0
  | _ => 0

abbrev hbmTy0_0 (i : Nat) : BufTy := match i % 128 with
  | 0 => ⟨S50000x64, .f32⟩
  | 1 => ⟨S50000x16, .f32⟩
  | 2 => ⟨S50000x2, .f32⟩
  | 3 => ⟨S50000x2, .f32⟩
  | 4 => ⟨S1600000x1, .f32⟩
  | 5 => ⟨S1600000x1, .f32⟩
  | 6 => ⟨S1600000, .i32⟩
  | 7 => ⟨S1600000, .i32⟩
  | 8 => ⟨S1600000, .i32⟩
  | 9 => ⟨S1600000, .i32⟩
  | 10 => ⟨S21x32, .f32⟩
  | 11 => ⟨S32, .f32⟩
  | 12 => ⟨S32x64, .f32⟩
  | 13 => ⟨S64, .f32⟩
  | 14 => ⟨S69x32, .f32⟩
  | 15 => ⟨S32, .f32⟩
  | 16 => ⟨S32x64, .f32⟩
  | 17 => ⟨S64, .f32⟩
  | 18 => ⟨S194x32, .f32⟩
  | 19 => ⟨S32, .f32⟩
  | 20 => ⟨S32x64, .f32⟩
  | 21 => ⟨S64, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x2, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x2, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x16, .f32⟩
  | 49 => ⟨S1600000x21, .f32⟩
  | 50 => ⟨S1600000x32, .f32⟩
  | 51 => ⟨S1x32, .f32⟩
  | 52 => ⟨S1600000x32, .f32⟩
  | 53 => ⟨S1600000x32, .f32⟩
  | 54 => ⟨S_, .f32⟩
  | 55 => ⟨S1600000x32, .f32⟩
  | 56 => ⟨S1600000x32, .i1⟩
  | 57 => ⟨S_, .f32⟩
  | 58 => ⟨S1600000x32, .f32⟩
  | 59 => ⟨S1600000x32, .f32⟩
  | 60 => ⟨S1600000x32, .f32⟩
  | 61 => ⟨S1600000x64, .f32⟩
  | 62 => ⟨S1x64, .f32⟩
  | 63 => ⟨S1600000x64, .f32⟩
  | 64 => ⟨S1600000x64, .f32⟩
  | 65 => ⟨S1600000x64, .f32⟩
  | 66 => ⟨S_, .f32⟩
  | 67 => ⟨S50000x64, .f32⟩
  | 68 => ⟨S1600000x1, .i32⟩
  | 69 => ⟨S50000x64, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x2, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x2, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S1600000x69, .f32⟩
  | 98 => ⟨S1600000x32, .f32⟩
  | 99 => ⟨S1x32, .f32⟩
  | 100 => ⟨S1600000x32, .f32⟩
  | 101 => ⟨S1600000x32, .f32⟩
  | 102 => ⟨S_, .f32⟩
  | 103 => ⟨S1600000x32, .f32⟩
  | 104 => ⟨S1600000x32, .i1⟩
  | 105 => ⟨S_, .f32⟩
  | 106 => ⟨S1600000x32, .f32⟩
  | 107 => ⟨S1600000x32, .f32⟩
  | 108 => ⟨S1600000x32, .f32⟩
  | 109 => ⟨S1600000x64, .f32⟩
  | 110 => ⟨S1x64, .f32⟩
  | 111 => ⟨S1600000x64, .f32⟩
  | 112 => ⟨S1600000x64, .f32⟩
  | 113 => ⟨S1600000x64, .f32⟩
  | 114 => ⟨S_, .f32⟩
  | 115 => ⟨S50000x64, .f32⟩
  | 116 => ⟨S1600000x1, .i32⟩
  | 117 => ⟨S50000x64, .f32⟩
  | 118 => ⟨S50000x194, .f32⟩
  | 119 => ⟨S50000x32, .f32⟩
  | 120 => ⟨S1x32, .f32⟩
  | 121 => ⟨S50000x32, .f32⟩
  | 122 => ⟨S50000x32, .f32⟩
  | 123 => ⟨S_, .f32⟩
  | 124 => ⟨S50000x32, .f32⟩
  | 125 => ⟨S50000x32, .i1⟩
  | 126 => ⟨S_, .f32⟩
  | 127 => ⟨S50000x32, .f32⟩
  | _ => ⟨S50000x64, .f32⟩

abbrev hbmTy0_1 (i : Nat) : BufTy := match i % 128 with
  | 0 => ⟨S50000x32, .f32⟩
  | 1 => ⟨S50000x32, .f32⟩
  | 2 => ⟨S50000x64, .f32⟩
  | 3 => ⟨S1x64, .f32⟩
  | 4 => ⟨S50000x64, .f32⟩
  | 5 => ⟨S50000x64, .f32⟩
  | 6 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_c_1 : Ref sig .tc := ⟨.hbm, 31, rfl⟩
abbrev main_v7 : Ref sig .tc := ⟨.hbm, 32, rfl⟩
abbrev main_v8 : Ref sig .tc := ⟨.hbm, 33, rfl⟩
abbrev main_c_2 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst : Ref sig .tc := ⟨.hbm, 54, rfl⟩
abbrev main_v26 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_7 : Ref sig .tc := ⟨.hbm, 70, rfl⟩
abbrev main_v39 : Ref sig .tc := ⟨.hbm, 71, rfl⟩
abbrev main_v40 : Ref sig .tc := ⟨.hbm, 72, rfl⟩
abbrev main_c_8 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_9 : Ref sig .tc := ⟨.hbm, 79, rfl⟩
abbrev main_v46 : Ref sig .tc := ⟨.hbm, 80, rfl⟩
abbrev main_v47 : Ref sig .tc := ⟨.hbm, 81, rfl⟩
abbrev main_c_10 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_c_12 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_16 : Ref sig .tc := ⟨.hbm, 123, rfl⟩
abbrev main_v83 : Ref sig .tc := ⟨.hbm, 124, rfl⟩
abbrev main_v84 : Ref sig .tc := ⟨.hbm, 125, rfl⟩
abbrev main_cst_17 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x2_S1600000x2_S1600000x1_S1600000x16_S1600000x21_d1 : Shape.Concatenates [S1600000x2, S1600000x2, S1600000x1, S1600000x16] S1600000x21 1
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S50000x64 : S_.BroadcastsInDim S50000x64 (![] : Fin 0 → Fin S50000x64.rank)
  concatenates_S1600000x2_S1600000x2_S1600000x1_S1600000x64_S1600000x69_d1 : Shape.Concatenates [S1600000x2, S1600000x2, S1600000x1, S1600000x64] S1600000x69 1
  concatenates_S50000x2_S50000x64_S50000x64_S50000x64_S50000x194_d1 : Shape.Concatenates [S50000x2, S50000x64, S50000x64, S50000x64] S50000x194 1
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S1x64_S50000x64_0_1 : S1x64.BroadcastsInDim S50000x64 (![0, 1] : Fin 2 → Fin S50000x64.rank)
  gather_S50000x2_S1600000x1_S1600000x2_1_0_n_n_0_1_12_wf : GatherDims.WF S50000x2 S1600000x1 S1600000x2 [1] [0] [] [0] [] 1 ![1, 2]
  gather_S50000x16_S1600000x1_S1600000x16_1_0_n_n_0_1_116_wf : GatherDims.WF S50000x16 S1600000x1 S1600000x16 [1] [0] [] [0] [] 1 ![1, 16]
  dot_S1600000x21_S21x32_S1600000x32_1_0_0_1_n_n_wf : DotDims.WF S1600000x21 S21x32 S1600000x32 [1] [0] [0] [1] [] []
  dot_S1600000x32_S32x64_S1600000x64_1_0_0_1_n_n_wf : DotDims.WF S1600000x32 S32x64 S1600000x64 [1] [0] [0] [1] [] []
  scatter_S50000x64_S1600000x1_S1600000x64_1_0_0_1_wf : ScatterDims.WF S50000x64 S1600000x1 S1600000x64 [1] [0] [0] 1
  gather_S50000x64_S1600000x1_S1600000x64_1_0_n_n_0_1_164_wf : GatherDims.WF S50000x64 S1600000x1 S1600000x64 [1] [0] [] [0] [] 1 ![1, 64]
  dot_S1600000x69_S69x32_S1600000x32_1_0_0_1_n_n_wf : DotDims.WF S1600000x69 S69x32 S1600000x32 [1] [0] [0] [1] [] []
  dot_S50000x194_S194x32_S50000x32_1_0_0_1_n_n_wf : DotDims.WF S50000x194 S194x32 S50000x32 [1] [0] [0] [1] [] []
  dot_S50000x32_S32x64_S50000x64_1_0_0_1_n_n_wf : DotDims.WF S50000x32 S32x64 S50000x64 [1] [0] [0] [1] [] []

variable [Facts₀]

def gather_S50000x2_S1600000x1_S1600000x2_1_0_n_n_0_1_12 : GatherDims S50000x2 S1600000x1 S1600000x2 where
  offsetDims := [1]
  collapsedSliceDims := [0]
  operandBatchingDims := []
  startIndicesBatchingDims := []
  startIndexMap := [0]
  indexVectorDim := 1
  sliceSizes := ![1, 2]
  wf := gather_S50000x2_S1600000x1_S1600000x2_1_0_n_n_0_1_12_wf
def gather_S50000x16_S1600000x1_S1600000x16_1_0_n_n_0_1_116 : GatherDims S50000x16 S1600000x1 S1600000x16 where
  offsetDims := [1]
  collapsedSliceDims := [0]
  operandBatchingDims := []
  startIndicesBatchingDims := []
  startIndexMap := [0]
  indexVectorDim := 1
  sliceSizes := ![1, 16]
  wf := gather_S50000x16_S1600000x1_S1600000x16_1_0_n_n_0_1_116_wf
def dot_S1600000x21_S21x32_S1600000x32_1_0_0_1_n_n : DotDims S1600000x21 S21x32 S1600000x32 where
  lhsContracting := [1]
  rhsContracting := [0]
  lhsNonContracting := [0]
  rhsNonContracting := [1]
  lhsBatch := []
  rhsBatch := []
  wf := dot_S1600000x21_S21x32_S1600000x32_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x69_S69x32_S1600000x32_1_0_0_1_n_n : DotDims S1600000x69 S69x32 S1600000x32 where
  lhsContracting := [1]
  rhsContracting := [0]
  lhsNonContracting := [0]
  rhsNonContracting := [1]
  lhsBatch := []
  rhsBatch := []
  wf := dot_S1600000x69_S69x32_S1600000x32_1_0_0_1_n_n_wf
def dot_S50000x194_S194x32_S50000x32_1_0_0_1_n_n : DotDims S50000x194 S194x32 S50000x32 where
  lhsContracting := [1]
  rhsContracting := [0]
  lhsNonContracting := [0]
  rhsNonContracting := [1]
  lhsBatch := []
  rhsBatch := []
  wf := dot_S50000x194_S194x32_S50000x32_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf

class Facts : Prop extends Facts₀ where

variable [Facts]
-- ==== Proof.BReg0.lean ====
/-
  Region 0 of the kernel program: one pallas_call of the two-layer perceptron over a grid of row blocks.

  At a grid point the pipeline hands the body six staging buffers: a block of rows of the feature matrix, the two
  weight matrices and the two bias vectors whole (their block index never moves, so they are fetched once), and
  the output block. The body reads the five inputs through whole-buffer rectangles and overwrites the whole output
  block with one store, so what it leaves in the output buffer is one function of the five input blocks. This file
  states that function, runs the body against it, and packages the result as the proof data and the body
  obligation the pipeline library asks for, at any contents `V` of the core's buffers when the region is entered.
-/
import proofs.«102410_j3917010174735_1_alg».proof.Proof.Gen.Kernel.Launch
import proofs.«102410_j3917010174735_1_alg».proof.Proof.Gen.Kernel.Skeleton
import proofs.«102410_j3917010174735_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched its block index has not moved), for any proof data over the entry contents that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when it is not
    fetched its block index has not moved), for any proof data over the entry contents that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when it is not
    fetched its block index has not moved), for any proof data over the entry contents that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (when it is not
    fetched its block index has not moved), for any proof data over the entry contents that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (when it is not
    fetched its block index has not moved), for any proof data over the entry contents that leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S10000x21 := Rect.unit (s := S10000x21) ![0, 0] S10000x21.size inb_S10000x21_S10000x21_0_0
abbrev rW0 : Rect S21x32 := Rect.unit (s := S21x32) ![0, 0] S21x32.size inb_S21x32_S21x32_0_0
abbrev rB0 : Rect S32 := Rect.unit (s := S32) ![0] S32.size inb_S32_S32_0
abbrev rU0 : Rect S32x64 := Rect.unit (s := S32x64) ![0, 0] S32x64.size inb_S32x64_S32x64_0_0
abbrev rC0 : Rect S64 := Rect.unit (s := S64) ![0] S64.size inb_S64_S64_0
abbrev rO0 : Rect S10000x64 := Rect.unit (s := S10000x64) ![0, 0] S10000x64.size inb_S10000x64_S10000x64_0_0

/-! ## What the body leaves in the output block -/

/-- The output block after the body, from the five input blocks: its one store, of the perceptron of the loads. -/
def out0_5 (x0 : Vec F S10000x21 .f32) (x1 : Vec F S21x32 .f32) (x2 : Vec F S32 .f32) (x3 : Vec F S32x64 .f32) (x4 : Vec F S64 .f32) : Vec F S10000x64 .f32 :=
  View.canon [⟨rO0, k0_pay1 (View.ld x0 rX0) (View.ld x1 rW0) (View.ld x2 rB0) (View.ld x3 rU0) (View.ld x4 rC0)⟩]

/-- The one store covers the block. -/
theorem cover0_5 (p0 : Vec F S10000x64 .f32) (y : S10000x64.Idx) :
    ∃ pc ∈ ([⟨rO0, p0⟩] : List (View.Piece (Elt F) S10000x64 .f32)), y ∈ pc.1.set :=
  View.cover_of_tiled [⟨rO0, p0⟩] S10000x64.size (by rfl) y

/-! ## The body's triple -/

set_option maxHeartbeats 1000000 in
/-- On whole staging memrefs, the inputs' at contents `x0 … x4` and the output's at anything, the body runs to its
    return with the inputs' as they were and the output's at `out0_5` of them. -/
theorem sound_kernel0 (c : Dev nD) (E : Set ℕ) (i : grid0.Coords)
    (arg1 : Memref sig .tc .vmem S10000x21 .f32) (harg1 : arg1.IsWhole) (arg2 : Memref sig .tc .vmem S21x32 .f32) (harg2 : arg2.IsWhole)
    (arg3 : Memref sig .tc .vmem S32 .f32) (harg3 : arg3.IsWhole) (arg4 : Memref sig .tc .vmem S32x64 .f32) (harg4 : arg4.IsWhole)
    (arg5 : Memref sig .tc .vmem S64 .f32) (harg5 : arg5.IsWhole) (arg6 : Memref sig .tc .vmem S10000x64 .f32) (harg6 : arg6.IsWhole)
    (x0 : Vec F S10000x21 .f32) (x1 : Vec F S21x32 .f32) (x2 : Vec F S32 .f32) (x3 : Vec F S32x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BReg1.lean ====
/-
  Region 1 of the kernel program: one pallas_call of the two-layer perceptron over a grid of row blocks.

  At a grid point the pipeline hands the body six staging buffers: a block of rows of the feature matrix, the two
  weight matrices and the two bias vectors whole (their block index never moves, so they are fetched once), and
  the output block. The body reads the five inputs through whole-buffer rectangles and overwrites the whole output
  block with one store, so what it leaves in the output buffer is one function of the five input blocks. This file
  states that function, runs the body against it, and packages the result as the proof data and the body
  obligation the pipeline library asks for, at any contents `V` of the core's buffers when the region is entered.
-/
import proofs.«102410_j3917010174735_1_alg».proof.Proof.Gen.Kernel.Launch
import proofs.«102410_j3917010174735_1_alg».proof.Proof.Gen.Kernel.Skeleton
import proofs.«102410_j3917010174735_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (when it is not
    fetched its block index has not moved), for any proof data over the entry contents that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (when it is not
    fetched its block index has not moved), for any proof data over the entry contents that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (when it is not
    fetched its block index has not moved), for any proof data over the entry contents that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (when it is not
    fetched its block index has not moved), for any proof data over the entry contents that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (when it is not
    fetched its block index has not moved), for any proof data over the entry contents that leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S10000x69 := Rect.unit (s := S10000x69) ![0, 0] S10000x69.size inb_S10000x69_S10000x69_0_0
abbrev rW1 : Rect S69x32 := Rect.unit (s := S69x32) ![0, 0] S69x32.size inb_S69x32_S69x32_0_0
abbrev rB1 : Rect S32 := Rect.unit (s := S32) ![0] S32.size inb_S32_S32_0
abbrev rU1 : Rect S32x64 := Rect.unit (s := S32x64) ![0, 0] S32x64.size inb_S32x64_S32x64_0_0
abbrev rC1 : Rect S64 := Rect.unit (s := S64) ![0] S64.size inb_S64_S64_0
abbrev rO1 : Rect S10000x64 := Rect.unit (s := S10000x64) ![0, 0] S10000x64.size inb_S10000x64_S10000x64_0_0

/-! ## What the body leaves in the output block -/

/-- The output block after the body, from the five input blocks: its one store, of the perceptron of the loads. -/
def out1_5 (x0 : Vec F S10000x69 .f32) (x1 : Vec F S69x32 .f32) (x2 : Vec F S32 .f32) (x3 : Vec F S32x64 .f32) (x4 : Vec F S64 .f32) : Vec F S10000x64 .f32 :=
  View.canon [⟨rO1, k1_pay1 (View.ld x0 rX1) (View.ld x1 rW1) (View.ld x2 rB1) (View.ld x3 rU1) (View.ld x4 rC1)⟩]

/-- The one store covers the block. -/
theorem cover1_5 (p0 : Vec F S10000x64 .f32) (y : S10000x64.Idx) :
    ∃ pc ∈ ([⟨rO1, p0⟩] : List (View.Piece (Elt F) S10000x64 .f32)), y ∈ pc.1.set :=
  View.cover_of_tiled [⟨rO1, p0⟩] S10000x64.size (by rfl) y

/-! ## The body's triple -/

set_option maxHeartbeats 1000000 in
/-- On whole staging memrefs, the inputs' at contents `x0 … x4` and the output's at anything, the body runs to its
    return with the inputs' as they were and the output's at `out1_5` of them. -/
theorem sound_kernel1 (c : Dev nD) (E : Set ℕ) (i : grid1.Coords)
    (arg1 : Memref sig .tc .vmem S10000x69 .f32) (harg1 : arg1.IsWhole) (arg2 : Memref sig .tc .vmem S69x32 .f32) (harg2 : arg2.IsWhole)
    (arg3 : Memref sig .tc .vmem S32 .f32) (harg3 : arg3.IsWhole) (arg4 : Memref sig .tc .vmem S32x64 .f32) (harg4 : arg4.IsWhole)
    (arg5 : Memref sig .tc .vmem S64 .f32) (harg5 : arg5.IsWhole) (arg6 : Memref sig .tc .vmem S10000x64 .f32) (harg6 : arg6.IsWhole)
    (x0 : Vec F S10000x69 .f32) (x1 : Vec F S69x32 .f32) (x2 : Vec F S32 .f32) (x3 : Vec F S32x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BReg2.lean ====
/-
  Region 2 of the kernel program: one pallas_call of the two-layer perceptron over a grid of row blocks.

  At a grid point the pipeline hands the body six staging buffers: a block of rows of the feature matrix, the two
  weight matrices and the two bias vectors whole (their block index never moves, so they are fetched once), and
  the output block. The body reads the five inputs through whole-buffer rectangles and overwrites the whole output
  block with one store, so what it leaves in the output buffer is one function of the five input blocks. This file
  states that function, runs the body against it, and packages the result as the proof data and the body
  obligation the pipeline library asks for, at any contents `V` of the core's buffers when the region is entered.
-/
import proofs.«102410_j3917010174735_1_alg».proof.Proof.Gen.Kernel.Launch
import proofs.«102410_j3917010174735_1_alg».proof.Proof.Gen.Kernel.Skeleton
import proofs.«102410_j3917010174735_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data over the entry contents that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (when it is not
    fetched its block index has not moved), for any proof data over the entry contents that leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (when it is not
    fetched its block index has not moved), for any proof data over the entry contents that leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (when it is not
    fetched its block index has not moved), for any proof data over the entry contents that leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (when it is not
    fetched its block index has not moved), for any proof data over the entry contents that leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S5000x194 := Rect.unit (s := S5000x194) ![0, 0] S5000x194.size inb_S5000x194_S5000x194_0_0
abbrev rW2 : Rect S194x32 := Rect.unit (s := S194x32) ![0, 0] S194x32.size inb_S194x32_S194x32_0_0
abbrev rB2 : Rect S32 := Rect.unit (s := S32) ![0] S32.size inb_S32_S32_0
abbrev rU2 : Rect S32x64 := Rect.unit (s := S32x64) ![0, 0] S32x64.size inb_S32x64_S32x64_0_0
abbrev rC2 : Rect S64 := Rect.unit (s := S64) ![0] S64.size inb_S64_S64_0
abbrev rO2 : Rect S5000x64 := Rect.unit (s := S5000x64) ![0, 0] S5000x64.size inb_S5000x64_S5000x64_0_0

/-! ## What the body leaves in the output block -/

/-- The output block after the body, from the five input blocks: its one store, of the perceptron of the loads. -/
def out2_5 (x0 : Vec F S5000x194 .f32) (x1 : Vec F S194x32 .f32) (x2 : Vec F S32 .f32) (x3 : Vec F S32x64 .f32) (x4 : Vec F S64 .f32) : Vec F S5000x64 .f32 :=
  View.canon [⟨rO2, k2_pay1 (View.ld x0 rX2) (View.ld x1 rW2) (View.ld x2 rB2) (View.ld x3 rU2) (View.ld x4 rC2)⟩]

/-- The one store covers the block. -/
theorem cover2_5 (p0 : Vec F S5000x64 .f32) (y : S5000x64.Idx) :
    ∃ pc ∈ ([⟨rO2, p0⟩] : List (View.Piece (Elt F) S5000x64 .f32)), y ∈ pc.1.set :=
  View.cover_of_tiled [⟨rO2, p0⟩] S5000x64.size (by rfl) y

/-! ## The body's triple -/

set_option maxHeartbeats 1000000 in
/-- On whole staging memrefs, the inputs' at contents `x0 … x4` and the output's at anything, the body runs to its
    return with the inputs' as they were and the output's at `out2_5` of them. -/
theorem sound_kernel2 (c : Dev nD) (E : Set ℕ) (i : grid2.Coords)
    (arg1 : Memref sig .tc .vmem S5000x194 .f32) (harg1 : arg1.IsWhole) (arg2 : Memref sig .tc .vmem S194x32 .f32) (harg2 : arg2.IsWhole)
    (arg3 : Memref sig .tc .vmem S32 .f32) (harg3 : arg3.IsWhole) (arg4 : Memref sig .tc .vmem S32x64 .f32) (harg4 : arg4.IsWhole)
    (arg5 : Memref sig .tc .vmem S64 .f32) (harg5 : arg5.IsWhole) (arg6 : Memref sig .tc .vmem S5000x64 .f32) (harg6 : arg6.IsWhole)
    (x0 : Vec F S5000x194 .f32) (x1 : Vec F S194x32 .f32) (x2 : Vec F S32 .f32) (x3 : Vec F S32x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t`
    each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BRun.lean ====
/-
  The run of the kernel program: three host stretches, each followed by a perceptron region.

  The contents of the core's unscoped buffers are followed from the launch memory through the six items: a host
  stretch leaves them at the fold of its operations, a region leaves its output array at what the pipeline's
  write-backs make of it and everything else as it found it. Each region is packaged as a segment over the thread
  state "every unscoped buffer at the boundary's contents, the generator register at some state, nothing owed", and
  the pipeline library's launch theorem then gives: every weakly fair execution terminates, and in the final memory
  every unscoped buffer holds the last boundary's contents `W6`. From that one statement follow both the frame claim
  (no item writes an argument, so `W6` at an argument is the launch memory) and the value of the result array.
-/
import proofs.«102410_j3917010174735_1_alg».proof.Proof.BReg0
import proofs.«102410_j3917010174735_1_alg».proof.Proof.BReg1
import proofs.«102410_j3917010174735_1_alg».proof.Proof.BReg2
import proofs.«102410_j3917010174735_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs
    folded over the grid), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Region 0 changes only its output array `main_v22`: an input window's array is written back as it was found, and
    a buffer that is no window's array is not touched. -/
theorem W2_of_ne_out (c : Dev nD) (b : Ref sig .tc) (hb : b ≠ main_v22) :
    W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (V1 m) c).arrAt_in 0 rfl _).trans (A_eq0 (V1 m) c 0)
    | ⟨1, _⟩ => exact ((dat0 (V1 m) c).arrAt_in 1 rfl _).trans (A_eq0 (V1 m) c 1)
    | ⟨2, _⟩ => exact ((dat0 (V1 m) c).arrAt_in 2 rfl _).trans (A_eq0 (V1 m) c 2)
    | ⟨3, _⟩ => exact ((dat0 (V1 m) c).arrAt_in 3 rfl _).trans (A_eq0 (V1 m) c 3)
    | ⟨4, _⟩ => exact ((dat0 (V1 m) c).arrAt_in 4 rfl _).trans (A_eq0 (V1 m) c 4)
    | ⟨5, _⟩ => exact absurd rfl hb
  · exact W2_of_ne m c b fun w e => h ⟨w, e⟩

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the output's write-backs
    folded over the grid), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Region 1 changes only its output array `main_v48`: an input window's array is written back as it was found, and
    a buffer that is no window's array is not touched. -/
theorem W4_of_ne_out (c : Dev nD) (b : Ref sig .tc) (hb : b ≠ main_v48) :
    W4 m c (Proc.devRef .tc b) = W3 m c (Proc.devRef .tc b) := by
  by_cases h : ∃ w, Pipeline.arrRef spec1 w = b
  · obtain ⟨w, rfl⟩ := h
    rw [W4_arr]
    match w with
    | ⟨0, _⟩ => exact ((dat1 (V3 m) c).arrAt_in 0 rfl _).trans (A_eq1 (V3 m) c 0)
    | ⟨1, _⟩ => exact ((dat1 (V3 m) c).arrAt_in 1 rfl _).trans (A_eq1 (V3 m) c 1)
    | ⟨2, _⟩ => exact ((dat1 (V3 m) c).arrAt_in 2 rfl _).trans (A_eq1 (V3 m) c 2)
    | ⟨3, _⟩ => exact ((dat1 (V3 m) c).arrAt_in 3 rfl _).trans (A_eq1 (V3 m) c 3)
    | ⟨4, _⟩ => exact ((dat1 (V3 m) c).arrAt_in 4 rfl _).trans (A_eq1 (V3 m) c 4)
    | ⟨5, _⟩ => exact absurd rfl hb
  · exact W4_of_ne m c b fun w e => h ⟨w, e⟩

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (the inputs as entered, the output's write-backs
    folded over the grid), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- Region 2 changes only its output array `main_v53`: an input window's array is written back as it was found, and
    a buffer that is no window's array is not touched. -/
theorem W6_of_ne_out (c : Dev nD) (b : Ref sig .tc) (hb : b ≠ main_v53) :
    W6 m c (Proc.devRef .tc b) = W5 m c (Proc.devRef .tc b) := by
  by_cases h : ∃ w, Pipeline.arrRef spec2 w = b
  · obtain ⟨w, rfl⟩ := h
    rw [W6_arr]
    match w with
    | ⟨0, _⟩ => exact ((dat2 (V5 m) c).arrAt_in 0 rfl _).trans (A_eq2 (V5 m) c 0)
    | ⟨1, _⟩ => exact ((dat2 (V5 m) c).arrAt_in 1 rfl _).trans (A_eq2 (V5 m) c 1)
    | ⟨2, _⟩ => exact ((dat2 (V5 m) c).arrAt_in 2 rfl _).trans (A_eq2 (V5 m) c 2)
    | ⟨3, _⟩ => exact ((dat2 (V5 m) c).arrAt_in 3 rfl _).trans (A_eq2 (V5 m) c 3)
    | ⟨4, _⟩ => exact ((dat2 (V5 m) c).arrAt_in 4 rfl _).trans (A_eq2 (V5 m) c 4)
    | ⟨5, _⟩ => exact absurd rfl hb
  · exact W6_of_ne m c b fun w e => h ⟨w, e⟩

/-- A buffer the first host stretch does not write is as launched at region 0's entry. -/
theorem W1_kept (c : Dev nD) (b : Ref sig .tc) (h0 : b ∉ hostOps0_W) : W1 m c (Proc.devRef .tc b) = m ((c : Thread nD τ).loc b) :=
  (StableHlo.after_of_writes_sub hostOps0 _ hostOps0_writes h0).trans rfl
theorem W2_kept (c : Dev nD) (b : Ref sig .tc) (h0 : b ∉ hostOps0_W) (hb0 : b ≠ main_v22) :
    W2 m c (Proc.devRef .tc b) = m ((c : Thread nD τ).loc b) :=
  (W2_of_ne_out m c b hb0).trans (W1_kept m c b h0)
theorem W3_kept (c : Dev nD) (b : Ref sig .tc) (h0 : b ∉ hostOps0_W) (h1 : b ∉ hostOps1_W) (hb0 : b ≠ main_v22) :
    W3 m c (Proc.devRef .tc b) = m ((c : Thread nD τ).loc b) :=
  (StableHlo.after_of_writes_sub hostOps1 _ hostOps1_writes h1).trans (W2_kept m c b h0 hb0)
theorem W4_kept (c : Dev nD) (b : Ref sig .tc) (h0 : b ∉ hostOps0_W) (h1 : b ∉ hostOps1_W) (hb0 : b ≠ main_v22) (hb1 : b ≠ main_v48) :
    W4 m c (Proc.devRef .tc b) = m ((c : Thread nD τ).loc b) :=
  (W4_of_ne_out m c b hb1).trans (W3_kept m c b h0 h1 hb0)
theorem W5_kept (c : Dev nD) (b : Ref sig .tc) (h0 : b ∉ hostOps0_W) (h1 : b ∉ hostOps1_W) (h2 : b ∉ hostOps2_W)
    (hb0 : b ≠ main_v22) (hb1 : b ≠ main_v48) : W5 m c (Proc.devRef .tc b) = m ((c : Thread nD τ).loc b) :=
  (StableHlo.after_of_writes_sub hostOps2 _ hostOps2_writes h2).trans (W4_kept m c b h0 h1 hb0 hb1)
/-- A buffer that no host stretch writes and that is no region's output reaches the end as launched. -/
theorem W6_kept (c : Dev nD) (b : Ref sig .tc) (h0 : b ∉ hostOps0_W) (h1 : b ∉ hostOps1_W) (h2 : b ∉ hostOps2_W)
    (hb0 : b ≠ main_v22) (hb1 : b ≠ main_v48) (hb2 : b ≠ main_v53) :
    W6 m c (Proc.devRef .tc b) = m ((c : Thread nD τ).loc b) :=
  (W6_of_ne_out m c b hb2).trans (W5_kept m c b h0 h1 h2 hb0 hb1)

/-- The result array at the end is what region 2's write-backs leave. -/
theorem W6_out (c : Dev nD) : W6 m c (Proc.devRef .tc main_v53) = (dat2 (V5 m) c).arrAt 5 cfg2.N :=
  W6_arr m c 5

/-! ## The proof data family and the thread state -/

/-- The prefetched tables' admissible contents: no pipeline has a table. -/
abbrev tabs : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) tabs p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its
    arrays are split out of the unscoped buffers and put back at the exit contents; the generator register goes into the
    region's invariant and comes back; nothing is owed; the kernel has no semaphore of its own. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its
    arrays are split out of the unscoped buffers and put back at the exit contents; the generator register goes into the
    region's invariant and comes back; nothing is owed; the kernel has no semaphore of its own. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its
    arrays are split out of the unscoped buffers and put back at the exit contents; the generator register goes into the
    region's invariant and comes back; nothing is owed; the kernel has no semaphore of its own. -/
def reg2 : Pipeline.RegionSeg (pcfgs (F := F)) tabs (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) tabs (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tabs (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The six items in order. -/
abbrev items : List (Pipeline.Seg (pcfgs (F := F)) tabs (pdats m) () defs₀ 𝒱₀ L lv) :=
  [ .host (hostItem hostOps0 hostOps0_sub hostOps0_fresh (W0 m)),
    .region (reg0 m),
    .host (hostItem hostOps1 hostOps1_sub hostOps1_fresh (W2 m)),
    .region (reg1 m),
    .host (hostItem hostOps2 hostOps2_sub hostOps2_fresh (W4 m)),
    .region (reg2 m) ]

set_option backward.isDefEq.respectTransparency.types false in
/-- THE RUN. From any memory with zero counters every weakly fair execution of the program terminates, nothing
    faulting, and in every final memory each unscoped buffer of each core holds the last boundary's contents. -/
theorem run_all (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W6 m c b) → Q (⟨⟩, s)) :
    θ_run defs (onTc (τ := τ) (main (F := F))) ⟨m, fun _ => 0, ρ⟩ Q :=
  Pipeline.θ_run_regions_kit (pcfgs (F := F)) tabs (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := hQ)

end Cert.Kernel.Hand

end
-- ==== Proof.BFrame.lean ====
/-
  The frame claim of the kernel program: it runs to the end, nothing faults, and every argument array ends as launched.

  The run leaves every unscoped buffer at the last boundary's contents; no host stretch writes an argument and a
  region changes only its own output array, so those contents at an argument are the launch memory's.
-/
import proofs.«102410_j3917010174735_1_alg».proof.Proof.BRun

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- Every weakly fair execution terminates, nothing faulting, with each argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  run_all m ρ (hQ := fun r h c =>
    ⟨(h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide)),
     (h c _ (mem_uc main_arg5 (by decide))).trans (W6_kept m c main_arg5 (by decide) (by decide) (by decide) (by decide) (by decide) (by decide)),
     (h c _ (mem_uc main_arg6 (by decide))).trans (W6_kept m c main_arg6 (by decide) (by decide) (by decide) (by decide) (by decide) (by decide)),
     (h c _ (mem_uc main_arg7 (by decide))).trans (W6_kept m c main_arg7 (by decide) (by decide) (by decide) (by decide) (by decide) (by decide)),
     (h c _ (mem_uc main_arg8 (by decide))).trans (W6_kept m c main_arg8 (by decide) (by decide) (by decide) (by decide) (by decide) (by decide)),
     (h c _ (mem_uc main_arg9 (by decide))).trans (W6_kept m c main_arg9 (by decide) (by decide) (by decide) (by decide) (by decide) (by decide)),
     (h c _ (mem_uc main_arg10 (by decide))).trans (W6_kept m c main_arg10 (by decide) (by decide) (by decide) (by decide) (by decide) (by decide)),
     (h c _ (mem_uc main_arg11 (by decide))).trans (W6_kept m c main_arg11 (by decide) (by decide) (by decide) (by decide) (by decide) (by decide)),
     (h c _ (mem_uc main_arg12 (by decide))).trans (W6_kept m c main_arg12 (by decide) (by decide) (by decide) (by decide) (by decide) (by decide)),
     (h c _ (mem_uc main_arg13 (by decide))).trans (W6_kept m c main_arg13 (by decide) (by decide) (by decide) (by decide) (by decide) (by decide)),
     (h c _ (mem_uc main_arg14 (by decide))).trans (W6_kept m c main_arg14 (by decide) (by decide) (by decide) (by decide) (by decide) (by decide)),
     (h c _ (mem_uc main_arg15 (by decide))).trans (W6_kept m c main_arg15 (by decide) (by decide) (by decide) (by decide) (by decide) (by decide)),
     (h c _ (mem_uc main_arg16 (by decide))).trans (W6_kept m c main_arg16 (by decide) (by decide) (by decide) (by decide) (by decide) (by decide)),
     (h c _ (mem_uc main_arg17 (by decide))).trans (W6_kept m c main_arg17 (by decide) (by decide) (by decide) (by decide) (by decide) (by decide)),
     (h c _ (mem_uc main_arg18 (by decide))).trans (W6_kept m c main_arg18 (by decide) (by decide) (by decide) (by decide) (by decide) (by decide)),
     (h c _ (mem_uc main_arg19 (by decide))).trans (W6_kept m c main_arg19 (by decide) (by decide) (by decide) (by decide) (by decide) (by decide)),
     (h c _ (mem_uc main_arg20 (by decide))).trans (W6_kept m c main_arg20 (by decide) (by decide) (by decide) (by decide) (by decide) (by decide)),
     (h c _ (mem_uc main_arg21 (by decide))).trans (W6_kept m c main_arg21 (by decide) (by decide) (by decide) (by decide) (by decide) (by decide))⟩)

end Cert.Kernel.Hand

end
-- ==== Proof.KReg0.lean ====
/-
  Region 0 of the idealized kernel program: one pallas_call of the two-layer perceptron over a grid of row blocks.

  At a grid point the pipeline hands the body six staging buffers: a block of rows of the feature matrix, the two
  weight matrices and the two bias vectors whole (their block index never moves, so they are fetched once), and
  the output block. The body reads the five inputs through whole-buffer rectangles and overwrites the whole output
  block with one store, so what it leaves in the output buffer is one function of the five input blocks. This file
  states that function, runs the body against it, and packages the result as the proof data and the body
  obligation the pipeline library asks for, at any contents `V` of the core's buffers when the region is entered.
-/
import proofs.«102410_j3917010174735_1_alg».proof.Proof.Gen.KernelIdeal.Launch
import proofs.«102410_j3917010174735_1_alg».proof.Proof.Gen.KernelIdeal.Skeleton
import proofs.«102410_j3917010174735_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when it is not
    fetched its block index has not moved), for any proof data over the entry contents that leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (when it is not
    fetched its block index has not moved), for any proof data over the entry contents that leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (when it is not
    fetched its block index has not moved), for any proof data over the entry contents that leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (when it is not
    fetched its block index has not moved), for any proof data over the entry contents that leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (when it is not
    fetched its block index has not moved), for any proof data over the entry contents that leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S10000x21 := Rect.unit (s := S10000x21) ![0, 0] S10000x21.size inb_S10000x21_S10000x21_0_0
abbrev rW0 : Rect S21x32 := Rect.unit (s := S21x32) ![0, 0] S21x32.size inb_S21x32_S21x32_0_0
abbrev rB0 : Rect S32 := Rect.unit (s := S32) ![0] S32.size inb_S32_S32_0
abbrev rU0 : Rect S32x64 := Rect.unit (s := S32x64) ![0, 0] S32x64.size inb_S32x64_S32x64_0_0
abbrev rC0 : Rect S64 := Rect.unit (s := S64) ![0] S64.size inb_S64_S64_0
abbrev rO0 : Rect S10000x64 := Rect.unit (s := S10000x64) ![0, 0] S10000x64.size inb_S10000x64_S10000x64_0_0

/-! ## What the body leaves in the output block -/

/-- The output block after the body, from the five input blocks: its one store, of the perceptron of the loads. -/
def out0_5 (x0 : Vec F S10000x21 .f32) (x1 : Vec F S21x32 .f32) (x2 : Vec F S32 .f32) (x3 : Vec F S32x64 .f32) (x4 : Vec F S64 .f32) : Vec F S10000x64 .f32 :=
  View.canon [⟨rO0, k0_pay1 (View.ld x0 rX0) (View.ld x1 rW0) (View.ld x2 rB0) (View.ld x3 rU0) (View.ld x4 rC0)⟩]

/-- The one store covers the block. -/
theorem cover0_5 (p0 : Vec F S10000x64 .f32) (y : S10000x64.Idx) :
    ∃ pc ∈ ([⟨rO0, p0⟩] : List (View.Piece (Elt F) S10000x64 .f32)), y ∈ pc.1.set :=
  View.cover_of_tiled [⟨rO0, p0⟩] S10000x64.size (by rfl) y

/-! ## The body's triple -/

set_option maxHeartbeats 1000000 in
/-- On whole staging memrefs, the inputs' at contents `x0 … x4` and the output's at anything, the body runs to its
    return with the inputs' as they were and the output's at `out0_5` of them. -/
theorem sound_kernel0 (c : Dev nD) (E : Set ℕ) (i : grid0.Coords)
    (arg1 : Memref sig .tc .vmem S10000x21 .f32) (harg1 : arg1.IsWhole) (arg2 : Memref sig .tc .vmem S21x32 .f32) (harg2 : arg2.IsWhole)
    (arg3 : Memref sig .tc .vmem S32 .f32) (harg3 : arg3.IsWhole) (arg4 : Memref sig .tc .vmem S32x64 .f32) (harg4 : arg4.IsWhole)
    (arg5 : Memref sig .tc .vmem S64 .f32) (harg5 : arg5.IsWhole) (arg6 : Memref sig .tc .vmem S10000x64 .f32) (harg6 : arg6.IsWhole)
    (x0 : Vec F S10000x21 .f32) (x1 : Vec F S21x32 .f32) (x2 : Vec F S32 .f32) (x3 : Vec F S32x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of this pipeline on core `c`: the arrays as the region finds them; after the body at point `t`
    each input's buffer at its block and the output's at `out0_5` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KReg1.lean ====
/-
  Region 1 of the idealized kernel program: one pallas_call of the two-layer perceptron over a grid of row blocks.

  At a grid point the pipeline hands the body six staging buffers: a block of rows of the feature matrix, the two
  weight matrices and the two bias vectors whole (their block index never moves, so they are fetched once), and
  the output block. The body reads the five inputs through whole-buffer rectangles and overwrites the whole output
  block with one store, so what it leaves in the output buffer is one function of the five input blocks. This file
  states that function, runs the body against it, and packages the result as the proof data and the body
  obligation the pipeline library asks for, at any contents `V` of the core's buffers when the region is entered.
-/
import proofs.«102410_j3917010174735_1_alg».proof.Proof.Gen.KernelIdeal.Launch
import proofs.«102410_j3917010174735_1_alg».proof.Proof.Gen.KernelIdeal.Skeleton
import proofs.«102410_j3917010174735_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (when it is not
    fetched its block index has not moved), for any proof data over the entry contents that leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (when it is not
    fetched its block index has not moved), for any proof data over the entry contents that leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (when it is not
    fetched its block index has not moved), for any proof data over the entry contents that leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (when it is not
    fetched its block index has not moved), for any proof data over the entry contents that leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (when it is not
    fetched its block index has not moved), for any proof data over the entry contents that leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rX1 : Rect S10000x69 := Rect.unit (s := S10000x69) ![0, 0] S10000x69.size inb_S10000x69_S10000x69_0_0
abbrev rW1 : Rect S69x32 := Rect.unit (s := S69x32) ![0, 0] S69x32.size inb_S69x32_S69x32_0_0
abbrev rB1 : Rect S32 := Rect.unit (s := S32) ![0] S32.size inb_S32_S32_0
abbrev rU1 : Rect S32x64 := Rect.unit (s := S32x64) ![0, 0] S32x64.size inb_S32x64_S32x64_0_0
abbrev rC1 : Rect S64 := Rect.unit (s := S64) ![0] S64.size inb_S64_S64_0
abbrev rO1 : Rect S10000x64 := Rect.unit (s := S10000x64) ![0, 0] S10000x64.size inb_S10000x64_S10000x64_0_0

/-! ## What the body leaves in the output block -/

/-- The output block after the body, from the five input blocks: its one store, of the perceptron of the loads. -/
def out1_5 (x0 : Vec F S10000x69 .f32) (x1 : Vec F S69x32 .f32) (x2 : Vec F S32 .f32) (x3 : Vec F S32x64 .f32) (x4 : Vec F S64 .f32) : Vec F S10000x64 .f32 :=
  View.canon [⟨rO1, k1_pay1 (View.ld x0 rX1) (View.ld x1 rW1) (View.ld x2 rB1) (View.ld x3 rU1) (View.ld x4 rC1)⟩]

/-- The one store covers the block. -/
theorem cover1_5 (p0 : Vec F S10000x64 .f32) (y : S10000x64.Idx) :
    ∃ pc ∈ ([⟨rO1, p0⟩] : List (View.Piece (Elt F) S10000x64 .f32)), y ∈ pc.1.set :=
  View.cover_of_tiled [⟨rO1, p0⟩] S10000x64.size (by rfl) y

/-! ## The body's triple -/

set_option maxHeartbeats 1000000 in
/-- On whole staging memrefs, the inputs' at contents `x0 … x4` and the output's at anything, the body runs to its
    return with the inputs' as they were and the output's at `out1_5` of them. -/
theorem sound_kernel1 (c : Dev nD) (E : Set ℕ) (i : grid1.Coords)
    (arg1 : Memref sig .tc .vmem S10000x69 .f32) (harg1 : arg1.IsWhole) (arg2 : Memref sig .tc .vmem S69x32 .f32) (harg2 : arg2.IsWhole)
    (arg3 : Memref sig .tc .vmem S32 .f32) (harg3 : arg3.IsWhole) (arg4 : Memref sig .tc .vmem S32x64 .f32) (harg4 : arg4.IsWhole)
    (arg5 : Memref sig .tc .vmem S64 .f32) (harg5 : arg5.IsWhole) (arg6 : Memref sig .tc .vmem S10000x64 .f32) (harg6 : arg6.IsWhole)
    (x0 : Vec F S10000x69 .f32) (x1 : Vec F S69x32 .f32) (x2 : Vec F S32 .f32) (x3 : Vec F S32x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of this pipeline on core `c`: the arrays as the region finds them; after the body at point `t`
    each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KReg2.lean ====
/-
  Region 2 of the idealized kernel program: one pallas_call of the two-layer perceptron over a grid of row blocks.

  At a grid point the pipeline hands the body six staging buffers: a block of rows of the feature matrix, the two
  weight matrices and the two bias vectors whole (their block index never moves, so they are fetched once), and
  the output block. The body reads the five inputs through whole-buffer rectangles and overwrites the whole output
  block with one store, so what it leaves in the output buffer is one function of the five input blocks. This file
  states that function, runs the body against it, and packages the result as the proof data and the body
  obligation the pipeline library asks for, at any contents `V` of the core's buffers when the region is entered.
-/
import proofs.«102410_j3917010174735_1_alg».proof.Proof.Gen.KernelIdeal.Launch
import proofs.«102410_j3917010174735_1_alg».proof.Proof.Gen.KernelIdeal.Skeleton
import proofs.«102410_j3917010174735_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (when it is not
    fetched its block index has not moved), for any proof data over the entry contents that leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (when it is not
    fetched its block index has not moved), for any proof data over the entry contents that leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (when it is not
    fetched its block index has not moved), for any proof data over the entry contents that leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (when it is not
    fetched its block index has not moved), for any proof data over the entry contents that leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (when it is not
    fetched its block index has not moved), for any proof data over the entry contents that leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer whole -/

abbrev rX2 : Rect S5000x194 := Rect.unit (s := S5000x194) ![0, 0] S5000x194.size inb_S5000x194_S5000x194_0_0
abbrev rW2 : Rect S194x32 := Rect.unit (s := S194x32) ![0, 0] S194x32.size inb_S194x32_S194x32_0_0
abbrev rB2 : Rect S32 := Rect.unit (s := S32) ![0] S32.size inb_S32_S32_0
abbrev rU2 : Rect S32x64 := Rect.unit (s := S32x64) ![0, 0] S32x64.size inb_S32x64_S32x64_0_0
abbrev rC2 : Rect S64 := Rect.unit (s := S64) ![0] S64.size inb_S64_S64_0
abbrev rO2 : Rect S5000x64 := Rect.unit (s := S5000x64) ![0, 0] S5000x64.size inb_S5000x64_S5000x64_0_0

/-! ## What the body leaves in the output block -/

/-- The output block after the body, from the five input blocks: its one store, of the perceptron of the loads. -/
def out2_5 (x0 : Vec F S5000x194 .f32) (x1 : Vec F S194x32 .f32) (x2 : Vec F S32 .f32) (x3 : Vec F S32x64 .f32) (x4 : Vec F S64 .f32) : Vec F S5000x64 .f32 :=
  View.canon [⟨rO2, k2_pay1 (View.ld x0 rX2) (View.ld x1 rW2) (View.ld x2 rB2) (View.ld x3 rU2) (View.ld x4 rC2)⟩]

/-- The one store covers the block. -/
theorem cover2_5 (p0 : Vec F S5000x64 .f32) (y : S5000x64.Idx) :
    ∃ pc ∈ ([⟨rO2, p0⟩] : List (View.Piece (Elt F) S5000x64 .f32)), y ∈ pc.1.set :=
  View.cover_of_tiled [⟨rO2, p0⟩] S5000x64.size (by rfl) y

/-! ## The body's triple -/

set_option maxHeartbeats 1000000 in
/-- On whole staging memrefs, the inputs' at contents `x0 … x4` and the output's at anything, the body runs to its
    return with the inputs' as they were and the output's at `out2_5` of them. -/
theorem sound_kernel2 (c : Dev nD) (E : Set ℕ) (i : grid2.Coords)
    (arg1 : Memref sig .tc .vmem S5000x194 .f32) (harg1 : arg1.IsWhole) (arg2 : Memref sig .tc .vmem S194x32 .f32) (harg2 : arg2.IsWhole)
    (arg3 : Memref sig .tc .vmem S32 .f32) (harg3 : arg3.IsWhole) (arg4 : Memref sig .tc .vmem S32x64 .f32) (harg4 : arg4.IsWhole)
    (arg5 : Memref sig .tc .vmem S64 .f32) (harg5 : arg5.IsWhole) (arg6 : Memref sig .tc .vmem S5000x64 .f32) (harg6 : arg6.IsWhole)
    (x0 : Vec F S5000x194 .f32) (x1 : Vec F S194x32 .f32) (x2 : Vec F S32 .f32) (x3 : Vec F S32x64 .f32) (x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of this pipeline on core `c`: the arrays as the region finds them; after the body at point `t`
    each input's buffer at its block and the output's at `out2_5` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KRun.lean ====
/-
  The run of the idealized kernel program: three host stretches, each followed by a perceptron region.

  The contents of the core's unscoped buffers are followed from the launch memory through the six items: a host
  stretch leaves them at the fold of its operations, a region leaves its output array at what the pipeline's
  write-backs make of it and everything else as it found it. Each region is packaged as a segment over the thread
  state "every unscoped buffer at the boundary's contents, the generator register at some state, nothing owed", and
  the pipeline library's launch theorem then gives: every weakly fair execution terminates, and in the final memory
  every unscoped buffer holds the last boundary's contents `W6`. From that one statement follow both the frame claim
  (no item writes an argument, so `W6` at an argument is the launch memory) and the value of the result array.
-/
import proofs.«102410_j3917010174735_1_alg».proof.Proof.KReg0
import proofs.«102410_j3917010174735_1_alg».proof.Proof.KReg1
import proofs.«102410_j3917010174735_1_alg».proof.Proof.KReg2
import proofs.«102410_j3917010174735_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs
    folded over the grid), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- Region 0 changes only its output array `main_v22`: an input window's array is written back as it was found, and
    a buffer that is no window's array is not touched. -/
theorem W2_of_ne_out (c : Dev nD) (b : Ref sig .tc) (hb : b ≠ main_v22) :
    W2 m c (Proc.devRef .tc b) = W1 m c (Proc.devRef .tc b) := by
  by_cases h : ∃ w, Pipeline.arrRef spec0 w = b
  · obtain ⟨w, rfl⟩ := h
    rw [W2_arr]
    match w with
    | ⟨0, _⟩ => exact ((dat0 (V1 m) c).arrAt_in 0 rfl _).trans (A_eq0 (V1 m) c 0)
    | ⟨1, _⟩ => exact ((dat0 (V1 m) c).arrAt_in 1 rfl _).trans (A_eq0 (V1 m) c 1)
    | ⟨2, _⟩ => exact ((dat0 (V1 m) c).arrAt_in 2 rfl _).trans (A_eq0 (V1 m) c 2)
    | ⟨3, _⟩ => exact ((dat0 (V1 m) c).arrAt_in 3 rfl _).trans (A_eq0 (V1 m) c 3)
    | ⟨4, _⟩ => exact ((dat0 (V1 m) c).arrAt_in 4 rfl _).trans (A_eq0 (V1 m) c 4)
    | ⟨5, _⟩ => exact absurd rfl hb
  · exact W2_of_ne m c b fun w e => h ⟨w, e⟩

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the output's write-backs
    folded over the grid), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- Region 1 changes only its output array `main_v48`: an input window's array is written back as it was found, and
    a buffer that is no window's array is not touched. -/
theorem W4_of_ne_out (c : Dev nD) (b : Ref sig .tc) (hb : b ≠ main_v48) :
    W4 m c (Proc.devRef .tc b) = W3 m c (Proc.devRef .tc b) := by
  by_cases h : ∃ w, Pipeline.arrRef spec1 w = b
  · obtain ⟨w, rfl⟩ := h
    rw [W4_arr]
    match w with
    | ⟨0, _⟩ => exact ((dat1 (V3 m) c).arrAt_in 0 rfl _).trans (A_eq1 (V3 m) c 0)
    | ⟨1, _⟩ => exact ((dat1 (V3 m) c).arrAt_in 1 rfl _).trans (A_eq1 (V3 m) c 1)
    | ⟨2, _⟩ => exact ((dat1 (V3 m) c).arrAt_in 2 rfl _).trans (A_eq1 (V3 m) c 2)
    | ⟨3, _⟩ => exact ((dat1 (V3 m) c).arrAt_in 3 rfl _).trans (A_eq1 (V3 m) c 3)
    | ⟨4, _⟩ => exact ((dat1 (V3 m) c).arrAt_in 4 rfl _).trans (A_eq1 (V3 m) c 4)
    | ⟨5, _⟩ => exact absurd rfl hb
  · exact W4_of_ne m c b fun w e => h ⟨w, e⟩

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the pipeline leaves (the inputs as entered, the output's write-backs
    folded over the grid), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- Region 2 changes only its output array `main_v53`: an input window's array is written back as it was found, and
    a buffer that is no window's array is not touched. -/
theorem W6_of_ne_out (c : Dev nD) (b : Ref sig .tc) (hb : b ≠ main_v53) :
    W6 m c (Proc.devRef .tc b) = W5 m c (Proc.devRef .tc b) := by
  by_cases h : ∃ w, Pipeline.arrRef spec2 w = b
  · obtain ⟨w, rfl⟩ := h
    rw [W6_arr]
    match w with
    | ⟨0, _⟩ => exact ((dat2 (V5 m) c).arrAt_in 0 rfl _).trans (A_eq2 (V5 m) c 0)
    | ⟨1, _⟩ => exact ((dat2 (V5 m) c).arrAt_in 1 rfl _).trans (A_eq2 (V5 m) c 1)
    | ⟨2, _⟩ => exact ((dat2 (V5 m) c).arrAt_in 2 rfl _).trans (A_eq2 (V5 m) c 2)
    | ⟨3, _⟩ => exact ((dat2 (V5 m) c).arrAt_in 3 rfl _).trans (A_eq2 (V5 m) c 3)
    | ⟨4, _⟩ => exact ((dat2 (V5 m) c).arrAt_in 4 rfl _).trans (A_eq2 (V5 m) c 4)
    | ⟨5, _⟩ => exact absurd rfl hb
  · exact W6_of_ne m c b fun w e => h ⟨w, e⟩

/-- A buffer the first host stretch does not write is as launched at region 0's entry. -/
theorem W1_kept (c : Dev nD) (b : Ref sig .tc) (h0 : b ∉ hostOps0_W) : W1 m c (Proc.devRef .tc b) = m ((c : Thread nD τ).loc b) :=
  (StableHlo.after_of_writes_sub hostOps0 _ hostOps0_writes h0).trans rfl
theorem W2_kept (c : Dev nD) (b : Ref sig .tc) (h0 : b ∉ hostOps0_W) (hb0 : b ≠ main_v22) :
    W2 m c (Proc.devRef .tc b) = m ((c : Thread nD τ).loc b) :=
  (W2_of_ne_out m c b hb0).trans (W1_kept m c b h0)
theorem W3_kept (c : Dev nD) (b : Ref sig .tc) (h0 : b ∉ hostOps0_W) (h1 : b ∉ hostOps1_W) (hb0 : b ≠ main_v22) :
    W3 m c (Proc.devRef .tc b) = m ((c : Thread nD τ).loc b) :=
  (StableHlo.after_of_writes_sub hostOps1 _ hostOps1_writes h1).trans (W2_kept m c b h0 hb0)
theorem W4_kept (c : Dev nD) (b : Ref sig .tc) (h0 : b ∉ hostOps0_W) (h1 : b ∉ hostOps1_W) (hb0 : b ≠ main_v22) (hb1 : b ≠ main_v48) :
    W4 m c (Proc.devRef .tc b) = m ((c : Thread nD τ).loc b) :=
  (W4_of_ne_out m c b hb1).trans (W3_kept m c b h0 h1 hb0)
theorem W5_kept (c : Dev nD) (b : Ref sig .tc) (h0 : b ∉ hostOps0_W) (h1 : b ∉ hostOps1_W) (h2 : b ∉ hostOps2_W)
    (hb0 : b ≠ main_v22) (hb1 : b ≠ main_v48) : W5 m c (Proc.devRef .tc b) = m ((c : Thread nD τ).loc b) :=
  (StableHlo.after_of_writes_sub hostOps2 _ hostOps2_writes h2).trans (W4_kept m c b h0 h1 hb0 hb1)
/-- A buffer that no host stretch writes and that is no region's output reaches the end as launched. -/
theorem W6_kept (c : Dev nD) (b : Ref sig .tc) (h0 : b ∉ hostOps0_W) (h1 : b ∉ hostOps1_W) (h2 : b ∉ hostOps2_W)
    (hb0 : b ≠ main_v22) (hb1 : b ≠ main_v48) (hb2 : b ≠ main_v53) :
    W6 m c (Proc.devRef .tc b) = m ((c : Thread nD τ).loc b) :=
  (W6_of_ne_out m c b hb2).trans (W5_kept m c b h0 h1 h2 hb0 hb1)

/-- The result array at the end is what region 2's write-backs leave. -/
theorem W6_out (c : Dev nD) : W6 m c (Proc.devRef .tc main_v53) = (dat2 (V5 m) c).arrAt 5 cfg2.N :=
  W6_arr m c 5

/-! ## The proof data family and the thread state -/

/-- The prefetched tables' admissible contents: no pipeline has a table. -/
abbrev tabs : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) tabs p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its
    arrays are split out of the unscoped buffers and put back at the exit contents; the generator register goes into the
    region's invariant and comes back; nothing is owed; the kernel has no semaphore of its own. -/
def reg0 : Pipeline.RegionSeg (pcfgs (F := F)) tabs (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its
    arrays are split out of the unscoped buffers and put back at the exit contents; the generator register goes into the
    region's invariant and comes back; nothing is owed; the kernel has no semaphore of its own. -/
def reg1 : Pipeline.RegionSeg (pcfgs (F := F)) tabs (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its
    arrays are split out of the unscoped buffers and put back at the exit contents; the generator register goes into the
    region's invariant and comes back; nothing is owed; the kernel has no semaphore of its own. -/
def reg2 : Pipeline.RegionSeg (pcfgs (F := F)) tabs (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) tabs (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tabs (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The six items in order. -/
abbrev items : List (Pipeline.Seg (pcfgs (F := F)) tabs (pdats m) () defs₀ 𝒱₀ L lv) :=
  [ .host (hostItem hostOps0 hostOps0_sub hostOps0_fresh (W0 m)),
    .region (reg0 m),
    .host (hostItem hostOps1 hostOps1_sub hostOps1_fresh (W2 m)),
    .region (reg1 m),
    .host (hostItem hostOps2 hostOps2_sub hostOps2_fresh (W4 m)),
    .region (reg2 m) ]

set_option backward.isDefEq.respectTransparency.types false in
/-- THE RUN. From any memory with zero counters every weakly fair execution of the program terminates, nothing
    faulting, and in every final memory each unscoped buffer of each core holds the last boundary's contents. -/
theorem run_all (ρ : Dev nD → PrngReg) {Q : PUnit × MemSt nD τ sig (Elt F) → Prop}
    (hQ : ∀ s : MemSt nD τ sig (Elt F), (∀ c : Dev nD, ∀ b ∈ Pipeline.ucRefs τ sig, s.mem (((c : Thread nD τ)).1, b) = W6 m c b) → Q (⟨⟩, s)) :
    θ_run defs (onTc (τ := τ) (main (F := F))) ⟨m, fun _ => 0, ρ⟩ Q :=
  Pipeline.θ_run_regions_kit (pcfgs (F := F)) tabs (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := hQ)

end Cert.KernelIdeal.Hand

end
-- ==== Proof.KFrame.lean ====
/-
  The frame claim of the idealized kernel program: it runs to the end, nothing faults, and every argument array ends as launched.

  The run leaves every unscoped buffer at the last boundary's contents; no host stretch writes an argument and a
  region changes only its own output array, so those contents at an argument are the launch memory's.
-/
import proofs.«102410_j3917010174735_1_alg».proof.Proof.KRun

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- Every weakly fair execution terminates, nothing faulting, with each argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  run_all m ρ (hQ := fun r h c =>
    ⟨(h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide)),
     (h c _ (mem_uc main_arg5 (by decide))).trans (W6_kept m c main_arg5 (by decide) (by decide) (by decide) (by decide) (by decide) (by decide)),
     (h c _ (mem_uc main_arg6 (by decide))).trans (W6_kept m c main_arg6 (by decide) (by decide) (by decide) (by decide) (by decide) (by decide)),
     (h c _ (mem_uc main_arg7 (by decide))).trans (W6_kept m c main_arg7 (by decide) (by decide) (by decide) (by decide) (by decide) (by decide)),
     (h c _ (mem_uc main_arg8 (by decide))).trans (W6_kept m c main_arg8 (by decide) (by decide) (by decide) (by decide) (by decide) (by decide)),
     (h c _ (mem_uc main_arg9 (by decide))).trans (W6_kept m c main_arg9 (by decide) (by decide) (by decide) (by decide) (by decide) (by decide)),
     (h c _ (mem_uc main_arg10 (by decide))).trans (W6_kept m c main_arg10 (by decide) (by decide) (by decide) (by decide) (by decide) (by decide)),
     (h c _ (mem_uc main_arg11 (by decide))).trans (W6_kept m c main_arg11 (by decide) (by decide) (by decide) (by decide) (by decide) (by decide)),
     (h c _ (mem_uc main_arg12 (by decide))).trans (W6_kept m c main_arg12 (by decide) (by decide) (by decide) (by decide) (by decide) (by decide)),
     (h c _ (mem_uc main_arg13 (by decide))).trans (W6_kept m c main_arg13 (by decide) (by decide) (by decide) (by decide) (by decide) (by decide)),
     (h c _ (mem_uc main_arg14 (by decide))).trans (W6_kept m c main_arg14 (by decide) (by decide) (by decide) (by decide) (by decide) (by decide)),
     (h c _ (mem_uc main_arg15 (by decide))).trans (W6_kept m c main_arg15 (by decide) (by decide) (by decide) (by decide) (by decide) (by decide)),
     (h c _ (mem_uc main_arg16 (by decide))).trans (W6_kept m c main_arg16 (by decide) (by decide) (by decide) (by decide) (by decide) (by decide)),
     (h c _ (mem_uc main_arg17 (by decide))).trans (W6_kept m c main_arg17 (by decide) (by decide) (by decide) (by decide) (by decide) (by decide)),
     (h c _ (mem_uc main_arg18 (by decide))).trans (W6_kept m c main_arg18 (by decide) (by decide) (by decide) (by decide) (by decide) (by decide)),
     (h c _ (mem_uc main_arg19 (by decide))).trans (W6_kept m c main_arg19 (by decide) (by decide) (by decide) (by decide) (by decide) (by decide)),
     (h c _ (mem_uc main_arg20 (by decide))).trans (W6_kept m c main_arg20 (by decide) (by decide) (by decide) (by decide) (by decide) (by decide)),
     (h c _ (mem_uc main_arg21 (by decide))).trans (W6_kept m c main_arg21 (by decide) (by decide) (by decide) (by decide) (by decide) (by decide))⟩)

end Cert.KernelIdeal.Hand

end
-- ==== Proof.MlpRow.lean ====
/-
  One row of the two-layer perceptron both programs compute, over the extended reals.

  For a row `x` of `I` features, first-layer weights `w1 : I × 32` with bias `b1`, second-layer weights
  `w2 : 32 × 64` with bias `b2`, output column `q` is

      tanh (∑ k, leaky (∑ i, x i · w1 i k + b1 k) · w2 k q + b2 q),

  where `leaky y` is `y` when `y > 0` and `c · y` otherwise, `c` the value of the f32 word `0x3C23D70A`
  (the float nearest 0.01; the same word in both programs, so it is never evaluated).
-/
import Idealize.ShloMosaic.PureOps.Ideal

noncomputable section

open scoped BigOperators

namespace Cert.Mlp

open Idealize.ShloMosaic

/-- The leaky rectifier as both programs spell it: a select on `y > 0` between `y` and `c · y`. -/
def leaky (y : EReal) : EReal :=
  Scalar.select (Ideal.cmp .ogt y (Ideal.ofBits .f32 0x00000000#32)) y (Ideal.ofBits .f32 0x3C23D70A#32 * y)

/-- Hidden unit `k` of a row: the rectified affine form of the row's features. -/
def hidden {I : ℕ} (x : Fin I → EReal) (w1 : Fin I → Fin 32 → EReal) (b1 : Fin 32 → EReal) (k : Fin 32) : EReal :=
  leaky ((∑ i : Fin I, x i * w1 i k) + b1 k)

/-- Output column `q` of a row: `tanh` of the affine form of the hidden units. -/
def row {I : ℕ} (x : Fin I → EReal) (w1 : Fin I → Fin 32 → EReal) (b1 : Fin 32 → EReal)
    (w2 : Fin 32 → Fin 64 → EReal) (b2 : Fin 64 → EReal) (q : Fin 64) : EReal :=
  Ideal.tanh ((∑ k : Fin 32, hidden x w1 b1 k * w2 k q) + b2 q)

end Cert.Mlp

end
-- ==== Proof.KPay.lean ====
/-
  The kernel's side of the bridge: each of the three bodies' stored value, read at row `p` and column `q` of its
  block, is the row specification `Cert.Mlp.row` at that row's features.

  A body computes `tanh (leaky (x · W1 + b1) · W2 + b2)` on a block of rows: the features and the weights change
  format before each product (the identity on the extended reals), each product accumulates into a zero splat (so it is
  the bare sum over the contracted axis), each bias is a vector cast to one row and broadcast over the rows, and the
  rectifier, the sums and `tanh` act elementwise. Per product one lemma re-indexes the contraction's sum by its one
  coordinate and identifies the operands' indices coordinate by coordinate; per body one lemma reads the first layer
  before the rectifier, and the theorem assembles the second layer over it.
-/
import proofs.«102410_j3917010174735_1_alg».proof.Proof.Gen.KernelIdeal.Skeleton
import proofs.«102410_j3917010174735_1_alg».proof.Proof.MlpRow
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KPay

open Cert.KernelIdeal Cert.KernelIdeal.Gen Idealize.ShloMosaic Idealize.SL.Sem Idealize.ShloMosaic.ValueIdx

/-! ### The biases: a vector cast to one row and broadcast over the rows -/

/-- A vector cast to `[1, b]` and broadcast to `[a, b]` reads, at row `p` and column `c`, its entry `c`. -/
theorem bias_apply {a b : ℕ} (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-! ### The rectifier -/

/-- The select on `y > 0` between `y` and `c · y`, read at an index, is the row specification's rectifier of
    the element there. -/
theorem leaky_apply {s : Shape} (V : FVec Ideal s .f32) (j : s.Idx) :
    select (cmpf .ogt V (broadcast s (Scalar.ofBits (F := Ideal) .f32 0x00000000#32))) V
        (mulf (broadcast s (Scalar.ofBits (F := Ideal) .f32 0x3C23D70A#32)) V) j
      = Cert.Mlp.leaky (V j) := rfl

/-! ### The contraction `[10000, 21] × [21, 32]` -/

-- The operands' indices at output index `j` and contraction index `c`, coordinate by coordinate: the left operand's
-- are (row of `j`, `c`), the right operand's (`c`, column of `j`).
theorem lhs_a0_0 (j : S10000x32.Idx) (c : dot_S10000x21_S21x32_S10000x32_1_0_0_1_n_n.contr.Idx) :
    (dot_S10000x21_S21x32_S10000x32_1_0_0_1_n_n.lhsIdx j c 0).val = (j 0).val := by
  unfold DotDims.lhsIdx
  rw [dif_neg (show ¬(0 : Fin S10000x21.rank) ∈ dot_S10000x21_S21x32_S10000x32_1_0_0_1_n_n.lhsBatch by decide), dif_pos (show (0 : Fin S10000x21.rank) ∈ dot_S10000x21_S21x32_S10000x32_1_0_0_1_n_n.lhsNonContracting by decide)]
  rfl
theorem lhs_a0_1 (j : S10000x32.Idx) (c : dot_S10000x21_S21x32_S10000x32_1_0_0_1_n_n.contr.Idx) :
    (dot_S10000x21_S21x32_S10000x32_1_0_0_1_n_n.lhsIdx j c 1).val = (c ⟨0, by decide⟩).val :=
  dot_S10000x21_S21x32_S10000x32_1_0_0_1_n_n.lhsIdx_val_of_single rfl j c
theorem rhs_a0_0 (j : S10000x32.Idx) (c : dot_S10000x21_S21x32_S10000x32_1_0_0_1_n_n.contr.Idx) :
    (dot_S10000x21_S21x32_S10000x32_1_0_0_1_n_n.rhsIdx j c 0).val = (c ⟨0, by decide⟩).val :=
  dot_S10000x21_S21x32_S10000x32_1_0_0_1_n_n.rhsIdx_val_of_single rfl j c
theorem rhs_a0_1 (j : S10000x32.Idx) (c : dot_S10000x21_S21x32_S10000x32_1_0_0_1_n_n.contr.Idx) :
    (dot_S10000x21_S21x32_S10000x32_1_0_0_1_n_n.rhsIdx j c 1).val = (j 1).val := by
  unfold DotDims.rhsIdx
  rw [dif_neg (show ¬(1 : Fin S21x32.rank) ∈ dot_S10000x21_S21x32_S10000x32_1_0_0_1_n_n.rhsBatch by decide), dif_pos (show (1 : Fin S21x32.rank) ∈ dot_S10000x21_S21x32_S10000x32_1_0_0_1_n_n.rhsNonContracting by decide)]
  rfl

/-- The product accumulated into the zero splat reads, at row `p` and column `k`, the sum over the
    contracted axis of the left operand's row `p` times the right operand's column `k`. -/
theorem mm_a0_apply (a : FVec Ideal S10000x21 .bf16) (b : FVec Ideal S21x32 .bf16) (p : Fin 10000) (k : Fin 32) :
    matmul dot_S10000x21_S21x32_S10000x32_1_0_0_1_n_n none a b (constant (F := Ideal) S10000x32 .f32 0x00000000#32) (ix2 p k)
      = ∑ i : Fin 21, a (ix2 p i) * b (ix2 i k) := by
  refine (Ideal.matmul_constant_zero_apply dot_S10000x21_S21x32_S10000x32_1_0_0_1_n_n none a b (ix2 p k)).trans ?_
  rw [← Equiv.sum_comp (contrEquiv1 dot_S10000x21_S21x32_S10000x32_1_0_0_1_n_n 21 rfl rfl).symm]
  refine Finset.sum_congr rfl fun i _ => ?_
  have hi := contrEquiv1_symm_val dot_S10000x21_S21x32_S10000x32_1_0_0_1_n_n 21 rfl rfl i
  have el : dot_S10000x21_S21x32_S10000x32_1_0_0_1_n_n.lhsIdx (ix2 p k) ((contrEquiv1 dot_S10000x21_S21x32_S10000x32_1_0_0_1_n_n 21 rfl rfl).symm i) = ix2 p i := funext fun ax => Fin.ext (by
    match ax with
    | ⟨0, _⟩ => exact lhs_a0_0 _ _
    | ⟨1, _⟩ => exact (lhs_a0_1 _ _).trans hi)
  have er : dot_S10000x21_S21x32_S10000x32_1_0_0_1_n_n.rhsIdx (ix2 p k) ((contrEquiv1 dot_S10000x21_S21x32_S10000x32_1_0_0_1_n_n 21 rfl rfl).symm i) = ix2 i k := funext fun ax => Fin.ext (by
    match ax with
    | ⟨0, _⟩ => exact (rhs_a0_0 _ _).trans hi
    | ⟨1, _⟩ => exact rhs_a0_1 _ _)
  rw [el, er]

/-! ### The contraction `[10000, 32] × [32, 64]` -/

-- The operands' indices at output index `j` and contraction index `c`, coordinate by coordinate: the left operand's
-- are (row of `j`, `c`), the right operand's (`c`, column of `j`).
theorem lhs_b0_0 (j : S10000x64.Idx) (c : dot_S10000x32_S32x64_S10000x64_1_0_0_1_n_n.contr.Idx) :
    (dot_S10000x32_S32x64_S10000x64_1_0_0_1_n_n.lhsIdx j c 0).val = (j 0).val := by
  unfold DotDims.lhsIdx
  rw [dif_neg (show ¬(0 : Fin S10000x32.rank) ∈ dot_S10000x32_S32x64_S10000x64_1_0_0_1_n_n.lhsBatch by decide), dif_pos (show (0 : Fin S10000x32.rank) ∈ dot_S10000x32_S32x64_S10000x64_1_0_0_1_n_n.lhsNonContracting by decide)]
  rfl
theorem lhs_b0_1 (j : S10000x64.Idx) (c : dot_S10000x32_S32x64_S10000x64_1_0_0_1_n_n.contr.Idx) :
    (dot_S10000x32_S32x64_S10000x64_1_0_0_1_n_n.lhsIdx j c 1).val = (c ⟨0, by decide⟩).val :=
  dot_S10000x32_S32x64_S10000x64_1_0_0_1_n_n.lhsIdx_val_of_single rfl j c
theorem rhs_b0_0 (j : S10000x64.Idx) (c : dot_S10000x32_S32x64_S10000x64_1_0_0_1_n_n.contr.Idx) :
    (dot_S10000x32_S32x64_S10000x64_1_0_0_1_n_n.rhsIdx j c 0).val = (c ⟨0, by decide⟩).val :=
  dot_S10000x32_S32x64_S10000x64_1_0_0_1_n_n.rhsIdx_val_of_single rfl j c
theorem rhs_b0_1 (j : S10000x64.Idx) (c : dot_S10000x32_S32x64_S10000x64_1_0_0_1_n_n.contr.Idx) :
    (dot_S10000x32_S32x64_S10000x64_1_0_0_1_n_n.rhsIdx j c 1).val = (j 1).val := by
  unfold DotDims.rhsIdx
  rw [dif_neg (show ¬(1 : Fin S32x64.rank) ∈ dot_S10000x32_S32x64_S10000x64_1_0_0_1_n_n.rhsBatch by decide), dif_pos (show (1 : Fin S32x64.rank) ∈ dot_S10000x32_S32x64_S10000x64_1_0_0_1_n_n.rhsNonContracting by decide)]
  rfl

/-- The product accumulated into the zero splat reads, at row `p` and column `k`, the sum over the
    contracted axis of the left operand's row `p` times the right operand's column `k`. -/
theorem mm_b0_apply (a : FVec Ideal S10000x32 .bf16) (b : FVec Ideal S32x64 .bf16) (p : Fin 10000) (k : Fin 64) :
    matmul dot_S10000x32_S32x64_S10000x64_1_0_0_1_n_n none a b (constant (F := Ideal) S10000x64 .f32 0x00000000#32) (ix2 p k)
      = ∑ i : Fin 32, a (ix2 p i) * b (ix2 i k) := by
  refine (Ideal.matmul_constant_zero_apply dot_S10000x32_S32x64_S10000x64_1_0_0_1_n_n none a b (ix2 p k)).trans ?_
  rw [← Equiv.sum_comp (contrEquiv1 dot_S10000x32_S32x64_S10000x64_1_0_0_1_n_n 32 rfl rfl).symm]
  refine Finset.sum_congr rfl fun i _ => ?_
  have hi := contrEquiv1_symm_val dot_S10000x32_S32x64_S10000x64_1_0_0_1_n_n 32 rfl rfl i
  have el : dot_S10000x32_S32x64_S10000x64_1_0_0_1_n_n.lhsIdx (ix2 p k) ((contrEquiv1 dot_S10000x32_S32x64_S10000x64_1_0_0_1_n_n 32 rfl rfl).symm i) = ix2 p i := funext fun ax => Fin.ext (by
    match ax with
    | ⟨0, _⟩ => exact lhs_b0_0 _ _
    | ⟨1, _⟩ => exact (lhs_b0_1 _ _).trans hi)
  have er : dot_S10000x32_S32x64_S10000x64_1_0_0_1_n_n.rhsIdx (ix2 p k) ((contrEquiv1 dot_S10000x32_S32x64_S10000x64_1_0_0_1_n_n 32 rfl rfl).symm i) = ix2 i k := funext fun ax => Fin.ext (by
    match ax with
    | ⟨0, _⟩ => exact (rhs_b0_0 _ _).trans hi
    | ⟨1, _⟩ => exact rhs_b0_1 _ _)
  rw [el, er]

/-! ### The contraction `[10000, 69] × [69, 32]` -/

-- The operands' indices at output index `j` and contraction index `c`, coordinate by coordinate: the left operand's
-- are (row of `j`, `c`), the right operand's (`c`, column of `j`).
theorem lhs_a1_0 (j : S10000x32.Idx) (c : dot_S10000x69_S69x32_S10000x32_1_0_0_1_n_n.contr.Idx) :
    (dot_S10000x69_S69x32_S10000x32_1_0_0_1_n_n.lhsIdx j c 0).val = (j 0).val := by
  unfold DotDims.lhsIdx
  rw [dif_neg (show ¬(0 : Fin S10000x69.rank) ∈ dot_S10000x69_S69x32_S10000x32_1_0_0_1_n_n.lhsBatch by decide), dif_pos (show (0 : Fin S10000x69.rank) ∈ dot_S10000x69_S69x32_S10000x32_1_0_0_1_n_n.lhsNonContracting by decide)]
  rfl
theorem lhs_a1_1 (j : S10000x32.Idx) (c : dot_S10000x69_S69x32_S10000x32_1_0_0_1_n_n.contr.Idx) :
    (dot_S10000x69_S69x32_S10000x32_1_0_0_1_n_n.lhsIdx j c 1).val = (c ⟨0, by decide⟩).val :=
  dot_S10000x69_S69x32_S10000x32_1_0_0_1_n_n.lhsIdx_val_of_single rfl j c
theorem rhs_a1_0 (j : S10000x32.Idx) (c : dot_S10000x69_S69x32_S10000x32_1_0_0_1_n_n.contr.Idx) :
    (dot_S10000x69_S69x32_S10000x32_1_0_0_1_n_n.rhsIdx j c 0).val = (c ⟨0, by decide⟩).val :=
  dot_S10000x69_S69x32_S10000x32_1_0_0_1_n_n.rhsIdx_val_of_single rfl j c
theorem rhs_a1_1 (j : S10000x32.Idx) (c : dot_S10000x69_S69x32_S10000x32_1_0_0_1_n_n.contr.Idx) :
    (dot_S10000x69_S69x32_S10000x32_1_0_0_1_n_n.rhsIdx j c 1).val = (j 1).val := by
  unfold DotDims.rhsIdx
  rw [dif_neg (show ¬(1 : Fin S69x32.rank) ∈ dot_S10000x69_S69x32_S10000x32_1_0_0_1_n_n.rhsBatch by decide), dif_pos (show (1 : Fin S69x32.rank) ∈ dot_S10000x69_S69x32_S10000x32_1_0_0_1_n_n.rhsNonContracting by decide)]
  rfl

/-- The product accumulated into the zero splat reads, at row `p` and column `k`, the sum over the
    contracted axis of the left operand's row `p` times the right operand's column `k`. -/
theorem mm_a1_apply (a : FVec Ideal S10000x69 .bf16) (b : FVec Ideal S69x32 .bf16) (p : Fin 10000) (k : Fin 32) :
    matmul dot_S10000x69_S69x32_S10000x32_1_0_0_1_n_n none a b (constant (F := Ideal) S10000x32 .f32 0x00000000#32) (ix2 p k)
      = ∑ i : Fin 69, a (ix2 p i) * b (ix2 i k) := by
  refine (Ideal.matmul_constant_zero_apply dot_S10000x69_S69x32_S10000x32_1_0_0_1_n_n none a b (ix2 p k)).trans ?_
  rw [← Equiv.sum_comp (contrEquiv1 dot_S10000x69_S69x32_S10000x32_1_0_0_1_n_n 69 rfl rfl).symm]
  refine Finset.sum_congr rfl fun i _ => ?_
  have hi := contrEquiv1_symm_val dot_S10000x69_S69x32_S10000x32_1_0_0_1_n_n 69 rfl rfl i
  have el : dot_S10000x69_S69x32_S10000x32_1_0_0_1_n_n.lhsIdx (ix2 p k) ((contrEquiv1 dot_S10000x69_S69x32_S10000x32_1_0_0_1_n_n 69 rfl rfl).symm i) = ix2 p i := funext fun ax => Fin.ext (by
    match ax with
    | ⟨0, _⟩ => exact lhs_a1_0 _ _
    | ⟨1, _⟩ => exact (lhs_a1_1 _ _).trans hi)
  have er : dot_S10000x69_S69x32_S10000x32_1_0_0_1_n_n.rhsIdx (ix2 p k) ((contrEquiv1 dot_S10000x69_S69x32_S10000x32_1_0_0_1_n_n 69 rfl rfl).symm i) = ix2 i k := funext fun ax => Fin.ext (by
    match ax with
    | ⟨0, _⟩ => exact (rhs_a1_0 _ _).trans hi
    | ⟨1, _⟩ => exact rhs_a1_1 _ _)
  rw [el, er]

/-! ### The contraction `[5000, 194] × [194, 32]` -/

-- The operands' indices at output index `j` and contraction index `c`, coordinate by coordinate: the left operand's
-- are (row of `j`, `c`), the right operand's (`c`, column of `j`).
theorem lhs_a2_0 (j : S5000x32.Idx) (c : dot_S5000x194_S194x32_S5000x32_1_0_0_1_n_n.contr.Idx) :
    (dot_S5000x194_S194x32_S5000x32_1_0_0_1_n_n.lhsIdx j c 0).val = (j 0).val := by
  unfold DotDims.lhsIdx
  rw [dif_neg (show ¬(0 : Fin S5000x194.rank) ∈ dot_S5000x194_S194x32_S5000x32_1_0_0_1_n_n.lhsBatch by decide), dif_pos (show (0 : Fin S5000x194.rank) ∈ dot_S5000x194_S194x32_S5000x32_1_0_0_1_n_n.lhsNonContracting by decide)]
  rfl
theorem lhs_a2_1 (j : S5000x32.Idx) (c : dot_S5000x194_S194x32_S5000x32_1_0_0_1_n_n.contr.Idx) :
    (dot_S5000x194_S194x32_S5000x32_1_0_0_1_n_n.lhsIdx j c 1).val = (c ⟨0, by decide⟩).val :=
  dot_S5000x194_S194x32_S5000x32_1_0_0_1_n_n.lhsIdx_val_of_single rfl j c
theorem rhs_a2_0 (j : S5000x32.Idx) (c : dot_S5000x194_S194x32_S5000x32_1_0_0_1_n_n.contr.Idx) :
    (dot_S5000x194_S194x32_S5000x32_1_0_0_1_n_n.rhsIdx j c 0).val = (c ⟨0, by decide⟩).val :=
  dot_S5000x194_S194x32_S5000x32_1_0_0_1_n_n.rhsIdx_val_of_single rfl j c
theorem rhs_a2_1 (j : S5000x32.Idx) (c : dot_S5000x194_S194x32_S5000x32_1_0_0_1_n_n.contr.Idx) :
    (dot_S5000x194_S194x32_S5000x32_1_0_0_1_n_n.rhsIdx j c 1).val = (j 1).val := by
  unfold DotDims.rhsIdx
  rw [dif_neg (show ¬(1 : Fin S194x32.rank) ∈ dot_S5000x194_S194x32_S5000x32_1_0_0_1_n_n.rhsBatch by decide), dif_pos (show (1 : Fin S194x32.rank) ∈ dot_S5000x194_S194x32_S5000x32_1_0_0_1_n_n.rhsNonContracting by decide)]
  rfl

/-- The product accumulated into the zero splat reads, at row `p` and column `k`, the sum over the
    contracted axis of the left operand's row `p` times the right operand's column `k`. -/
theorem mm_a2_apply (a : FVec Ideal S5000x194 .bf16) (b : FVec Ideal S194x32 .bf16) (p : Fin 5000) (k : Fin 32) :
    matmul dot_S5000x194_S194x32_S5000x32_1_0_0_1_n_n none a b (constant (F := Ideal) S5000x32 .f32 0x00000000#32) (ix2 p k)
      = ∑ i : Fin 194, a (ix2 p i) * b (ix2 i k) := by
  refine (Ideal.matmul_constant_zero_apply dot_S5000x194_S194x32_S5000x32_1_0_0_1_n_n none a b (ix2 p k)).trans ?_
  rw [← Equiv.sum_comp (contrEquiv1 dot_S5000x194_S194x32_S5000x32_1_0_0_1_n_n 194 rfl rfl).symm]
  refine Finset.sum_congr rfl fun i _ => ?_
  have hi := contrEquiv1_symm_val dot_S5000x194_S194x32_S5000x32_1_0_0_1_n_n 194 rfl rfl i
  have el : dot_S5000x194_S194x32_S5000x32_1_0_0_1_n_n.lhsIdx (ix2 p k) ((contrEquiv1 dot_S5000x194_S194x32_S5000x32_1_0_0_1_n_n 194 rfl rfl).symm i) = ix2 p i := funext fun ax => Fin.ext (by
    match ax with
    | ⟨0, _⟩ => exact lhs_a2_0 _ _
    | ⟨1, _⟩ => exact (lhs_a2_1 _ _).trans hi)
  have er : dot_S5000x194_S194x32_S5000x32_1_0_0_1_n_n.rhsIdx (ix2 p k) ((contrEquiv1 dot_S5000x194_S194x32_S5000x32_1_0_0_1_n_n 194 rfl rfl).symm i) = ix2 i k := funext fun ax => Fin.ext (by
    match ax with
    | ⟨0, _⟩ => exact (rhs_a2_0 _ _).trans hi
    | ⟨1, _⟩ => exact rhs_a2_1 _ _)
  rw [el, er]

/-! ### The contraction `[5000, 32] × [32, 64]` -/

-- The operands' indices at output index `j` and contraction index `c`, coordinate by coordinate: the left operand's
-- are (row of `j`, `c`), the right operand's (`c`, column of `j`).
theorem lhs_b2_0 (j : S5000x64.Idx) (c : dot_S5000x32_S32x64_S5000x64_1_0_0_1_n_n.contr.Idx) :
    (dot_S5000x32_S32x64_S5000x64_1_0_0_1_n_n.lhsIdx j c 0).val = (j 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhs_b2_1 (j : S5000x64.Idx) (c : dot_S5000x32_S32x64_S5000x64_1_0_0_1_n_n.contr.Idx) :
    (dot_S5000x32_S32x64_S5000x64_1_0_0_1_n_n.lhsIdx j c 1).val = (c ⟨0, by decide⟩).val :=
  dot_S5000x32_S32x64_S5000x64_1_0_0_1_n_n.lhsIdx_val_of_single rfl j c
theorem rhs_b2_0 (j : S5000x64.Idx) (c : dot_S5000x32_S32x64_S5000x64_1_0_0_1_n_n.contr.Idx) :
    (dot_S5000x32_S32x64_S5000x64_1_0_0_1_n_n.rhsIdx j c 0).val = (c ⟨0, by decide⟩).val :=
  dot_S5000x32_S32x64_S5000x64_1_0_0_1_n_n.rhsIdx_val_of_single rfl j c
theorem rhs_b2_1 (j : S5000x64.Idx) (c : dot_S5000x32_S32x64_S5000x64_1_0_0_1_n_n.contr.Idx) :
    (dot_S5000x32_S32x64_S5000x64_1_0_0_1_n_n.rhsIdx j c 1).val = (j 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The product accumulated into the zero splat reads, at row `p` and column `k`, the sum over the
    contracted axis of the left operand's row `p` times the right operand's column `k`. -/
theorem mm_b2_apply (a : FVec Ideal S5000x32 .bf16) (b : FVec Ideal S32x64 .bf16) (p : Fin 5000) (k : Fin 64) :
    matmul dot_S5000x32_S32x64_S5000x64_1_0_0_1_n_n none a b (constant (F := Ideal) S5000x64 .f32 0x00000000#32) (ix2 p k)
      = ∑ i : Fin 32, a (ix2 p i) * b (ix2 i k) := by
  refine (Ideal.matmul_constant_zero_apply dot_S5000x32_S32x64_S5000x64_1_0_0_1_n_n none a b (ix2 p k)).trans ?_
  rw [← Equiv.sum_comp (contrEquiv1 dot_S5000x32_S32x64_S5000x64_1_0_0_1_n_n 32 rfl rfl).symm]
  refine Finset.sum_congr rfl fun i _ => ?_
  have hi := contrEquiv1_symm_val dot_S5000x32_S32x64_S5000x64_1_0_0_1_n_n 32 rfl rfl i
  have el : dot_S5000x32_S32x64_S5000x64_1_0_0_1_n_n.lhsIdx (ix2 p k) ((contrEquiv1 dot_S5000x32_S32x64_S5000x64_1_0_0_1_n_n 32 rfl rfl).symm i) = ix2 p i := funext fun ax => Fin.ext (by
    match ax with
    | ⟨0, _⟩ => exact lhs_b2_0 _ _
    | ⟨1, _⟩ => exact (lhs_b2_1 _ _).trans hi)
  have er : dot_S5000x32_S32x64_S5000x64_1_0_0_1_n_n.rhsIdx (ix2 p k) ((contrEquiv1 dot_S5000x32_S32x64_S5000x64_1_0_0_1_n_n 32 rfl rfl).symm i) = ix2 i k := funext fun ax => Fin.ext (by
    match ax with
    | ⟨0, _⟩ => exact (rhs_b2_0 _ _).trans hi
    | ⟨1, _⟩ => exact rhs_b2_1 _ _)
  rw [el, er]

/-! ### Payload 0: rows of 21 features, blocks of 10000 rows -/

/-- The first layer before the rectifier, at row `p` and hidden unit `k`: the row's features against column `k`
    of the first weights, plus the first bias at `k`. The identity cast and the two format changes read through. -/
theorem pre0_apply (x : Vec Ideal S10000x21 .f32) (w1 : Vec Ideal S21x32 .f32) (b1 : Vec Ideal S32 .f32)
    (h0 : S10000x21.ShapeCasts S10000x21) (hlt : FTy.bits .bf16 < FTy.bits .f32)
    (h1 : S32.ShapeCasts S1x32) (h2 : S1x32.Broadcasts S10000x32) (p : Fin 10000) (k : Fin 32) :
    addf (matmul dot_S10000x21_S21x32_S10000x32_1_0_0_1_n_n none (truncf .bf16 (shapeCast S10000x21 x h0) hlt) (truncf .bf16 w1 hlt)
          (constant (F := Ideal) S10000x32 .f32 0x00000000#32))
        (broadcastTo S10000x32 (shapeCast S1x32 b1 h1) h2) (ix2 p k)
      = (∑ i : Fin 21, x (ix2 p i) * w1 (ix2 i k)) + b1 (ix1 k) := by
  refine (addf_apply _ _ _).trans ?_
  refine congrArg₂ (· + ·) ((mm_a0_apply _ _ p k).trans ?_) (bias_apply b1 h1 h2 p k)
  rw [shapeCast_self]
  rfl

/-- The payload at row `p` and column `q` is the row specification at the row's features. -/
theorem pay0_apply (x : Vec Ideal S10000x21 .f32) (w1 : Vec Ideal S21x32 .f32) (b1 : Vec Ideal S32 .f32)
    (w2 : Vec Ideal S32x64 .f32) (b2 : Vec Ideal S64 .f32) (p : Fin 10000) (q : Fin 64) :
    Cert.KernelIdeal.Gen.k0_pay1 (F := Ideal) x w1 b1 w2 b2 (ix2 p q)
      = Cert.Mlp.row (fun i : Fin 21 => x (ix2 p i)) (fun i k => w1 (ix2 i k)) (fun k => b1 (ix1 k))
          (fun k q' => w2 (ix2 k q')) (fun q' => b2 (ix1 q')) q := by
  unfold Cert.KernelIdeal.Gen.k0_pay1
  refine (congrArg Ideal.tanh (congrArg₂ (· + ·) (mm_b0_apply _ _ p q) (bias_apply b2 _ _ p q))).trans ?_
  unfold Cert.Mlp.row
  refine congrArg Ideal.tanh (congrArg (· + b2 (ix1 q)) (Finset.sum_congr rfl fun k _ => ?_))
  refine congrArg (· * w2 (ix2 k q)) ?_
  exact (leaky_apply _ (ix2 p k)).trans (congrArg Cert.Mlp.leaky (pre0_apply x w1 b1 _ _ _ _ p k))

/-! ### Payload 1: rows of 69 features, blocks of 10000 rows -/

/-- The first layer before the rectifier, at row `p` and hidden unit `k`: the row's features against column `k`
    of the first weights, plus the first bias at `k`. The identity cast and the two format changes read through. -/
theorem pre1_apply (x : Vec Ideal S10000x69 .f32) (w1 : Vec Ideal S69x32 .f32) (b1 : Vec Ideal S32 .f32)
    (h0 : S10000x69.ShapeCasts S10000x69) (hlt : FTy.bits .bf16 < FTy.bits .f32)
    (h1 : S32.ShapeCasts S1x32) (h2 : S1x32.Broadcasts S10000x32) (p : Fin 10000) (k : Fin 32) :
    addf (matmul dot_S10000x69_S69x32_S10000x32_1_0_0_1_n_n none (truncf .bf16 (shapeCast S10000x69 x h0) hlt) (truncf .bf16 w1 hlt)
          (constant (F := Ideal) S10000x32 .f32 0x00000000#32))
        (broadcastTo S10000x32 (shapeCast S1x32 b1 h1) h2) (ix2 p k)
      = (∑ i : Fin 69, x (ix2 p i) * w1 (ix2 i k)) + b1 (ix1 k) := by
  refine (addf_apply _ _ _).trans ?_
  refine congrArg₂ (· + ·) ((mm_a1_apply _ _ p k).trans ?_) (bias_apply b1 h1 h2 p k)
  rw [shapeCast_self]
  rfl

/-- The payload at row `p` and column `q` is the row specification at the row's features. -/
theorem pay1_apply (x : Vec Ideal S10000x69 .f32) (w1 : Vec Ideal S69x32 .f32) (b1 : Vec Ideal S32 .f32)
    (w2 : Vec Ideal S32x64 .f32) (b2 : Vec Ideal S64 .f32) (p : Fin 10000) (q : Fin 64) :
    Cert.KernelIdeal.Gen.k1_pay1 (F := Ideal) x w1 b1 w2 b2 (ix2 p q)
      = Cert.Mlp.row (fun i : Fin 69 => x (ix2 p i)) (fun i k => w1 (ix2 i k)) (fun k => b1 (ix1 k))
          (fun k q' => w2 (ix2 k q')) (fun q' => b2 (ix1 q')) q := by
  unfold Cert.KernelIdeal.Gen.k1_pay1
  refine (congrArg Ideal.tanh (congrArg₂ (· + ·) (mm_b0_apply _ _ p q) (bias_apply b2 _ _ p q))).trans ?_
  unfold Cert.Mlp.row
  refine congrArg Ideal.tanh (congrArg (· + b2 (ix1 q)) (Finset.sum_congr rfl fun k _ => ?_))
  refine congrArg (· * w2 (ix2 k q)) ?_
  exact (leaky_apply _ (ix2 p k)).trans (congrArg Cert.Mlp.leaky (pre1_apply x w1 b1 _ _ _ _ p k))

/-! ### Payload 2: rows of 194 features, blocks of 5000 rows -/

/-- The first layer before the rectifier, at row `p` and hidden unit `k`: the row's features against column `k`
    of the first weights, plus the first bias at `k`. The identity cast and the two format changes read through. -/
theorem pre2_apply (x : Vec Ideal S5000x194 .f32) (w1 : Vec Ideal S194x32 .f32) (b1 : Vec Ideal S32 .f32)
    (h0 : S5000x194.ShapeCasts S5000x194) (hlt : FTy.bits .bf16 < FTy.bits .f32)
    (h1 : S32.ShapeCasts S1x32) (h2 : S1x32.Broadcasts S5000x32) (p : Fin 5000) (k : Fin 32) :
    addf (matmul dot_S5000x194_S194x32_S5000x32_1_0_0_1_n_n none (truncf .bf16 (shapeCast S5000x194 x h0) hlt) (truncf .bf16 w1 hlt)
          (constant (F := Ideal) S5000x32 .f32 0x00000000#32))
        (broadcastTo S5000x32 (shapeCast S1x32 b1 h1) h2) (ix2 p k)
      = (∑ i : Fin 194, x (ix2 p i) * w1 (ix2 i k)) + b1 (ix1 k) := by
  refine (addf_apply _ _ _).trans ?_
  refine congrArg₂ (· + ·) ((mm_a2_apply _ _ p k).trans ?_) (bias_apply b1 h1 h2 p k)
  rw [shapeCast_self]
  rfl

/-- The payload at row `p` and column `q` is the row specification at the row's features. -/
theorem pay2_apply (x : Vec Ideal S5000x194 .f32) (w1 : Vec Ideal S194x32 .f32) (b1 : Vec Ideal S32 .f32)
    (w2 : Vec Ideal S32x64 .f32) (b2 : Vec Ideal S64 .f32) (p : Fin 5000) (q : Fin 64) :
    Cert.KernelIdeal.Gen.k2_pay1 (F := Ideal) x w1 b1 w2 b2 (ix2 p q)
      = Cert.Mlp.row (fun i : Fin 194 => x (ix2 p i)) (fun i k => w1 (ix2 i k)) (fun k => b1 (ix1 k))
          (fun k q' => w2 (ix2 k q')) (fun q' => b2 (ix1 q')) q := by
  unfold Cert.KernelIdeal.Gen.k2_pay1
  refine (congrArg Ideal.tanh (congrArg₂ (· + ·) (mm_b2_apply _ _ p q) (bias_apply b2 _ _ p q))).trans ?_
  unfold Cert.Mlp.row
  refine congrArg Ideal.tanh (congrArg (· + b2 (ix1 q)) (Finset.sum_congr rfl fun k _ => ?_))
  refine congrArg (· * w2 (ix2 k q)) ?_
  exact (leaky_apply _ (ix2 p k)).trans (congrArg Cert.Mlp.leaky (pre2_apply x w1 b1 _ _ _ _ p k))

end Cert.KPay

end
-- ==== Proof.KVal0.lean ====
/-
  Region 0's output array at the exact-real instance.

  The region's grid has 160 points; point `t` reads rows `10000·t … 10000·t + 9999` of the feature matrix (and the weights
  and biases whole) and writes the same rows of the output. At the exact-real instance the body's store is, row by
  row, the two-layer perceptron `Cert.Mlp.row` of that row, so what point `t` writes back is block `t` of ONE
  function of the arrays the region finds: the perceptron applied to every row. The blocks tile the output array,
  so the array ends holding that function.
-/
import proofs.«102410_j3917010174735_1_alg».proof.Proof.KReg0
import proofs.«102410_j3917010174735_1_alg».proof.Proof.KPay
import proofs.«102410_j3917010174735_1_alg».proof.Proof.MlpRow
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The perceptron applied to every row of a `1600000 × 21` feature matrix: entry `(r, q)` is `Cert.Mlp.row` of row `r` at column `q`. -/
def mlpRows0 (X : S1600000x21.Idx → Elt Ideal .f32) (W1 : S21x32.Idx → Elt Ideal .f32) (b1 : S32.Idx → Elt Ideal .f32)
    (W2 : S32x64.Idx → Elt Ideal .f32) (b2 : S64.Idx → Elt Ideal .f32) : S1600000x64.Idx → Elt Ideal .f32 :=
  fun j => Cert.Mlp.row (fun i : Fin 21 => X (ix2 (⟨(j 0).val, idx2_lt0 j⟩ : Fin 1600000) i)) (fun i k => W1 (ix2 i k)) (fun k => b1 (ix1 k))
    (fun k q => W2 (ix2 k q)) (fun q => b2 (ix1 q)) ⟨(j 1).val, idx2_lt1 j⟩

theorem hz2_0 : (![0, 0] : Fin 2 → Nat) = fun _ => 0 := funext fun a => by fin_cases a <;> rfl
theorem hz1_0 : (![0] : Fin 1 → Nat) = fun _ => 0 := funext fun a => by fin_cases a <;> rfl

/-- The printed index maps over the grid: the feature window and the output window sit at block `t` of axis 0, the
    weights and biases at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- One point, over variables: if the feature block holds rows `r0 …` of `X` and the other blocks are the weights and
    biases whole, the body's store at `(p, q)` is the perceptron of row `r0 + p` at column `q`. -/
theorem point0 (X : S1600000x21.Idx → Elt Ideal .f32) (W1 : S21x32.Idx → Elt Ideal .f32) (b1 : S32.Idx → Elt Ideal .f32)
    (W2 : S32x64.Idx → Elt Ideal .f32) (b2 : S64.Idx → Elt Ideal .f32)
    (x0 : Vec Ideal S10000x21 .f32) (r0 : ℕ) (hr0 : r0 + 10000 ≤ 1600000)
    (hx0 : ∀ (p : Fin 10000) (i : Fin 21), x0 (ix2 p i) = X (ix2 (⟨r0 + p.val, by have := p.isLt; omega⟩ : Fin 1600000) i))
    (p : Fin 10000) (q : Fin 64) :
    k0_pay1 (F := Ideal) x0 W1 b1 W2 b2 (ix2 p q) = mlpRows0 X W1 b1 W2 b2 (ix2 (⟨r0 + p.val, by have := p.isLt; omega⟩ : Fin 1600000) q) := by
  rw [Cert.KPay.pay0_apply]
  unfold mlpRows0
  simp only [hx0]

/-- What point `t` writes back is block `t` of the perceptron of the arrays the region finds. -/
theorem flushed0_eq (V : (c : Dev nD) → (b : Ref sig .tc) → Buf (Elt Ideal) ((c : Thread nD τ).loc b)) (c : Dev nD) (t : Fin cfg0.N) :
    (dat0 V c).flushed 5 t = ((cfg0.win 5).blk t).view.read (Elt Ideal)
      (mlpRows0 (V c main_v21) (V c main_arg10) (V c main_arg11) (V c main_arg12) (V c main_arg13)) := by
  show (cfg0.win 5).cut (grid0.coords t) ((dat0 V c).after 5 t) = _
  rw [after0_5]
  unfold out0_5
  rw [View.canon_unit_zero hz2_0]
  simp only [View.ld_unit_zero (S := S10000x21) hz2_0, View.ld_unit_zero (S := S21x32) hz2_0, View.ld_unit_zero (S := S32) hz1_0,
    View.ld_unit_zero (S := S32x64) hz2_0, View.ld_unit_zero (S := S64) hz1_0]
  obtain ⟨e00, e01, e10, e11, e20, e30, e31, e40, e50, e51⟩ := idx_facts0 t
  have ht : t.val < 160 := lt_of_lt_of_eq t.isLt (N_0 : cfg0.N = 160)
  -- the weights' and biases' blocks are their arrays whole
  have h1 : iblk0 V c 1 t = V c main_arg10 := by
    funext y
    show V c main_arg10 (((cfg0.win 1).blk t).view.emb y) = V c main_arg10 y
    refine congrArg _ (funext fun a => Fin.ext ?_)
    match a with
    | ⟨0, _⟩ => show win0_1.index t (0 : Fin 2) * 21 + 1 * (y 0).val = (y 0).val; omega
    | ⟨1, _⟩ => show win0_1.index t (1 : Fin 2) * 32 + 1 * (y 1).val = (y 1).val; omega
  have h2 : iblk0 V c 2 t = V c main_arg11 := by
    funext y
    show V c main_arg11 (((cfg0.win 2).blk t).view.emb y) = V c main_arg11 y
    refine congrArg _ (funext fun a => Fin.ext ?_)
    match a with
    | ⟨0, _⟩ => show win0_2.index t (0 : Fin 1) * 32 + 1 * (y 0).val = (y 0).val; omega
  have h3 : iblk0 V c 3 t = V c main_arg12 := by
    funext y
    show V c main_arg12 (((cfg0.win 3).blk t).view.emb y) = V c main_arg12 y
    refine congrArg _ (funext fun a => Fin.ext ?_)
    match a with
    | ⟨0, _⟩ => show win0_3.index t (0 : Fin 2) * 32 + 1 * (y 0).val = (y 0).val; omega
    | ⟨1, _⟩ => show win0_3.index t (1 : Fin 2) * 64 + 1 * (y 1).val = (y 1).val; omega
  have h4 : iblk0 V c 4 t = V c main_arg13 := by
    funext y
    show V c main_arg13 (((cfg0.win 4).blk t).view.emb y) = V c main_arg13 y
    refine congrArg _ (funext fun a => Fin.ext ?_)
    match a with
    | ⟨0, _⟩ => show win0_4.index t (0 : Fin 1) * 64 + 1 * (y 0).val = (y 0).val; omega
  rw [h1, h2, h3, h4]
  -- the feature block holds rows 10000·t … of the feature matrix
  have h0 : ∀ (p : Fin 10000) (i : Fin 21), iblk0 V c 0 t (ix2 p i)
      = V c main_v21 (ix2 (⟨10000 * t.val + p.val, by have := p.isLt; omega⟩ : Fin 1600000) i) := by
    intro p i
    show V c main_v21 (((cfg0.win 0).blk t).view.emb (ix2 p i)) = _
    refine congrArg _ (funext fun a => Fin.ext ?_)
    match a with
    | ⟨0, _⟩ => show win0_0.index t (0 : Fin 2) * 10000 + 1 * p.val = 10000 * t.val + p.val; omega
    | ⟨1, _⟩ => show win0_0.index t (1 : Fin 2) * 21 + 1 * i.val = i.val; omega
  funext y
  obtain ⟨p, q, rfl⟩ : ∃ (p : Fin 10000) (q : Fin 64), y = ix2 p q := ⟨y 0, y 1, eq_ix2 y⟩
  refine (point0 (V c main_v21) (V c main_arg10) (V c main_arg11) (V c main_arg12) (V c main_arg13) (iblk0 V c 0 t) (10000 * t.val) (by omega) h0 p q).trans ?_
  show _ = mlpRows0 (V c main_v21) (V c main_arg10) (V c main_arg11) (V c main_arg12) (V c main_arg13) (((cfg0.win 5).blk t).view.emb (ix2 p q))
  refine congrArg _ (funext fun a => Fin.ext ?_)
  match a with
  | ⟨0, _⟩ => show 10000 * t.val + p.val = win0_5.index t (0 : Fin 2) * 10000 + 1 * p.val; omega
  | ⟨1, _⟩ => show q.val = win0_5.index t (1 : Fin 2) * 64 + 1 * q.val; omega

/-- An index of the output array is in point `t`'s block iff each coordinate is in the block's range on its axis. -/
theorem mem_blk0 (t : Fin cfg0.N) (i : S1600000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v22).slice (win0_5.rect t)).set ↔ _
  rw [View.set_slice_whole, Rect.mem_set_unit]
  exact Iff.rfl

/-- Every row is in some point's block: row `r` in point `r / 10000`'s. -/
theorem cover0 (i : S1600000x64.Idx) : ∃ t : Fin cfg0.N, (cfg0.win 5).flush t = true ∧ i ∈ ((cfg0.win 5).blk t).view.set := by
  have hi0 : (i 0).val < 1600000 := (i 0).isLt
  have hi1 : (i 1).val < 64 := (i 1).isLt
  have hN : grid0.N = 160 := N_0
  let t : Fin cfg0.N := ⟨(i 0).val / 10000, by show (i 0).val / 10000 < grid0.N; omega⟩
  obtain ⟨e00, e01, e10, e11, e20, e30, e31, e40, e50, e51⟩ := idx_facts0 t
  have htv : t.val = (i 0).val / 10000 := rfl
  refine ⟨t, flush0_5 t, ?_⟩
  rw [mem_blk0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE ARRAY after the region: the perceptron of the arrays the region finds, applied to every row. -/
theorem final0 (V : (c : Dev nD) → (b : Ref sig .tc) → Buf (Elt Ideal) ((c : Thread nD τ).loc b)) (c : Dev nD) :
    (dat0 V c).arrAt 5 cfg0.N = mlpRows0 (V c main_v21) (V c main_arg10) (V c main_arg11) (V c main_arg12) (V c main_arg13) :=
  (dat0 V c).arrAt_eq_of_cover 5 _ (fun t _ => flushed0_eq V c t) cover0

end Cert.KernelIdeal.Hand

end
-- ==== Proof.KVal1.lean ====
/-
  Region 1's output array at the exact-real instance.

  The region's grid has 160 points; point `t` reads rows `10000·t … 10000·t + 9999` of the feature matrix (and the weights
  and biases whole) and writes the same rows of the output. At the exact-real instance the body's store is, row by
  row, the two-layer perceptron `Cert.Mlp.row` of that row, so what point `t` writes back is block `t` of ONE
  function of the arrays the region finds: the perceptron applied to every row. The blocks tile the output array,
  so the array ends holding that function.
-/
import proofs.«102410_j3917010174735_1_alg».proof.Proof.KReg1
import proofs.«102410_j3917010174735_1_alg».proof.Proof.KPay
import proofs.«102410_j3917010174735_1_alg».proof.Proof.MlpRow
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The perceptron applied to every row of a `1600000 × 69` feature matrix: entry `(r, q)` is `Cert.Mlp.row` of row `r` at column `q`. -/
def mlpRows1 (X : S1600000x69.Idx → Elt Ideal .f32) (W1 : S69x32.Idx → Elt Ideal .f32) (b1 : S32.Idx → Elt Ideal .f32)
    (W2 : S32x64.Idx → Elt Ideal .f32) (b2 : S64.Idx → Elt Ideal .f32) : S1600000x64.Idx → Elt Ideal .f32 :=
  fun j => Cert.Mlp.row (fun i : Fin 69 => X (ix2 (⟨(j 0).val, idx2_lt0 j⟩ : Fin 1600000) i)) (fun i k => W1 (ix2 i k)) (fun k => b1 (ix1 k))
    (fun k q => W2 (ix2 k q)) (fun q => b2 (ix1 q)) ⟨(j 1).val, idx2_lt1 j⟩

theorem hz2_1 : (![0, 0] : Fin 2 → Nat) = fun _ => 0 := funext fun a => by fin_cases a <;> rfl
theorem hz1_1 : (![0] : Fin 1 → Nat) = fun _ => 0 := funext fun a => by fin_cases a <;> rfl

/-- The printed index maps over the grid: the feature window and the output window sit at block `t` of axis 0, the
    weights and biases at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- One point, over variables: if the feature block holds rows `r0 …` of `X` and the other blocks are the weights and
    biases whole, the body's store at `(p, q)` is the perceptron of row `r0 + p` at column `q`. -/
theorem point1 (X : S1600000x69.Idx → Elt Ideal .f32) (W1 : S69x32.Idx → Elt Ideal .f32) (b1 : S32.Idx → Elt Ideal .f32)
    (W2 : S32x64.Idx → Elt Ideal .f32) (b2 : S64.Idx → Elt Ideal .f32)
    (x0 : Vec Ideal S10000x69 .f32) (r0 : ℕ) (hr0 : r0 + 10000 ≤ 1600000)
    (hx0 : ∀ (p : Fin 10000) (i : Fin 69), x0 (ix2 p i) = X (ix2 (⟨r0 + p.val, by have := p.isLt; omega⟩ : Fin 1600000) i))
    (p : Fin 10000) (q : Fin 64) :
    k1_pay1 (F := Ideal) x0 W1 b1 W2 b2 (ix2 p q) = mlpRows1 X W1 b1 W2 b2 (ix2 (⟨r0 + p.val, by have := p.isLt; omega⟩ : Fin 1600000) q) := by
  rw [Cert.KPay.pay1_apply]
  unfold mlpRows1
  simp only [hx0]

/-- What point `t` writes back is block `t` of the perceptron of the arrays the region finds. -/
theorem flushed1_eq (V : (c : Dev nD) → (b : Ref sig .tc) → Buf (Elt Ideal) ((c : Thread nD τ).loc b)) (c : Dev nD) (t : Fin cfg1.N) :
    (dat1 V c).flushed 5 t = ((cfg1.win 5).blk t).view.read (Elt Ideal)
      (mlpRows1 (V c main_v47) (V c main_arg14) (V c main_arg15) (V c main_arg16) (V c main_arg17)) := by
  show (cfg1.win 5).cut (grid1.coords t) ((dat1 V c).after 5 t) = _
  rw [after1_5]
  unfold out1_5
  rw [View.canon_unit_zero hz2_1]
  simp only [View.ld_unit_zero (S := S10000x69) hz2_1, View.ld_unit_zero (S := S69x32) hz2_1, View.ld_unit_zero (S := S32) hz1_1,
    View.ld_unit_zero (S := S32x64) hz2_1, View.ld_unit_zero (S := S64) hz1_1]
  obtain ⟨e00, e01, e10, e11, e20, e30, e31, e40, e50, e51⟩ := idx_facts1 t
  have ht : t.val < 160 := lt_of_lt_of_eq t.isLt (N_1 : cfg1.N = 160)
  -- the weights' and biases' blocks are their arrays whole
  have h1 : iblk1 V c 1 t = V c main_arg14 := by
    funext y
    show V c main_arg14 (((cfg1.win 1).blk t).view.emb y) = V c main_arg14 y
    refine congrArg _ (funext fun a => Fin.ext ?_)
    match a with
    | ⟨0, _⟩ => show win1_1.index t (0 : Fin 2) * 69 + 1 * (y 0).val = (y 0).val; omega
    | ⟨1, _⟩ => show win1_1.index t (1 : Fin 2) * 32 + 1 * (y 1).val = (y 1).val; omega
  have h2 : iblk1 V c 2 t = V c main_arg15 := by
    funext y
    show V c main_arg15 (((cfg1.win 2).blk t).view.emb y) = V c main_arg15 y
    refine congrArg _ (funext fun a => Fin.ext ?_)
    match a with
    | ⟨0, _⟩ => show win1_2.index t (0 : Fin 1) * 32 + 1 * (y 0).val = (y 0).val; omega
  have h3 : iblk1 V c 3 t = V c main_arg16 := by
    funext y
    show V c main_arg16 (((cfg1.win 3).blk t).view.emb y) = V c main_arg16 y
    refine congrArg _ (funext fun a => Fin.ext ?_)
    match a with
    | ⟨0, _⟩ => show win1_3.index t (0 : Fin 2) * 32 + 1 * (y 0).val = (y 0).val; omega
    | ⟨1, _⟩ => show win1_3.index t (1 : Fin 2) * 64 + 1 * (y 1).val = (y 1).val; omega
  have h4 : iblk1 V c 4 t = V c main_arg17 := by
    funext y
    show V c main_arg17 (((cfg1.win 4).blk t).view.emb y) = V c main_arg17 y
    refine congrArg _ (funext fun a => Fin.ext ?_)
    match a with
    | ⟨0, _⟩ => show win1_4.index t (0 : Fin 1) * 64 + 1 * (y 0).val = (y 0).val; omega
  rw [h1, h2, h3, h4]
  -- the feature block holds rows 10000·t … of the feature matrix
  have h0 : ∀ (p : Fin 10000) (i : Fin 69), iblk1 V c 0 t (ix2 p i)
      = V c main_v47 (ix2 (⟨10000 * t.val + p.val, by have := p.isLt; omega⟩ : Fin 1600000) i) := by
    intro p i
    show V c main_v47 (((cfg1.win 0).blk t).view.emb (ix2 p i)) = _
    refine congrArg _ (funext fun a => Fin.ext ?_)
    match a with
    | ⟨0, _⟩ => show win1_0.index t (0 : Fin 2) * 10000 + 1 * p.val = 10000 * t.val + p.val; omega
    | ⟨1, _⟩ => show win1_0.index t (1 : Fin 2) * 69 + 1 * i.val = i.val; omega
  funext y
  obtain ⟨p, q, rfl⟩ : ∃ (p : Fin 10000) (q : Fin 64), y = ix2 p q := ⟨y 0, y 1, eq_ix2 y⟩
  refine (point1 (V c main_v47) (V c main_arg14) (V c main_arg15) (V c main_arg16) (V c main_arg17) (iblk1 V c 0 t) (10000 * t.val) (by omega) h0 p q).trans ?_
  show _ = mlpRows1 (V c main_v47) (V c main_arg14) (V c main_arg15) (V c main_arg16) (V c main_arg17) (((cfg1.win 5).blk t).view.emb (ix2 p q))
  refine congrArg _ (funext fun a => Fin.ext ?_)
  match a with
  | ⟨0, _⟩ => show 10000 * t.val + p.val = win1_5.index t (0 : Fin 2) * 10000 + 1 * p.val; omega
  | ⟨1, _⟩ => show q.val = win1_5.index t (1 : Fin 2) * 64 + 1 * q.val; omega

/-- An index of the output array is in point `t`'s block iff each coordinate is in the block's range on its axis. -/
theorem mem_blk1 (t : Fin cfg1.N) (i : S1600000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v48).slice (win1_5.rect t)).set ↔ _
  rw [View.set_slice_whole, Rect.mem_set_unit]
  exact Iff.rfl

/-- Every row is in some point's block: row `r` in point `r / 10000`'s. -/
theorem cover1 (i : S1600000x64.Idx) : ∃ t : Fin cfg1.N, (cfg1.win 5).flush t = true ∧ i ∈ ((cfg1.win 5).blk t).view.set := by
  have hi0 : (i 0).val < 1600000 := (i 0).isLt
  have hi1 : (i 1).val < 64 := (i 1).isLt
  have hN : grid1.N = 160 := N_1
  let t : Fin cfg1.N := ⟨(i 0).val / 10000, by show (i 0).val / 10000 < grid1.N; omega⟩
  obtain ⟨e00, e01, e10, e11, e20, e30, e31, e40, e50, e51⟩ := idx_facts1 t
  have htv : t.val = (i 0).val / 10000 := rfl
  refine ⟨t, flush1_5 t, ?_⟩
  rw [mem_blk1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 64 ≤ (i 1).val ∧ (i 1).val < win1_5.index t (1 : Fin 2) * 64 + 64; omega

/-- THE ARRAY after the region: the perceptron of the arrays the region finds, applied to every row. -/
theorem final1 (V : (c : Dev nD) → (b : Ref sig .tc) → Buf (Elt Ideal) ((c : Thread nD τ).loc b)) (c : Dev nD) :
    (dat1 V c).arrAt 5 cfg1.N = mlpRows1 (V c main_v47) (V c main_arg14) (V c main_arg15) (V c main_arg16) (V c main_arg17) :=
  (dat1 V c).arrAt_eq_of_cover 5 _ (fun t _ => flushed1_eq V c t) cover1

end Cert.KernelIdeal.Hand

end
-- ==== Proof.KVal2.lean ====
/-
  Region 2's output array at the exact-real instance.

  The region's grid has 10 points; point `t` reads rows `5000·t … 5000·t + 4999` of the feature matrix (and the weights
  and biases whole) and writes the same rows of the output. At the exact-real instance the body's store is, row by
  row, the two-layer perceptron `Cert.Mlp.row` of that row, so what point `t` writes back is block `t` of ONE
  function of the arrays the region finds: the perceptron applied to every row. The blocks tile the output array,
  so the array ends holding that function.
-/
import proofs.«102410_j3917010174735_1_alg».proof.Proof.KReg2
import proofs.«102410_j3917010174735_1_alg».proof.Proof.KPay
import proofs.«102410_j3917010174735_1_alg».proof.Proof.MlpRow
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The perceptron applied to every row of a `50000 × 194` feature matrix: entry `(r, q)` is `Cert.Mlp.row` of row `r` at column `q`. -/
def mlpRows2 (X : S50000x194.Idx → Elt Ideal .f32) (W1 : S194x32.Idx → Elt Ideal .f32) (b1 : S32.Idx → Elt Ideal .f32)
    (W2 : S32x64.Idx → Elt Ideal .f32) (b2 : S64.Idx → Elt Ideal .f32) : S50000x64.Idx → Elt Ideal .f32 :=
  fun j => Cert.Mlp.row (fun i : Fin 194 => X (ix2 (⟨(j 0).val, idx2_lt0 j⟩ : Fin 50000) i)) (fun i k => W1 (ix2 i k)) (fun k => b1 (ix1 k))
    (fun k q => W2 (ix2 k q)) (fun q => b2 (ix1 q)) ⟨(j 1).val, idx2_lt1 j⟩

theorem hz2_2 : (![0, 0] : Fin 2 → Nat) = fun _ => 0 := funext fun a => by fin_cases a <;> rfl
theorem hz1_2 : (![0] : Fin 1 → Nat) = fun _ => 0 := funext fun a => by fin_cases a <;> rfl

/-- The printed index maps over the grid: the feature window and the output window sit at block `t` of axis 0, the
    weights and biases at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- One point, over variables: if the feature block holds rows `r0 …` of `X` and the other blocks are the weights and
    biases whole, the body's store at `(p, q)` is the perceptron of row `r0 + p` at column `q`. -/
theorem point2 (X : S50000x194.Idx → Elt Ideal .f32) (W1 : S194x32.Idx → Elt Ideal .f32) (b1 : S32.Idx → Elt Ideal .f32)
    (W2 : S32x64.Idx → Elt Ideal .f32) (b2 : S64.Idx → Elt Ideal .f32)
    (x0 : Vec Ideal S5000x194 .f32) (r0 : ℕ) (hr0 : r0 + 5000 ≤ 50000)
    (hx0 : ∀ (p : Fin 5000) (i : Fin 194), x0 (ix2 p i) = X (ix2 (⟨r0 + p.val, by have := p.isLt; omega⟩ : Fin 50000) i))
    (p : Fin 5000) (q : Fin 64) :
    k2_pay1 (F := Ideal) x0 W1 b1 W2 b2 (ix2 p q) = mlpRows2 X W1 b1 W2 b2 (ix2 (⟨r0 + p.val, by have := p.isLt; omega⟩ : Fin 50000) q) := by
  rw [Cert.KPay.pay2_apply]
  unfold mlpRows2
  simp only [hx0]

/-- What point `t` writes back is block `t` of the perceptron of the arrays the region finds. -/
theorem flushed2_eq (V : (c : Dev nD) → (b : Ref sig .tc) → Buf (Elt Ideal) ((c : Thread nD τ).loc b)) (c : Dev nD) (t : Fin cfg2.N) :
    (dat2 V c).flushed 5 t = ((cfg2.win 5).blk t).view.read (Elt Ideal)
      (mlpRows2 (V c main_v52) (V c main_arg18) (V c main_arg19) (V c main_arg20) (V c main_arg21)) := by
  show (cfg2.win 5).cut (grid2.coords t) ((dat2 V c).after 5 t) = _
  rw [after2_5]
  unfold out2_5
  rw [View.canon_unit_zero hz2_2]
  simp only [View.ld_unit_zero (S := S5000x194) hz2_2, View.ld_unit_zero (S := S194x32) hz2_2, View.ld_unit_zero (S := S32) hz1_2,
    View.ld_unit_zero (S := S32x64) hz2_2, View.ld_unit_zero (S := S64) hz1_2]
  obtain ⟨e00, e01, e10, e11, e20, e30, e31, e40, e50, e51⟩ := idx_facts2 t
  have ht : t.val < 10 := lt_of_lt_of_eq t.isLt (N_2 : cfg2.N = 10)
  -- the weights' and biases' blocks are their arrays whole
  have h1 : iblk2 V c 1 t = V c main_arg18 := by
    funext y
    show V c main_arg18 (((cfg2.win 1).blk t).view.emb y) = V c main_arg18 y
    refine congrArg _ (funext fun a => Fin.ext ?_)
    match a with
    | ⟨0, _⟩ => show win2_1.index t (0 : Fin 2) * 194 + 1 * (y 0).val = (y 0).val; omega
    | ⟨1, _⟩ => show win2_1.index t (1 : Fin 2) * 32 + 1 * (y 1).val = (y 1).val; omega
  have h2 : iblk2 V c 2 t = V c main_arg19 := by
    funext y
    show V c main_arg19 (((cfg2.win 2).blk t).view.emb y) = V c main_arg19 y
    refine congrArg _ (funext fun a => Fin.ext ?_)
    match a with
    | ⟨0, _⟩ => show win2_2.index t (0 : Fin 1) * 32 + 1 * (y 0).val = (y 0).val; omega
  have h3 : iblk2 V c 3 t = V c main_arg20 := by
    funext y
    show V c main_arg20 (((cfg2.win 3).blk t).view.emb y) = V c main_arg20 y
    refine congrArg _ (funext fun a => Fin.ext ?_)
    match a with
    | ⟨0, _⟩ => show win2_3.index t (0 : Fin 2) * 32 + 1 * (y 0).val = (y 0).val; omega
    | ⟨1, _⟩ => show win2_3.index t (1 : Fin 2) * 64 + 1 * (y 1).val = (y 1).val; omega
  have h4 : iblk2 V c 4 t = V c main_arg21 := by
    funext y
    show V c main_arg21 (((cfg2.win 4).blk t).view.emb y) = V c main_arg21 y
    refine congrArg _ (funext fun a => Fin.ext ?_)
    match a with
    | ⟨0, _⟩ => show win2_4.index t (0 : Fin 1) * 64 + 1 * (y 0).val = (y 0).val; omega
  rw [h1, h2, h3, h4]
  -- the feature block holds rows 5000·t … of the feature matrix
  have h0 : ∀ (p : Fin 5000) (i : Fin 194), iblk2 V c 0 t (ix2 p i)
      = V c main_v52 (ix2 (⟨5000 * t.val + p.val, by have := p.isLt; omega⟩ : Fin 50000) i) := by
    intro p i
    show V c main_v52 (((cfg2.win 0).blk t).view.emb (ix2 p i)) = _
    refine congrArg _ (funext fun a => Fin.ext ?_)
    match a with
    | ⟨0, _⟩ => show win2_0.index t (0 : Fin 2) * 5000 + 1 * p.val = 5000 * t.val + p.val; omega
    | ⟨1, _⟩ => show win2_0.index t (1 : Fin 2) * 194 + 1 * i.val = i.val; omega
  funext y
  obtain ⟨p, q, rfl⟩ : ∃ (p : Fin 5000) (q : Fin 64), y = ix2 p q := ⟨y 0, y 1, eq_ix2 y⟩
  refine (point2 (V c main_v52) (V c main_arg18) (V c main_arg19) (V c main_arg20) (V c main_arg21) (iblk2 V c 0 t) (5000 * t.val) (by omega) h0 p q).trans ?_
  show _ = mlpRows2 (V c main_v52) (V c main_arg18) (V c main_arg19) (V c main_arg20) (V c main_arg21) (((cfg2.win 5).blk t).view.emb (ix2 p q))
  refine congrArg _ (funext fun a => Fin.ext ?_)
  match a with
  | ⟨0, _⟩ => show 5000 * t.val + p.val = win2_5.index t (0 : Fin 2) * 5000 + 1 * p.val; omega
  | ⟨1, _⟩ => show q.val = win2_5.index t (1 : Fin 2) * 64 + 1 * q.val; omega

/-- An index of the output array is in point `t`'s block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v53).slice (win2_5.rect t)).set ↔ _
  rw [View.set_slice_whole, Rect.mem_set_unit]
  exact Iff.rfl

/-- Every row is in some point's block: row `r` in point `r / 5000`'s. -/
theorem cover2 (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  let t : Fin cfg2.N := ⟨(i 0).val / 5000, by show (i 0).val / 5000 < grid2.N; omega⟩
  obtain ⟨e00, e01, e10, e11, e20, e30, e31, e40, e50, e51⟩ := idx_facts2 t
  have htv : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE ARRAY after the region: the perceptron of the arrays the region finds, applied to every row. -/
theorem final2 (V : (c : Dev nD) → (b : Ref sig .tc) → Buf (Elt Ideal) ((c : Thread nD τ).loc b)) (c : Dev nD) :
    (dat2 V c).arrAt 5 cfg2.N = mlpRows2 (V c main_v52) (V c main_arg18) (V c main_arg19) (V c main_arg20) (V c main_arg21) :=
  (dat2 V c).arrAt_eq_of_cover 5 _ (fun t _ => flushed2_eq V c t) cover2

end Cert.KernelIdeal.Hand

end
-- ==== Proof.LibConcCongr.lean ====
/-
  A concatenation of four arrays depends only on the four arrays.

  `concatenate` takes its pieces as a list of pairs (shape, contents) whose second component's type depends on the
  first, so a rewrite inside one piece is not a plain congruence step. This lemma is that step for four pieces of
  fixed shapes: equal contents piece by piece give equal concatenations. Library-only; any element type and shapes.
-/
import Idealize.ShloMosaic.PureOps

noncomputable section

namespace Cert.LibConcCongr

open Idealize.ShloMosaic

/-- Four pieces concatenated: equal pieces give equal results. -/
theorem conc4_congr {α : Type} (t : Shape) (a : Fin t.rank) (s0 s1 s2 s3 : Shape)
    (x0 y0 : s0.Idx → α) (x1 y1 : s1.Idx → α) (x2 y2 : s2.Idx → α) (x3 y3 : s3.Idx → α)
    (h : Shape.Concatenates [s0, s1, s2, s3] t a) (e0 : x0 = y0) (e1 : x1 = y1) (e2 : x2 = y2) (e3 : x3 = y3) :
    concatenate t a [⟨s0, x0⟩, ⟨s1, x1⟩, ⟨s2, x2⟩, ⟨s3, x3⟩] h = concatenate t a [⟨s0, y0⟩, ⟨s1, y1⟩, ⟨s2, y2⟩, ⟨s3, y3⟩] h := by
  subst e0; subst e1; subst e2; subst e3; rfl

end Cert.LibConcCongr

end
-- ==== Proof.KFinal.lean ====
/-
  The idealized kernel program's result as one function of its arguments.

  Reading the run backwards from the result array: the third region leaves the perceptron of every row of its
  feature matrix; that matrix is the third host stretch's concatenation of two arguments with the two scatter-added
  message arrays; each message array is a region's output, the perceptron of every row of a feature matrix that a
  host stretch gathers and concatenates from the arguments. No host stretch writes an argument and a region changes
  only its output array, so every argument read along the way is the launch memory's.
-/
import proofs.«102410_j3917010174735_1_alg».proof.Proof.KRun
import proofs.«102410_j3917010174735_1_alg».proof.Proof.KVal0
import proofs.«102410_j3917010174735_1_alg».proof.Proof.KVal1
import proofs.«102410_j3917010174735_1_alg».proof.Proof.KVal2
import proofs.«102410_j3917010174735_1_alg».proof.Proof.LibConcCongr

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- Region 0's features: per edge, two gathered coordinate pairs, one given feature and sixteen gathered features. -/
def feat0 (c : Dev nD) : FVec Ideal S1600000x21 .f32 :=
  concatenate S1600000x21 1 [⟨S1600000x2, (Host.gather gather_S50000x2_S1600000x1_S1600000x2_1_0_n_n_0_1_12 (m ((c.tc : Thread nD τ).loc main_arg3)) (broadcastInDim S1600000x1 ![0] bcast_S1600000_S1600000x1_0 (select (cmpi .slt (m ((c.tc : Thread nD τ).loc main_arg6)) (broadcastInDim S1600000 ![] bcast_S_S1600000 (constantI S_ 32 0#32))) (addi (m ((c.tc : Thread nD τ).loc main_arg6)) (broadcastInDim S1600000 ![] bcast_S_S1600000 (constantI S_ 32 50000#32))) (m ((c.tc : Thread nD τ).loc main_arg6)))))⟩, ⟨S1600000x2, (Host.gather gather_S50000x2_S1600000x1_S1600000x2_1_0_n_n_0_1_12 (m ((c.tc : Thread nD τ).loc main_arg2)) (broadcastInDim S1600000x1 ![0] bcast_S1600000_S1600000x1_0 (select (cmpi .slt (m ((c.tc : Thread nD τ).loc main_arg7)) (broadcastInDim S1600000 ![] bcast_S_S1600000 (constantI S_ 32 0#32))) (addi (m ((c.tc : Thread nD τ).loc main_arg7)) (broadcastInDim S1600000 ![] bcast_S_S1600000 (constantI S_ 32 50000#32))) (m ((c.tc : Thread nD τ).loc main_arg7)))))⟩, ⟨S1600000x1, (m ((c.tc : Thread nD τ).loc main_arg4))⟩, ⟨S1600000x16, (Host.gather gather_S50000x16_S1600000x1_S1600000x16_1_0_n_n_0_1_116 (m ((c.tc : Thread nD τ).loc main_arg1)) (broadcastInDim S1600000x1 ![0] bcast_S1600000_S1600000x1_0 (select (cmpi .slt (m ((c.tc : Thread nD τ).loc main_arg6)) (broadcastInDim S1600000 ![] bcast_S_S1600000 (constantI S_ 32 0#32))) (addi (m ((c.tc : Thread nD τ).loc main_arg6)) (broadcastInDim S1600000 ![] bcast_S_S1600000 (constantI S_ 32 50000#32))) (m ((c.tc : Thread nD τ).loc main_arg6)))))⟩] concatenates_S1600000x2_S1600000x2_S1600000x1_S1600000x16_S1600000x21_d1

/-- Region 1's features: per edge, two gathered coordinate pairs, one given feature and sixty-four gathered features. -/
def feat1 (c : Dev nD) : FVec Ideal S1600000x69 .f32 :=
  concatenate S1600000x69 1 [⟨S1600000x2, (Host.gather gather_S50000x2_S1600000x1_S1600000x2_1_0_n_n_0_1_12 (m ((c.tc : Thread nD τ).loc main_arg2)) (broadcastInDim S1600000x1 ![0] bcast_S1600000_S1600000x1_0 (select (cmpi .slt (m ((c.tc : Thread nD τ).loc main_arg8)) (broadcastInDim S1600000 ![] bcast_S_S1600000 (constantI S_ 32 0#32))) (addi (m ((c.tc : Thread nD τ).loc main_arg8)) (broadcastInDim S1600000 ![] bcast_S_S1600000 (constantI S_ 32 50000#32))) (m ((c.tc : Thread nD τ).loc main_arg8)))))⟩, ⟨S1600000x2, (Host.gather gather_S50000x2_S1600000x1_S1600000x2_1_0_n_n_0_1_12 (m ((c.tc : Thread nD τ).loc main_arg2)) (broadcastInDim S1600000x1 ![0] bcast_S1600000_S1600000x1_0 (select (cmpi .slt (m ((c.tc : Thread nD τ).loc main_arg9)) (broadcastInDim S1600000 ![] bcast_S_S1600000 (constantI S_ 32 0#32))) (addi (m ((c.tc : Thread nD τ).loc main_arg9)) (broadcastInDim S1600000 ![] bcast_S_S1600000 (constantI S_ 32 50000#32))) (m ((c.tc : Thread nD τ).loc main_arg9)))))⟩, ⟨S1600000x1, (m ((c.tc : Thread nD τ).loc main_arg5))⟩, ⟨S1600000x64, (Host.gather gather_S50000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg8)) (broadcastInDim S1600000 ![] bcast_S_S1600000 (constantI S_ 32 0#32))) (addi (m ((c.tc : Thread nD τ).loc main_arg8)) (broadcastInDim S1600000 ![] bcast_S_S1600000 (constantI S_ 32 50000#32))) (m ((c.tc : Thread nD τ).loc main_arg8)))))⟩] concatenates_S1600000x2_S1600000x2_S1600000x1_S1600000x64_S1600000x69_d1

/-- The first message array scatter-added into the nodes. -/
def sumU (c : Dev nD) : FVec Ideal S50000x64 .f32 :=
  (Host.scatterAdd (F := Ideal) scatter_S50000x64_S1600000x1_S1600000x64_1_0_0_1 (broadcastInDim S50000x64 ![] bcast_S_S50000x64 (constant (F := Ideal) S_ .f32 0x00000000#32)) (broadcastInDim S1600000x1 ![0] bcast_S1600000_S1600000x1_0 (m ((c.tc : Thread nD τ).loc main_arg7))) (mlpRows0 (feat0 m c) (m ((c.tc : Thread nD τ).loc main_arg10)) (m ((c.tc : Thread nD τ).loc main_arg11)) (m ((c.tc : Thread nD τ).loc main_arg12)) (m ((c.tc : Thread nD τ).loc main_arg13))))

/-- The second message array scatter-added into the nodes. -/
def sumH (c : Dev nD) : FVec Ideal S50000x64 .f32 :=
  (Host.scatterAdd (F := Ideal) scatter_S50000x64_S1600000x1_S1600000x64_1_0_0_1 (broadcastInDim S50000x64 ![] bcast_S_S50000x64 (constant (F := Ideal) S_ .f32 0x00000000#32)) (broadcastInDim S1600000x1 ![0] bcast_S1600000_S1600000x1_0 (m ((c.tc : Thread nD τ).loc main_arg9))) (mlpRows1 (feat1 m c) (m ((c.tc : Thread nD τ).loc main_arg14)) (m ((c.tc : Thread nD τ).loc main_arg15)) (m ((c.tc : Thread nD τ).loc main_arg16)) (m ((c.tc : Thread nD τ).loc main_arg17))))

/-- Region 2's features: per node, its position, its state and the two scatter-added message rows. -/
def feat2 (c : Dev nD) : FVec Ideal S50000x194 .f32 :=
  concatenate S50000x194 1 [⟨S50000x2, (m ((c.tc : Thread nD τ).loc main_arg2))⟩, ⟨S50000x64, (m ((c.tc : Thread nD τ).loc main_arg0))⟩, ⟨S50000x64, sumU m c⟩, ⟨S50000x64, sumH m c⟩] concatenates_S50000x2_S50000x64_S50000x64_S50000x64_S50000x194_d1

/-- The program's result: the perceptron of every row of region 2's features. -/
def result (c : Dev nD) : FVec Ideal S50000x64 .f32 :=
  mlpRows2 (feat2 m c) (m ((c.tc : Thread nD τ).loc main_arg18)) (m ((c.tc : Thread nD τ).loc main_arg19)) (m ((c.tc : Thread nD τ).loc main_arg20)) (m ((c.tc : Thread nD τ).loc main_arg21))

/-- The first host stretch leaves region 0's features. -/
theorem v21_eq (c : Dev nD) : V1 m c main_v21 = feat0 m c := by
  show StableHlo.after hostOps0 (W0 m c) (Proc.devRef .tc main_v21) = _
  after_results_simp
  simp only [Matrix.cons_val]
  unfold feat0
  refine Cert.LibConcCongr.conc4_congr _ _ _ _ _ _ _ _ _ _ _ _ _ _ _ ?_ ?_ ?_ ?_
  · after_results_simp
  · after_results_simp
  · after_results_simp
  · after_results_simp

/-- Region 0 leaves the first message array. -/
theorem v22_eq (c : Dev nD) : V2 m c main_v22 = (mlpRows0 (feat0 m c) (m ((c.tc : Thread nD τ).loc main_arg10)) (m ((c.tc : Thread nD τ).loc main_arg11)) (m ((c.tc : Thread nD τ).loc main_arg12)) (m ((c.tc : Thread nD τ).loc main_arg13))) := by
  refine (W2_arr m c 5).trans ((final0 (V1 m) c).trans ?_)
  rw [v21_eq]
  rw [show V1 m c main_arg10 = (m ((c.tc : Thread nD τ).loc main_arg10)) from W1_kept m c main_arg10 (by decide),
    show V1 m c main_arg11 = (m ((c.tc : Thread nD τ).loc main_arg11)) from W1_kept m c main_arg11 (by decide),
    show V1 m c main_arg12 = (m ((c.tc : Thread nD τ).loc main_arg12)) from W1_kept m c main_arg12 (by decide),
    show V1 m c main_arg13 = (m ((c.tc : Thread nD τ).loc main_arg13)) from W1_kept m c main_arg13 (by decide)]

/-- The second host stretch scatter-adds it. -/
theorem v25_eq (c : Dev nD) : V3 m c main_v25 = sumU m c := by
  show StableHlo.after hostOps1 (W2 m c) (Proc.devRef .tc main_v25) = _
  after_results_simp
  unfold sumU
  rw [show W2 m c (Proc.devRef .tc main_arg7) = (m ((c.tc : Thread nD τ).loc main_arg7)) from W2_kept m c main_arg7 (by decide) (by decide),
    show W2 m c (Proc.devRef .tc main_v22) = _ from v22_eq m c]

/-- The second host stretch leaves region 1's features. -/
theorem v47_eq (c : Dev nD) : V3 m c main_v47 = feat1 m c := by
  show StableHlo.after hostOps1 (W2 m c) (Proc.devRef .tc main_v47) = _
  after_results_simp
  simp only [Matrix.cons_val]
  unfold feat1
  have e0 : W2 m c (Proc.devRef .tc main_arg0) = (m ((c.tc : Thread nD τ).loc main_arg0)) := W2_kept m c main_arg0 (by decide) (by decide)
  have e2 : W2 m c (Proc.devRef .tc main_arg2) = (m ((c.tc : Thread nD τ).loc main_arg2)) := W2_kept m c main_arg2 (by decide) (by decide)
  have e5 : W2 m c (Proc.devRef .tc main_arg5) = (m ((c.tc : Thread nD τ).loc main_arg5)) := W2_kept m c main_arg5 (by decide) (by decide)
  have e8 : W2 m c (Proc.devRef .tc main_arg8) = (m ((c.tc : Thread nD τ).loc main_arg8)) := W2_kept m c main_arg8 (by decide) (by decide)
  have e9 : W2 m c (Proc.devRef .tc main_arg9) = (m ((c.tc : Thread nD τ).loc main_arg9)) := W2_kept m c main_arg9 (by decide) (by decide)
  refine Cert.LibConcCongr.conc4_congr _ _ _ _ _ _ _ _ _ _ _ _ _ _ _ ?_ ?_ ?_ ?_
  · after_results_simp; rw [e2, e8]
  · after_results_simp; rw [e2, e9]
  · after_results_simp; exact e5
  · after_results_simp; rw [e0, e8]

/-- Region 1 leaves the second message array. -/
theorem v48_eq (c : Dev nD) : V4 m c main_v48 = (mlpRows1 (feat1 m c) (m ((c.tc : Thread nD τ).loc main_arg14)) (m ((c.tc : Thread nD τ).loc main_arg15)) (m ((c.tc : Thread nD τ).loc main_arg16)) (m ((c.tc : Thread nD τ).loc main_arg17))) := by
  refine (W4_arr m c 5).trans ((final1 (V3 m) c).trans ?_)
  rw [v47_eq]
  rw [show V3 m c main_arg14 = (m ((c.tc : Thread nD τ).loc main_arg14)) from W3_kept m c main_arg14 (by decide) (by decide) (by decide),
    show V3 m c main_arg15 = (m ((c.tc : Thread nD τ).loc main_arg15)) from W3_kept m c main_arg15 (by decide) (by decide) (by decide),
    show V3 m c main_arg16 = (m ((c.tc : Thread nD τ).loc main_arg16)) from W3_kept m c main_arg16 (by decide) (by decide) (by decide),
    show V3 m c main_arg17 = (m ((c.tc : Thread nD τ).loc main_arg17)) from W3_kept m c main_arg17 (by decide) (by decide) (by decide)]

/-- The third host stretch leaves region 2's features. -/
theorem v52_eq (c : Dev nD) : V5 m c main_v52 = feat2 m c := by
  show StableHlo.after hostOps2 (W4 m c) (Proc.devRef .tc main_v52) = _
  after_results_simp
  simp only [Matrix.cons_val]
  unfold feat2
  refine Cert.LibConcCongr.conc4_congr _ _ _ _ _ _ _ _ _ _ _ _ _ _ _ ?_ ?_ ?_ ?_
  · after_results_simp; exact W4_kept m c main_arg2 (by decide) (by decide) (by decide) (by decide)
  · after_results_simp; exact W4_kept m c main_arg0 (by decide) (by decide) (by decide) (by decide)
  · after_results_simp
    exact (W4_of_ne_out m c main_v25 (by decide)).trans (v25_eq m c)
  · after_results_simp
    unfold sumH
    rw [show W4 m c (Proc.devRef .tc main_arg9) = (m ((c.tc : Thread nD τ).loc main_arg9)) from W4_kept m c main_arg9 (by decide) (by decide) (by decide) (by decide),
      show W4 m c (Proc.devRef .tc main_v48) = _ from v48_eq m c]

/-- THE RESULT: at the end of the run the result array holds `result`. -/
theorem out_eq (c : Dev nD) : W6 m c (Proc.devRef .tc main_v53) = result m c := by
  refine (W6_out m c).trans ((final2 (V5 m) c).trans ?_)
  unfold result
  rw [v52_eq]
  rw [show V5 m c main_arg18 = (m ((c.tc : Thread nD τ).loc main_arg18)) from W5_kept m c main_arg18 (by decide) (by decide) (by decide) (by decide) (by decide),
    show V5 m c main_arg19 = (m ((c.tc : Thread nD τ).loc main_arg19)) from W5_kept m c main_arg19 (by decide) (by decide) (by decide) (by decide) (by decide),
    show V5 m c main_arg20 = (m ((c.tc : Thread nD τ).loc main_arg20)) from W5_kept m c main_arg20 (by decide) (by decide) (by decide) (by decide) (by decide),
    show V5 m c main_arg21 = (m ((c.tc : Thread nD τ).loc main_arg21)) from W5_kept m c main_arg21 (by decide) (by decide) (by decide) (by decide) (by decide)]

end Cert.KernelIdeal.Hand

end
-- ==== Proof.KValueRun.lean ====
/-
  The idealized kernel program's run with its result named: every weakly fair execution terminates with the result
  array at `result` (one function of the arguments) and every argument array as launched.
-/
import proofs.«102410_j3917010174735_1_alg».proof.Proof.KFinal

set_option maxRecDepth 16384

noncomputable section

namespace Cert.KernelIdeal.Hand

open Cert.KernelIdeal Cert.KernelIdeal.Gen
open Idealize.ShloMosaic Idealize.ShloMosaic.TcCoe Idealize.SL.Sem

/-- The run at the exact-real instance, the result read off the last boundary's contents. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v53) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  run_all m ρ (hQ := fun r h c =>
    ⟨(h c _ (mem_uc main_v53 (by decide))).trans (out_eq m c),
     (h c _ (mem_uc main_arg0 (by decide))).trans (W6_kept m c main_arg0 (by decide) (by decide) (by decide) (by decide) (by decide) (by decide)),
     (h c _ (mem_uc main_arg1 (by decide))).trans (W6_kept m c main_arg1 (by decide) (by decide) (by decide) (by decide) (by decide) (by decide)),
     (h c _ (mem_uc main_arg2 (by decide))).trans (W6_kept m c main_arg2 (by decide) (by decide) (by decide) (by decide) (by decide) (by decide)),
     (h c _ (mem_uc main_arg3 (by decide))).trans (W6_kept m c main_arg3 (by decide) (by decide) (by decide) (by decide) (by decide) (by decide)),
     (h c _ (mem_uc main_arg4 (by decide))).trans (W6_kept m c main_arg4 (by decide) (by decide) (by decide) (by decide) (by decide) (by decide)),
     (h c _ (mem_uc main_arg5 (by decide))).trans (W6_kept m c main_arg5 (by decide) (by decide) (by decide) (by decide) (by decide) (by decide)),
     (h c _ (mem_uc main_arg6 (by decide))).trans (W6_kept m c main_arg6 (by decide) (by decide) (by decide) (by decide) (by decide) (by decide)),
     (h c _ (mem_uc main_arg7 (by decide))).trans (W6_kept m c main_arg7 (by decide) (by decide) (by decide) (by decide) (by decide) (by decide)),
     (h c _ (mem_uc main_arg8 (by decide))).trans (W6_kept m c main_arg8 (by decide) (by decide) (by decide) (by decide) (by decide) (by decide)),
     (h c _ (mem_uc main_arg9 (by decide))).trans (W6_kept m c main_arg9 (by decide) (by decide) (by decide) (by decide) (by decide) (by decide)),
     (h c _ (mem_uc main_arg10 (by decide))).trans (W6_kept m c main_arg10 (by decide) (by decide) (by decide) (by decide) (by decide) (by decide)),
     (h c _ (mem_uc main_arg11 (by decide))).trans (W6_kept m c main_arg11 (by decide) (by decide) (by decide) (by decide) (by decide) (by decide)),
     (h c _ (mem_uc main_arg12 (by decide))).trans (W6_kept m c main_arg12 (by decide) (by decide) (by decide) (by decide) (by decide) (by decide)),
     (h c _ (mem_uc main_arg13 (by decide))).trans (W6_kept m c main_arg13 (by decide) (by decide) (by decide) (by decide) (by decide) (by decide)),
     (h c _ (mem_uc main_arg14 (by decide))).trans (W6_kept m c main_arg14 (by decide) (by decide) (by decide) (by decide) (by decide) (by decide)),
     (h c _ (mem_uc main_arg15 (by decide))).trans (W6_kept m c main_arg15 (by decide) (by decide) (by decide) (by decide) (by decide) (by decide)),
     (h c _ (mem_uc main_arg16 (by decide))).trans (W6_kept m c main_arg16 (by decide) (by decide) (by decide) (by decide) (by decide) (by decide)),
     (h c _ (mem_uc main_arg17 (by decide))).trans (W6_kept m c main_arg17 (by decide) (by decide) (by decide) (by decide) (by decide) (by decide)),
     (h c _ (mem_uc main_arg18 (by decide))).trans (W6_kept m c main_arg18 (by decide) (by decide) (by decide) (by decide) (by decide) (by decide)),
     (h c _ (mem_uc main_arg19 (by decide))).trans (W6_kept m c main_arg19 (by decide) (by decide) (by decide) (by decide) (by decide) (by decide)),
     (h c _ (mem_uc main_arg20 (by decide))).trans (W6_kept m c main_arg20 (by decide) (by decide) (by decide) (by decide) (by decide) (by decide)),
     (h c _ (mem_uc main_arg21 (by decide))).trans (W6_kept m c main_arg21 (by decide) (by decide) (by decide) (by decide) (by decide) (by decide))⟩)

end Cert.KernelIdeal.Hand

end
-- ==== Proof.RefMlp.lean ====
/-
  The reference program's three two-layer perceptrons, each as ONE function of its five operands over the extended
  reals, read at an entry.

  Each perceptron is `tanh (leaky (X · W1 + b1) · W2 + b2)` on a whole array of rows: two contractions
  (`dot_general` over one axis), two biases broadcast along the rows, and the rectifier written as a select between
  `y` and `c · y` on `y > 0`. The theorems `mlpA_apply`, `mlpB_apply`, `mlpC_apply` say that entry `(r, q)` of the
  result is `Cert.Mlp.row` of row `r` of the input: the sum over the features, the rectifier, the sum over the 32
  hidden units, `tanh`. The two float words `0x00000000` and `0x3C23D70A` stay as words: they are never evaluated.

  Names: `A` is the perceptron over 1600000 rows of 21 features, `B` the one over 1600000 rows of 69 features, `C` the
  one over 50000 rows of 194 features; a lemma shared by every array of 1600000 rows carries the suffix `E`, one
  shared by every array of 50000 rows the suffix `N`.
-/
import proofs.«102410_j3917010174735_1_alg».proof.Proof.Gen.ReferenceIdeal
import proofs.«102410_j3917010174735_1_alg».proof.Proof.MlpRow
import Idealize.ShloMosaic.Lib.ValueIdx
import Idealize.ShloMosaic.Lib.Pipeline.Value
import Idealize.ShloMosaic.PureOps.Ideal.Laws

noncomputable section

open scoped BigOperators

namespace Cert.RefMlp

open Cert.ReferenceIdeal Cert.ReferenceIdeal.Gen Idealize.ShloMosaic Idealize.ShloMosaic.ValueIdx

/-! ## The five contractions at an entry

Each `dot_general` of the program contracts the left operand's columns with the right operand's rows; read at entry
`(r, c)` it is the sum over that one axis. The contraction index of the dimension-numbers record is re-indexed by its
one coordinate. -/

theorem dot1A_l0 (i : S1600000x32.Idx) (q : dot_S1600000x21_S21x32_S1600000x32_1_0_0_1_n_n.contr.Idx) :
    (dot_S1600000x21_S21x32_S1600000x32_1_0_0_1_n_n.lhsIdx i q 0).val = (i 0).val := by
  unfold DotDims.lhsIdx
  rw [dif_neg (show ¬(0 : Fin S1600000x21.rank) ∈ dot_S1600000x21_S21x32_S1600000x32_1_0_0_1_n_n.lhsBatch by decide), dif_pos (show (0 : Fin S1600000x21.rank) ∈ dot_S1600000x21_S21x32_S1600000x32_1_0_0_1_n_n.lhsNonContracting by decide)]
  rfl
theorem dot1A_l1 (i : S1600000x32.Idx) (q : dot_S1600000x21_S21x32_S1600000x32_1_0_0_1_n_n.contr.Idx) :
    (dot_S1600000x21_S21x32_S1600000x32_1_0_0_1_n_n.lhsIdx i q 1).val = (q ⟨0, by decide⟩).val :=
  dot_S1600000x21_S21x32_S1600000x32_1_0_0_1_n_n.lhsIdx_val_of_single rfl i q
theorem dot1A_r0 (i : S1600000x32.Idx) (q : dot_S1600000x21_S21x32_S1600000x32_1_0_0_1_n_n.contr.Idx) :
    (dot_S1600000x21_S21x32_S1600000x32_1_0_0_1_n_n.rhsIdx i q 0).val = (q ⟨0, by decide⟩).val :=
  dot_S1600000x21_S21x32_S1600000x32_1_0_0_1_n_n.rhsIdx_val_of_single rfl i q
theorem dot1A_r1 (i : S1600000x32.Idx) (q : dot_S1600000x21_S21x32_S1600000x32_1_0_0_1_n_n.contr.Idx) :
    (dot_S1600000x21_S21x32_S1600000x32_1_0_0_1_n_n.rhsIdx i q 1).val = (i 1).val := by
  unfold DotDims.rhsIdx
  rw [dif_neg (show ¬(1 : Fin S21x32.rank) ∈ dot_S1600000x21_S21x32_S1600000x32_1_0_0_1_n_n.rhsBatch by decide), dif_pos (show (1 : Fin S21x32.rank) ∈ dot_S1600000x21_S21x32_S1600000x32_1_0_0_1_n_n.rhsNonContracting by decide)]
  rfl
/-- The first layer's product over 21 features at entry `(r, c)`: the sum over the features. -/
theorem dot1A_apply (x : FVec Ideal S1600000x21 .f32) (w : FVec Ideal S21x32 .f32) (r : Fin 1600000) (c : Fin 32) :
    Host.dotGeneral (F := Ideal) dot_S1600000x21_S21x32_S1600000x32_1_0_0_1_n_n none x w (ix2 r c) = ∑ k : Fin 21, x (ix2 r k) * w (ix2 k c) := by
  simp only [Host.dotGeneral]
  rw [Ideal.dotGeneral_apply, ← Equiv.sum_comp (contrEquiv1 dot_S1600000x21_S21x32_S1600000x32_1_0_0_1_n_n 21 rfl rfl).symm]
  refine Finset.sum_congr rfl fun k _ => ?_
  have hk := contrEquiv1_symm_val dot_S1600000x21_S21x32_S1600000x32_1_0_0_1_n_n 21 rfl rfl k
  have el : dot_S1600000x21_S21x32_S1600000x32_1_0_0_1_n_n.lhsIdx (ix2 r c) ((contrEquiv1 dot_S1600000x21_S21x32_S1600000x32_1_0_0_1_n_n 21 rfl rfl).symm k) = ix2 r k := funext fun a => Fin.ext (by
    match a with
    | ⟨0, _⟩ => exact dot1A_l0 _ _
    | ⟨1, _⟩ => exact (dot1A_l1 _ _).trans hk)
  have er : dot_S1600000x21_S21x32_S1600000x32_1_0_0_1_n_n.rhsIdx (ix2 r c) ((contrEquiv1 dot_S1600000x21_S21x32_S1600000x32_1_0_0_1_n_n 21 rfl rfl).symm k) = ix2 k c := funext fun a => Fin.ext (by
    match a with
    | ⟨0, _⟩ => exact (dot1A_r0 _ _).trans hk
    | ⟨1, _⟩ => exact dot1A_r1 _ _)
  rw [el, er]

theorem dot1B_l0 (i : S1600000x32.Idx) (q : dot_S1600000x69_S69x32_S1600000x32_1_0_0_1_n_n.contr.Idx) :
    (dot_S1600000x69_S69x32_S1600000x32_1_0_0_1_n_n.lhsIdx i q 0).val = (i 0).val := by
  unfold DotDims.lhsIdx
  rw [dif_neg (show ¬(0 : Fin S1600000x69.rank) ∈ dot_S1600000x69_S69x32_S1600000x32_1_0_0_1_n_n.lhsBatch by decide), dif_pos (show (0 : Fin S1600000x69.rank) ∈ dot_S1600000x69_S69x32_S1600000x32_1_0_0_1_n_n.lhsNonContracting by decide)]
  rfl
theorem dot1B_l1 (i : S1600000x32.Idx) (q : dot_S1600000x69_S69x32_S1600000x32_1_0_0_1_n_n.contr.Idx) :
    (dot_S1600000x69_S69x32_S1600000x32_1_0_0_1_n_n.lhsIdx i q 1).val = (q ⟨0, by decide⟩).val :=
  dot_S1600000x69_S69x32_S1600000x32_1_0_0_1_n_n.lhsIdx_val_of_single rfl i q
theorem dot1B_r0 (i : S1600000x32.Idx) (q : dot_S1600000x69_S69x32_S1600000x32_1_0_0_1_n_n.contr.Idx) :
    (dot_S1600000x69_S69x32_S1600000x32_1_0_0_1_n_n.rhsIdx i q 0).val = (q ⟨0, by decide⟩).val :=
  dot_S1600000x69_S69x32_S1600000x32_1_0_0_1_n_n.rhsIdx_val_of_single rfl i q
theorem dot1B_r1 (i : S1600000x32.Idx) (q : dot_S1600000x69_S69x32_S1600000x32_1_0_0_1_n_n.contr.Idx) :
    (dot_S1600000x69_S69x32_S1600000x32_1_0_0_1_n_n.rhsIdx i q 1).val = (i 1).val := by
  unfold DotDims.rhsIdx
  rw [dif_neg (show ¬(1 : Fin S69x32.rank) ∈ dot_S1600000x69_S69x32_S1600000x32_1_0_0_1_n_n.rhsBatch by decide), dif_pos (show (1 : Fin S69x32.rank) ∈ dot_S1600000x69_S69x32_S1600000x32_1_0_0_1_n_n.rhsNonContracting by decide)]
  rfl
/-- The first layer's product over 69 features at entry `(r, c)`: the sum over the features. -/
theorem dot1B_apply (x : FVec Ideal S1600000x69 .f32) (w : FVec Ideal S69x32 .f32) (r : Fin 1600000) (c : Fin 32) :
    Host.dotGeneral (F := Ideal) dot_S1600000x69_S69x32_S1600000x32_1_0_0_1_n_n none x w (ix2 r c) = ∑ k : Fin 69, x (ix2 r k) * w (ix2 k c) := by
  simp only [Host.dotGeneral]
  rw [Ideal.dotGeneral_apply, ← Equiv.sum_comp (contrEquiv1 dot_S1600000x69_S69x32_S1600000x32_1_0_0_1_n_n 69 rfl rfl).symm]
  refine Finset.sum_congr rfl fun k _ => ?_
  have hk := contrEquiv1_symm_val dot_S1600000x69_S69x32_S1600000x32_1_0_0_1_n_n 69 rfl rfl k
  have el : dot_S1600000x69_S69x32_S1600000x32_1_0_0_1_n_n.lhsIdx (ix2 r c) ((contrEquiv1 dot_S1600000x69_S69x32_S1600000x32_1_0_0_1_n_n 69 rfl rfl).symm k) = ix2 r k := funext fun a => Fin.ext (by
    match a with
    | ⟨0, _⟩ => exact dot1B_l0 _ _
    | ⟨1, _⟩ => exact (dot1B_l1 _ _).trans hk)
  have er : dot_S1600000x69_S69x32_S1600000x32_1_0_0_1_n_n.rhsIdx (ix2 r c) ((contrEquiv1 dot_S1600000x69_S69x32_S1600000x32_1_0_0_1_n_n 69 rfl rfl).symm k) = ix2 k c := funext fun a => Fin.ext (by
    match a with
    | ⟨0, _⟩ => exact (dot1B_r0 _ _).trans hk
    | ⟨1, _⟩ => exact dot1B_r1 _ _)
  rw [el, er]

theorem dot1C_l0 (i : S50000x32.Idx) (q : dot_S50000x194_S194x32_S50000x32_1_0_0_1_n_n.contr.Idx) :
    (dot_S50000x194_S194x32_S50000x32_1_0_0_1_n_n.lhsIdx i q 0).val = (i 0).val := by
  unfold DotDims.lhsIdx
  rw [dif_neg (show ¬(0 : Fin S50000x194.rank) ∈ dot_S50000x194_S194x32_S50000x32_1_0_0_1_n_n.lhsBatch by decide), dif_pos (show (0 : Fin S50000x194.rank) ∈ dot_S50000x194_S194x32_S50000x32_1_0_0_1_n_n.lhsNonContracting by decide)]
  rfl
theorem dot1C_l1 (i : S50000x32.Idx) (q : dot_S50000x194_S194x32_S50000x32_1_0_0_1_n_n.contr.Idx) :
    (dot_S50000x194_S194x32_S50000x32_1_0_0_1_n_n.lhsIdx i q 1).val = (q ⟨0, by decide⟩).val :=
  dot_S50000x194_S194x32_S50000x32_1_0_0_1_n_n.lhsIdx_val_of_single rfl i q
theorem dot1C_r0 (i : S50000x32.Idx) (q : dot_S50000x194_S194x32_S50000x32_1_0_0_1_n_n.contr.Idx) :
    (dot_S50000x194_S194x32_S50000x32_1_0_0_1_n_n.rhsIdx i q 0).val = (q ⟨0, by decide⟩).val :=
  dot_S50000x194_S194x32_S50000x32_1_0_0_1_n_n.rhsIdx_val_of_single rfl i q
theorem dot1C_r1 (i : S50000x32.Idx) (q : dot_S50000x194_S194x32_S50000x32_1_0_0_1_n_n.contr.Idx) :
    (dot_S50000x194_S194x32_S50000x32_1_0_0_1_n_n.rhsIdx i q 1).val = (i 1).val := by
  unfold DotDims.rhsIdx
  rw [dif_neg (show ¬(1 : Fin S194x32.rank) ∈ dot_S50000x194_S194x32_S50000x32_1_0_0_1_n_n.rhsBatch by decide), dif_pos (show (1 : Fin S194x32.rank) ∈ dot_S50000x194_S194x32_S50000x32_1_0_0_1_n_n.rhsNonContracting by decide)]
  rfl
/-- The first layer's product over 194 features at entry `(r, c)`: the sum over the features. -/
theorem dot1C_apply (x : FVec Ideal S50000x194 .f32) (w : FVec Ideal S194x32 .f32) (r : Fin 50000) (c : Fin 32) :
    Host.dotGeneral (F := Ideal) dot_S50000x194_S194x32_S50000x32_1_0_0_1_n_n none x w (ix2 r c) = ∑ k : Fin 194, x (ix2 r k) * w (ix2 k c) := by
  simp only [Host.dotGeneral]
  rw [Ideal.dotGeneral_apply, ← Equiv.sum_comp (contrEquiv1 dot_S50000x194_S194x32_S50000x32_1_0_0_1_n_n 194 rfl rfl).symm]
  refine Finset.sum_congr rfl fun k _ => ?_
  have hk := contrEquiv1_symm_val dot_S50000x194_S194x32_S50000x32_1_0_0_1_n_n 194 rfl rfl k
  have el : dot_S50000x194_S194x32_S50000x32_1_0_0_1_n_n.lhsIdx (ix2 r c) ((contrEquiv1 dot_S50000x194_S194x32_S50000x32_1_0_0_1_n_n 194 rfl rfl).symm k) = ix2 r k := funext fun a => Fin.ext (by
    match a with
    | ⟨0, _⟩ => exact dot1C_l0 _ _
    | ⟨1, _⟩ => exact (dot1C_l1 _ _).trans hk)
  have er : dot_S50000x194_S194x32_S50000x32_1_0_0_1_n_n.rhsIdx (ix2 r c) ((contrEquiv1 dot_S50000x194_S194x32_S50000x32_1_0_0_1_n_n 194 rfl rfl).symm k) = ix2 k c := funext fun a => Fin.ext (by
    match a with
    | ⟨0, _⟩ => exact (dot1C_r0 _ _).trans hk
    | ⟨1, _⟩ => exact dot1C_r1 _ _)
  rw [el, er]

theorem dot2E_l0 (i : S1600000x64.Idx) (q : dot_S1600000x32_S32x64_S1600000x64_1_0_0_1_n_n.contr.Idx) :
    (dot_S1600000x32_S32x64_S1600000x64_1_0_0_1_n_n.lhsIdx i q 0).val = (i 0).val := by
  unfold DotDims.lhsIdx
  rw [dif_neg (show ¬(0 : Fin S1600000x32.rank) ∈ dot_S1600000x32_S32x64_S1600000x64_1_0_0_1_n_n.lhsBatch by decide), dif_pos (show (0 : Fin S1600000x32.rank) ∈ dot_S1600000x32_S32x64_S1600000x64_1_0_0_1_n_n.lhsNonContracting by decide)]
  rfl
theorem dot2E_l1 (i : S1600000x64.Idx) (q : dot_S1600000x32_S32x64_S1600000x64_1_0_0_1_n_n.contr.Idx) :
    (dot_S1600000x32_S32x64_S1600000x64_1_0_0_1_n_n.lhsIdx i q 1).val = (q ⟨0, by decide⟩).val :=
  dot_S1600000x32_S32x64_S1600000x64_1_0_0_1_n_n.lhsIdx_val_of_single rfl i q
theorem dot2E_r0 (i : S1600000x64.Idx) (q : dot_S1600000x32_S32x64_S1600000x64_1_0_0_1_n_n.contr.Idx) :
    (dot_S1600000x32_S32x64_S1600000x64_1_0_0_1_n_n.rhsIdx i q 0).val = (q ⟨0, by decide⟩).val :=
  dot_S1600000x32_S32x64_S1600000x64_1_0_0_1_n_n.rhsIdx_val_of_single rfl i q
theorem dot2E_r1 (i : S1600000x64.Idx) (q : dot_S1600000x32_S32x64_S1600000x64_1_0_0_1_n_n.contr.Idx) :
    (dot_S1600000x32_S32x64_S1600000x64_1_0_0_1_n_n.rhsIdx i q 1).val = (i 1).val := by
  unfold DotDims.rhsIdx
  rw [dif_neg (show ¬(1 : Fin S32x64.rank) ∈ dot_S1600000x32_S32x64_S1600000x64_1_0_0_1_n_n.rhsBatch by decide), dif_pos (show (1 : Fin S32x64.rank) ∈ dot_S1600000x32_S32x64_S1600000x64_1_0_0_1_n_n.rhsNonContracting by decide)]
  rfl
/-- The second layer's product on 1600000 rows at entry `(r, c)`: the sum over the 32 hidden units. -/
theorem dot2E_apply (x : FVec Ideal S1600000x32 .f32) (w : FVec Ideal S32x64 .f32) (r : Fin 1600000) (c : Fin 64) :
    Host.dotGeneral (F := Ideal) dot_S1600000x32_S32x64_S1600000x64_1_0_0_1_n_n none x w (ix2 r c) = ∑ k : Fin 32, x (ix2 r k) * w (ix2 k c) := by
  simp only [Host.dotGeneral]
  rw [Ideal.dotGeneral_apply, ← Equiv.sum_comp (contrEquiv1 dot_S1600000x32_S32x64_S1600000x64_1_0_0_1_n_n 32 rfl rfl).symm]
  refine Finset.sum_congr rfl fun k _ => ?_
  have hk := contrEquiv1_symm_val dot_S1600000x32_S32x64_S1600000x64_1_0_0_1_n_n 32 rfl rfl k
  have el : dot_S1600000x32_S32x64_S1600000x64_1_0_0_1_n_n.lhsIdx (ix2 r c) ((contrEquiv1 dot_S1600000x32_S32x64_S1600000x64_1_0_0_1_n_n 32 rfl rfl).symm k) = ix2 r k := funext fun a => Fin.ext (by
    match a with
    | ⟨0, _⟩ => exact dot2E_l0 _ _
    | ⟨1, _⟩ => exact (dot2E_l1 _ _).trans hk)
  have er : dot_S1600000x32_S32x64_S1600000x64_1_0_0_1_n_n.rhsIdx (ix2 r c) ((contrEquiv1 dot_S1600000x32_S32x64_S1600000x64_1_0_0_1_n_n 32 rfl rfl).symm k) = ix2 k c := funext fun a => Fin.ext (by
    match a with
    | ⟨0, _⟩ => exact (dot2E_r0 _ _).trans hk
    | ⟨1, _⟩ => exact dot2E_r1 _ _)
  rw [el, er]

theorem dot2N_l0 (i : S50000x64.Idx) (q : dot_S50000x32_S32x64_S50000x64_1_0_0_1_n_n.contr.Idx) :
    (dot_S50000x32_S32x64_S50000x64_1_0_0_1_n_n.lhsIdx i q 0).val = (i 0).val := by
  unfold DotDims.lhsIdx
  rw [dif_neg (show ¬(0 : Fin S50000x32.rank) ∈ dot_S50000x32_S32x64_S50000x64_1_0_0_1_n_n.lhsBatch by decide), dif_pos (show (0 : Fin S50000x32.rank) ∈ dot_S50000x32_S32x64_S50000x64_1_0_0_1_n_n.lhsNonContracting by decide)]
  rfl
theorem dot2N_l1 (i : S50000x64.Idx) (q : dot_S50000x32_S32x64_S50000x64_1_0_0_1_n_n.contr.Idx) :
    (dot_S50000x32_S32x64_S50000x64_1_0_0_1_n_n.lhsIdx i q 1).val = (q ⟨0, by decide⟩).val :=
  dot_S50000x32_S32x64_S50000x64_1_0_0_1_n_n.lhsIdx_val_of_single rfl i q
theorem dot2N_r0 (i : S50000x64.Idx) (q : dot_S50000x32_S32x64_S50000x64_1_0_0_1_n_n.contr.Idx) :
    (dot_S50000x32_S32x64_S50000x64_1_0_0_1_n_n.rhsIdx i q 0).val = (q ⟨0, by decide⟩).val :=
  dot_S50000x32_S32x64_S50000x64_1_0_0_1_n_n.rhsIdx_val_of_single rfl i q
theorem dot2N_r1 (i : S50000x64.Idx) (q : dot_S50000x32_S32x64_S50000x64_1_0_0_1_n_n.contr.Idx) :
    (dot_S50000x32_S32x64_S50000x64_1_0_0_1_n_n.rhsIdx i q 1).val = (i 1).val := by
  unfold DotDims.rhsIdx
  rw [dif_neg (show ¬(1 : Fin S32x64.rank) ∈ dot_S50000x32_S32x64_S50000x64_1_0_0_1_n_n.rhsBatch by decide), dif_pos (show (1 : Fin S32x64.rank) ∈ dot_S50000x32_S32x64_S50000x64_1_0_0_1_n_n.rhsNonContracting by decide)]
  rfl
/-- The second layer's product on 50000 rows at entry `(r, c)`: the sum over the 32 hidden units. -/
theorem dot2N_apply (x : FVec Ideal S50000x32 .f32) (w : FVec Ideal S32x64 .f32) (r : Fin 50000) (c : Fin 64) :
    Host.dotGeneral (F := Ideal) dot_S50000x32_S32x64_S50000x64_1_0_0_1_n_n none x w (ix2 r c) = ∑ k : Fin 32, x (ix2 r k) * w (ix2 k c) := by
  simp only [Host.dotGeneral]
  rw [Ideal.dotGeneral_apply, ← Equiv.sum_comp (contrEquiv1 dot_S50000x32_S32x64_S50000x64_1_0_0_1_n_n 32 rfl rfl).symm]
  refine Finset.sum_congr rfl fun k _ => ?_
  have hk := contrEquiv1_symm_val dot_S50000x32_S32x64_S50000x64_1_0_0_1_n_n 32 rfl rfl k
  have el : dot_S50000x32_S32x64_S50000x64_1_0_0_1_n_n.lhsIdx (ix2 r c) ((contrEquiv1 dot_S50000x32_S32x64_S50000x64_1_0_0_1_n_n 32 rfl rfl).symm k) = ix2 r k := funext fun a => Fin.ext (by
    match a with
    | ⟨0, _⟩ => exact dot2N_l0 _ _
    | ⟨1, _⟩ => exact (dot2N_l1 _ _).trans hk)
  have er : dot_S50000x32_S32x64_S50000x64_1_0_0_1_n_n.rhsIdx (ix2 r c) ((contrEquiv1 dot_S50000x32_S32x64_S50000x64_1_0_0_1_n_n 32 rfl rfl).symm k) = ix2 k c := funext fun a => Fin.ext (by
    match a with
    | ⟨0, _⟩ => exact (dot2N_r0 _ _).trans hk
    | ⟨1, _⟩ => exact dot2N_r1 _ _)
  rw [el, er]

/-! ## Biases, constants, the rectifier and the output layer, on 1600000 rows -/

/-- A 32-vector broadcast along the 1600000 rows reads the vector at the column. -/
theorem bias32E_apply (b : FVec Ideal S32 .f32) (r : Fin 1600000) (k : Fin 32) :
    broadcastInDim S1600000x32 ![0, 1] bcast_S1x32_S1600000x32_0_1 (broadcastInDim S1x32 ![1] bcast_S32_S1x32_1 b) (ix2 r k) = b (ix1 k) := by
  refine (broadcastInDim_apply _ bcast_S1x32_S1600000x32_0_1 _ (ix2 r k) (ix2 (0 : Fin 1) k) (fun a => match a with
    | ⟨0, _⟩ => by show 0 = if (1 : Nat) = 1 then 0 else r.val; rw [if_pos rfl]
    | ⟨1, _⟩ => by show k.val = if (32 : Nat) = 1 then 0 else k.val; rw [if_neg (by decide)])).trans ?_
  exact broadcastInDim_apply _ bcast_S32_S1x32_1 b (ix2 (0 : Fin 1) k) (ix1 k) (fun a => match a with
    | ⟨0, _⟩ => by show k.val = if (32 : Nat) = 1 then 0 else k.val; rw [if_neg (by decide)])

/-- A 64-vector broadcast along the 1600000 rows reads the vector at the column. -/
theorem bias64E_apply (b : FVec Ideal S64 .f32) (r : Fin 1600000) (q : Fin 64) :
    broadcastInDim S1600000x64 ![0, 1] bcast_S1x64_S1600000x64_0_1 (broadcastInDim S1x64 ![1] bcast_S64_S1x64_1 b) (ix2 r q) = b (ix1 q) := by
  refine (broadcastInDim_apply _ bcast_S1x64_S1600000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- A scalar constant broadcast to 1600000 × 32 reads the value of its word everywhere. -/
theorem splatE_apply (w : BitVec 32) (r : Fin 1600000) (k : Fin 32) :
    broadcastInDim S1600000x32 ![] bcast_S_S1600000x32 (constant (F := Ideal) S_ .f32 w) (ix2 r k) = Ideal.ofBits .f32 w :=
  broadcastInDim_apply _ bcast_S_S1600000x32 (constant (F := Ideal) S_ .f32 w) (ix2 r k) ix0 (fun a => a.elim0)

/-- The rectifier as the program spells it on a 1600000 × 32 array, at an entry: `Cert.Mlp.leaky` of the entry. -/
theorem leakyE_apply (h : FVec Ideal S1600000x32 .f32) (r : Fin 1600000) (k : Fin 32) :
    select (cmpf .ogt h (broadcastInDim S1600000x32 ![] bcast_S_S1600000x32 (constant (F := Ideal) S_ .f32 0x00000000#32))) h
        (mulf (broadcastInDim S1600000x32 ![] bcast_S_S1600000x32 (constant (F := Ideal) S_ .f32 0x3C23D70A#32)) h) (ix2 r k)
      = Cert.Mlp.leaky (h (ix2 r k)) := by
  rw [select_apply, cmpf_apply, mulf_apply, splatE_apply, splatE_apply]
  rfl

/-- The output layer on 1600000 rows at entry `(r, q)`: `tanh` of the affine form of row `r` of the hidden array. -/
theorem outE_apply (l : FVec Ideal S1600000x32 .f32) (w2 : FVec Ideal S32x64 .f32) (b2 : FVec Ideal S64 .f32) (r : Fin 1600000) (q : Fin 64) :
    Host.tanh (F := Ideal) (addf (Host.dotGeneral (F := Ideal) dot_S1600000x32_S32x64_S1600000x64_1_0_0_1_n_n none l w2)
        (broadcastInDim S1600000x64 ![0, 1] bcast_S1x64_S1600000x64_0_1 (broadcastInDim S1x64 ![1] bcast_S64_S1x64_1 b2))) (ix2 r q)
      = Ideal.tanh ((∑ k : Fin 32, l (ix2 r k) * w2 (ix2 k q)) + b2 (ix1 q)) := by
  show Ideal.tanh (Host.dotGeneral (F := Ideal) dot_S1600000x32_S32x64_S1600000x64_1_0_0_1_n_n none l w2 (ix2 r q)
      + broadcastInDim S1600000x64 ![0, 1] bcast_S1x64_S1600000x64_0_1 (broadcastInDim S1x64 ![1] bcast_S64_S1x64_1 b2) (ix2 r q)) = _
  rw [dot2E_apply, bias64E_apply]

/-! ## The same on 50000 rows -/

/-- A 32-vector broadcast along the 50000 rows reads the vector at the column. -/
theorem bias32N_apply (b : FVec Ideal S32 .f32) (r : Fin 50000) (k : Fin 32) :
    broadcastInDim S50000x32 ![0, 1] bcast_S1x32_S50000x32_0_1 (broadcastInDim S1x32 ![1] bcast_S32_S1x32_1 b) (ix2 r k) = b (ix1 k) := by
  refine (broadcastInDim_apply _ bcast_S1x32_S50000x32_0_1 _ (ix2 r k) (ix2 (0 : Fin 1) k) (fun a => match a with
    | ⟨0, _⟩ => by show 0 = if (1 : Nat) = 1 then 0 else r.val; rw [if_pos rfl]
    | ⟨1, _⟩ => by show k.val = if (32 : Nat) = 1 then 0 else k.val; rw [if_neg (by decide)])).trans ?_
  exact broadcastInDim_apply _ bcast_S32_S1x32_1 b (ix2 (0 : Fin 1) k) (ix1 k) (fun a => match a with
    | ⟨0, _⟩ => by show k.val = if (32 : Nat) = 1 then 0 else k.val; rw [if_neg (by decide)])

/-- A 64-vector broadcast along the 50000 rows reads the vector at the column. -/
theorem bias64N_apply (b : FVec Ideal S64 .f32) (r : Fin 50000) (q : Fin 64) :
    broadcastInDim S50000x64 ![0, 1] bcast_S1x64_S50000x64_0_1 (broadcastInDim S1x64 ![1] bcast_S64_S1x64_1 b) (ix2 r q) = b (ix1 q) := by
  refine (broadcastInDim_apply _ bcast_S1x64_S50000x64_0_1 _ (ix2 r q) (ix2 (0 : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (0 : Fin 1) q) (ix1 q) (fun a => match a with
    | ⟨0, _⟩ => by show q.val = if (64 : Nat) = 1 then 0 else q.val; rw [if_neg (by decide)])

/-- A scalar constant broadcast to 50000 × 32 reads the value of its word everywhere. -/
theorem splatN_apply (w : BitVec 32) (r : Fin 50000) (k : Fin 32) :
    broadcastInDim S50000x32 ![] bcast_S_S50000x32 (constant (F := Ideal) S_ .f32 w) (ix2 r k) = Ideal.ofBits .f32 w :=
  broadcastInDim_apply _ bcast_S_S50000x32 (constant (F := Ideal) S_ .f32 w) (ix2 r k) ix0 (fun a => a.elim0)

/-- The rectifier as the program spells it on a 50000 × 32 array, at an entry: `Cert.Mlp.leaky` of the entry. -/
theorem leakyN_apply (h : FVec Ideal S50000x32 .f32) (r : Fin 50000) (k : Fin 32) :
    select (cmpf .ogt h (broadcastInDim S50000x32 ![] bcast_S_S50000x32 (constant (F := Ideal) S_ .f32 0x00000000#32))) h
        (mulf (broadcastInDim S50000x32 ![] bcast_S_S50000x32 (constant (F := Ideal) S_ .f32 0x3C23D70A#32)) h) (ix2 r k)
      = Cert.Mlp.leaky (h (ix2 r k)) := by
  rw [select_apply, cmpf_apply, mulf_apply, splatN_apply, splatN_apply]
  rfl

/-- The output layer on 50000 rows at entry `(r, q)`: `tanh` of the affine form of row `r` of the hidden array. -/
theorem outN_apply (l : FVec Ideal S50000x32 .f32) (w2 : FVec Ideal S32x64 .f32) (b2 : FVec Ideal S64 .f32) (r : Fin 50000) (q : Fin 64) :
    Host.tanh (F := Ideal) (addf (Host.dotGeneral (F := Ideal) dot_S50000x32_S32x64_S50000x64_1_0_0_1_n_n none l w2)
        (broadcastInDim S50000x64 ![0, 1] bcast_S1x64_S50000x64_0_1 (broadcastInDim S1x64 ![1] bcast_S64_S1x64_1 b2))) (ix2 r q)
      = Ideal.tanh ((∑ k : Fin 32, l (ix2 r k) * w2 (ix2 k q)) + b2 (ix1 q)) := by
  show Ideal.tanh (Host.dotGeneral (F := Ideal) dot_S50000x32_S32x64_S50000x64_1_0_0_1_n_n none l w2 (ix2 r q)
      + broadcastInDim S50000x64 ![0, 1] bcast_S1x64_S50000x64_0_1 (broadcastInDim S1x64 ![1] bcast_S64_S1x64_1 b2) (ix2 r q)) = _
  rw [dot2N_apply, bias64N_apply]

/-! ## The three perceptrons -/

/-- The first layer's affine form over 21 features at entry `(r, k)`. -/
theorem preA_apply (X : FVec Ideal S1600000x21 .f32) (W1 : FVec Ideal S21x32 .f32) (b1 : FVec Ideal S32 .f32) (r : Fin 1600000) (k : Fin 32) :
    addf (Host.dotGeneral (F := Ideal) dot_S1600000x21_S21x32_S1600000x32_1_0_0_1_n_n none X W1)
        (broadcastInDim S1600000x32 ![0, 1] bcast_S1x32_S1600000x32_0_1 (broadcastInDim S1x32 ![1] bcast_S32_S1x32_1 b1)) (ix2 r k)
      = (∑ i : Fin 21, X (ix2 r i) * W1 (ix2 i k)) + b1 (ix1 k) := by
  rw [addf_apply, dot1A_apply, bias32E_apply]

/-- The host perceptron over 1600000 rows of 21 features (program lines %22 to %35), as one function of its five operands,
    spelt as the program's run spells it. -/
def mlpA (X : FVec Ideal S1600000x21 .f32) (W1 : FVec Ideal S21x32 .f32) (b1 : FVec Ideal S32 .f32)
    (W2 : FVec Ideal S32x64 .f32) (b2 : FVec Ideal S64 .f32) : FVec Ideal S1600000x64 .f32 :=
  Host.tanh (F := Ideal) (addf (Host.dotGeneral (F := Ideal) dot_S1600000x32_S32x64_S1600000x64_1_0_0_1_n_n none (select (cmpf .ogt (addf (Host.dotGeneral (F := Ideal) dot_S1600000x21_S21x32_S1600000x32_1_0_0_1_n_n none X W1) (broadcastInDim S1600000x32 ![0, 1] bcast_S1x32_S1600000x32_0_1 (broadcastInDim S1x32 ![1] bcast_S32_S1x32_1 b1))) (broadcastInDim S1600000x32 ![] bcast_S_S1600000x32 (constant (F := Ideal) S_ .f32 0x00000000#32))) (addf (Host.dotGeneral (F := Ideal) dot_S1600000x21_S21x32_S1600000x32_1_0_0_1_n_n none X W1) (broadcastInDim S1600000x32 ![0, 1] bcast_S1x32_S1600000x32_0_1 (broadcastInDim S1x32 ![1] bcast_S32_S1x32_1 b1))) (mulf (broadcastInDim S1600000x32 ![] bcast_S_S1600000x32 (constant (F := Ideal) S_ .f32 0x3C23D70A#32)) (addf (Host.dotGeneral (F := Ideal) dot_S1600000x21_S21x32_S1600000x32_1_0_0_1_n_n none X W1) (broadcastInDim S1600000x32 ![0, 1] bcast_S1x32_S1600000x32_0_1 (broadcastInDim S1x32 ![1] bcast_S32_S1x32_1 b1))))) W2) (broadcastInDim S1600000x64 ![0, 1] bcast_S1x64_S1600000x64_0_1 (broadcastInDim S1x64 ![1] bcast_S64_S1x64_1 b2)))

/-- Entry `(r, q)` of the host perceptron is `Cert.Mlp.row` of row `r` of its input. -/
theorem mlpA_apply (X : FVec Ideal S1600000x21 .f32) (W1 : FVec Ideal S21x32 .f32) (b1 : FVec Ideal S32 .f32)
    (W2 : FVec Ideal S32x64 .f32) (b2 : FVec Ideal S64 .f32) (r : Fin 1600000) (q : Fin 64) :
    mlpA X W1 b1 W2 b2 (ix2 r q)
      = Cert.Mlp.row (fun i : Fin 21 => X (ix2 r i)) (fun i k => W1 (ix2 i k)) (fun k => b1 (ix1 k))
          (fun k q' => W2 (ix2 k q')) (fun q' => b2 (ix1 q')) q := by
  unfold mlpA
  refine (outE_apply _ W2 b2 r q).trans ?_
  unfold Cert.Mlp.row Cert.Mlp.hidden
  refine congrArg (fun s => Ideal.tanh (s + b2 (ix1 q))) (Finset.sum_congr rfl fun k _ => ?_)
  rw [leakyE_apply, preA_apply]

/-- The first layer's affine form over 69 features at entry `(r, k)`. -/
theorem preB_apply (X : FVec Ideal S1600000x69 .f32) (W1 : FVec Ideal S69x32 .f32) (b1 : FVec Ideal S32 .f32) (r : Fin 1600000) (k : Fin 32) :
    addf (Host.dotGeneral (F := Ideal) dot_S1600000x69_S69x32_S1600000x32_1_0_0_1_n_n none X W1)
        (broadcastInDim S1600000x32 ![0, 1] bcast_S1x32_S1600000x32_0_1 (broadcastInDim S1x32 ![1] bcast_S32_S1x32_1 b1)) (ix2 r k)
      = (∑ i : Fin 69, X (ix2 r i) * W1 (ix2 i k)) + b1 (ix1 k) := by
  rw [addf_apply, dot1B_apply, bias32E_apply]

/-- The host perceptron over 1600000 rows of 69 features (program lines %61 to %74), as one function of its five operands,
    spelt as the program's run spells it. -/
def mlpB (X : FVec Ideal S1600000x69 .f32) (W1 : FVec Ideal S69x32 .f32) (b1 : FVec Ideal S32 .f32)
    (W2 : FVec Ideal S32x64 .f32) (b2 : FVec Ideal S64 .f32) : FVec Ideal S1600000x64 .f32 :=
  Host.tanh (F := Ideal) (addf (Host.dotGeneral (F := Ideal) dot_S1600000x32_S32x64_S1600000x64_1_0_0_1_n_n none (select (cmpf .ogt (addf (Host.dotGeneral (F := Ideal) dot_S1600000x69_S69x32_S1600000x32_1_0_0_1_n_n none X W1) (broadcastInDim S1600000x32 ![0, 1] bcast_S1x32_S1600000x32_0_1 (broadcastInDim S1x32 ![1] bcast_S32_S1x32_1 b1))) (broadcastInDim S1600000x32 ![] bcast_S_S1600000x32 (constant (F := Ideal) S_ .f32 0x00000000#32))) (addf (Host.dotGeneral (F := Ideal) dot_S1600000x69_S69x32_S1600000x32_1_0_0_1_n_n none X W1) (broadcastInDim S1600000x32 ![0, 1] bcast_S1x32_S1600000x32_0_1 (broadcastInDim S1x32 ![1] bcast_S32_S1x32_1 b1))) (mulf (broadcastInDim S1600000x32 ![] bcast_S_S1600000x32 (constant (F := Ideal) S_ .f32 0x3C23D70A#32)) (addf (Host.dotGeneral (F := Ideal) dot_S1600000x69_S69x32_S1600000x32_1_0_0_1_n_n none X W1) (broadcastInDim S1600000x32 ![0, 1] bcast_S1x32_S1600000x32_0_1 (broadcastInDim S1x32 ![1] bcast_S32_S1x32_1 b1))))) W2) (broadcastInDim S1600000x64 ![0, 1] bcast_S1x64_S1600000x64_0_1 (broadcastInDim S1x64 ![1] bcast_S64_S1x64_1 b2)))

/-- Entry `(r, q)` of the host perceptron is `Cert.Mlp.row` of row `r` of its input. -/
theorem mlpB_apply (X : FVec Ideal S1600000x69 .f32) (W1 : FVec Ideal S69x32 .f32) (b1 : FVec Ideal S32 .f32)
    (W2 : FVec Ideal S32x64 .f32) (b2 : FVec Ideal S64 .f32) (r : Fin 1600000) (q : Fin 64) :
    mlpB X W1 b1 W2 b2 (ix2 r q)
      = Cert.Mlp.row (fun i : Fin 69 => X (ix2 r i)) (fun i k => W1 (ix2 i k)) (fun k => b1 (ix1 k))
          (fun k q' => W2 (ix2 k q')) (fun q' => b2 (ix1 q')) q := by
  unfold mlpB
  refine (outE_apply _ W2 b2 r q).trans ?_
  unfold Cert.Mlp.row Cert.Mlp.hidden
  refine congrArg (fun s => Ideal.tanh (s + b2 (ix1 q))) (Finset.sum_congr rfl fun k _ => ?_)
  rw [leakyE_apply, preB_apply]

/-- The first layer's affine form over 194 features at entry `(r, k)`. -/
theorem preC_apply (X : FVec Ideal S50000x194 .f32) (W1 : FVec Ideal S194x32 .f32) (b1 : FVec Ideal S32 .f32) (r : Fin 50000) (k : Fin 32) :
    addf (Host.dotGeneral (F := Ideal) dot_S50000x194_S194x32_S50000x32_1_0_0_1_n_n none X W1)
        (broadcastInDim S50000x32 ![0, 1] bcast_S1x32_S50000x32_0_1 (broadcastInDim S1x32 ![1] bcast_S32_S1x32_1 b1)) (ix2 r k)
      = (∑ i : Fin 194, X (ix2 r i) * W1 (ix2 i k)) + b1 (ix1 k) := by
  rw [addf_apply, dot1C_apply, bias32N_apply]

/-- The host perceptron over 50000 rows of 194 features (program lines %79 to %92), as one function of its five operands,
    spelt as the program's run spells it. -/
def mlpC (X : FVec Ideal S50000x194 .f32) (W1 : FVec Ideal S194x32 .f32) (b1 : FVec Ideal S32 .f32)
    (W2 : FVec Ideal S32x64 .f32) (b2 : FVec Ideal S64 .f32) : FVec Ideal S50000x64 .f32 :=
  Host.tanh (F := Ideal) (addf (Host.dotGeneral (F := Ideal) dot_S50000x32_S32x64_S50000x64_1_0_0_1_n_n none (select (cmpf .ogt (addf (Host.dotGeneral (F := Ideal) dot_S50000x194_S194x32_S50000x32_1_0_0_1_n_n none X W1) (broadcastInDim S50000x32 ![0, 1] bcast_S1x32_S50000x32_0_1 (broadcastInDim S1x32 ![1] bcast_S32_S1x32_1 b1))) (broadcastInDim S50000x32 ![] bcast_S_S50000x32 (constant (F := Ideal) S_ .f32 0x00000000#32))) (addf (Host.dotGeneral (F := Ideal) dot_S50000x194_S194x32_S50000x32_1_0_0_1_n_n none X W1) (broadcastInDim S50000x32 ![0, 1] bcast_S1x32_S50000x32_0_1 (broadcastInDim S1x32 ![1] bcast_S32_S1x32_1 b1))) (mulf (broadcastInDim S50000x32 ![] bcast_S_S50000x32 (constant (F := Ideal) S_ .f32 0x3C23D70A#32)) (addf (Host.dotGeneral (F := Ideal) dot_S50000x194_S194x32_S50000x32_1_0_0_1_n_n none X W1) (broadcastInDim S50000x32 ![0, 1] bcast_S1x32_S50000x32_0_1 (broadcastInDim S1x32 ![1] bcast_S32_S1x32_1 b1))))) W2) (broadcastInDim S50000x64 ![0, 1] bcast_S1x64_S50000x64_0_1 (broadcastInDim S1x64 ![1] bcast_S64_S1x64_1 b2)))

/-- Entry `(r, q)` of the host perceptron is `Cert.Mlp.row` of row `r` of its input. -/
theorem mlpC_apply (X : FVec Ideal S50000x194 .f32) (W1 : FVec Ideal S194x32 .f32) (b1 : FVec Ideal S32 .f32)
    (W2 : FVec Ideal S32x64 .f32) (b2 : FVec Ideal S64 .f32) (r : Fin 50000) (q : Fin 64) :
    mlpC X W1 b1 W2 b2 (ix2 r q)
      = Cert.Mlp.row (fun i : Fin 194 => X (ix2 r i)) (fun i k => W1 (ix2 i k)) (fun k => b1 (ix1 k))
          (fun k q' => W2 (ix2 k q')) (fun q' => b2 (ix1 q')) q := by
  unfold mlpC
  refine (outN_apply _ W2 b2 r q).trans ?_
  unfold Cert.Mlp.row Cert.Mlp.hidden
  refine congrArg (fun s => Ideal.tanh (s + b2 (ix1 q))) (Finset.sum_congr rfl fun k _ => ?_)
  rw [leakyN_apply, preC_apply]

end Cert.RefMlp

end
-- ==== Proof.RefInp.lean ====
/-
  The inputs of the reference's first two perceptrons, and the reference's result as one term.

  `inpA` and `inpB` are the arrays the first and the second perceptron read: per row, gathered coordinate pairs, one
  given feature and gathered features, side by side. `refResult` is the third perceptron applied to the concatenation
  of two given arrays and the scatter-added outputs of the first two perceptrons.
-/
import proofs.«102410_j3917010174735_1_alg».proof.Proof.RefMlp

noncomputable section

namespace Cert.RefMlp

open Cert.ReferenceIdeal Cert.ReferenceIdeal.Gen Idealize.ShloMosaic Idealize.ShloMosaic.TcCoe Idealize.SL.Sem Idealize.ShloMosaic.StableHlo

/-- The first perceptron's input: per row, two gathered coordinate pairs, one given feature and sixteen gathered
    features, side by side (program lines %0 to %21). -/
def inpA (m : (ℓ : Loc nD τ sig) → Buf (Elt Ideal) ℓ) (c : Dev nD) : FVec Ideal S1600000x21 .f32 :=
  concatenate S1600000x21 1 [⟨S1600000x2, (Host.gather gather_S50000x2_S1600000x1_S1600000x2_1_0_n_n_0_1_12 (m ((c.tc : Thread nD τ).loc main_arg3)) (broadcastInDim S1600000x1 ![0] bcast_S1600000_S1600000x1_0 (select (cmpi .slt (m ((c.tc : Thread nD τ).loc main_arg6)) (broadcastInDim S1600000 ![] bcast_S_S1600000 (constantI S_ 32 0#32))) (addi (m ((c.tc : Thread nD τ).loc main_arg6)) (broadcastInDim S1600000 ![] bcast_S_S1600000 (constantI S_ 32 50000#32))) (m ((c.tc : Thread nD τ).loc main_arg6)))))⟩, ⟨S1600000x2, (Host.gather gather_S50000x2_S1600000x1_S1600000x2_1_0_n_n_0_1_12 (m ((c.tc : Thread nD τ).loc main_arg2)) (broadcastInDim S1600000x1 ![0] bcast_S1600000_S1600000x1_0 (select (cmpi .slt (m ((c.tc : Thread nD τ).loc main_arg7)) (broadcastInDim S1600000 ![] bcast_S_S1600000 (constantI S_ 32 0#32))) (addi (m ((c.tc : Thread nD τ).loc main_arg7)) (broadcastInDim S1600000 ![] bcast_S_S1600000 (constantI S_ 32 50000#32))) (m ((c.tc : Thread nD τ).loc main_arg7)))))⟩, ⟨S1600000x1, (m ((c.tc : Thread nD τ).loc main_arg4))⟩, ⟨S1600000x16, (Host.gather gather_S50000x16_S1600000x1_S1600000x16_1_0_n_n_0_1_116 (m ((c.tc : Thread nD τ).loc main_arg1)) (broadcastInDim S1600000x1 ![0] bcast_S1600000_S1600000x1_0 (select (cmpi .slt (m ((c.tc : Thread nD τ).loc main_arg6)) (broadcastInDim S1600000 ![] bcast_S_S1600000 (constantI S_ 32 0#32))) (addi (m ((c.tc : Thread nD τ).loc main_arg6)) (broadcastInDim S1600000 ![] bcast_S_S1600000 (constantI S_ 32 50000#32))) (m ((c.tc : Thread nD τ).loc main_arg6)))))⟩] concatenates_S1600000x2_S1600000x2_S1600000x1_S1600000x16_S1600000x21_d1

/-- The second perceptron's input: per row, two gathered coordinate pairs, one given feature and sixty-four gathered
    features, side by side (program lines %39 to %60). -/
def inpB (m : (ℓ : Loc nD τ sig) → Buf (Elt Ideal) ℓ) (c : Dev nD) : FVec Ideal S1600000x69 .f32 :=
  concatenate S1600000x69 1 [⟨S1600000x2, (Host.gather gather_S50000x2_S1600000x1_S1600000x2_1_0_n_n_0_1_12 (m ((c.tc : Thread nD τ).loc main_arg2)) (broadcastInDim S1600000x1 ![0] bcast_S1600000_S1600000x1_0 (select (cmpi .slt (m ((c.tc : Thread nD τ).loc main_arg8)) (broadcastInDim S1600000 ![] bcast_S_S1600000 (constantI S_ 32 0#32))) (addi (m ((c.tc : Thread nD τ).loc main_arg8)) (broadcastInDim S1600000 ![] bcast_S_S1600000 (constantI S_ 32 50000#32))) (m ((c.tc : Thread nD τ).loc main_arg8)))))⟩, ⟨S1600000x2, (Host.gather gather_S50000x2_S1600000x1_S1600000x2_1_0_n_n_0_1_12 (m ((c.tc : Thread nD τ).loc main_arg2)) (broadcastInDim S1600000x1 ![0] bcast_S1600000_S1600000x1_0 (select (cmpi .slt (m ((c.tc : Thread nD τ).loc main_arg9)) (broadcastInDim S1600000 ![] bcast_S_S1600000 (constantI S_ 32 0#32))) (addi (m ((c.tc : Thread nD τ).loc main_arg9)) (broadcastInDim S1600000 ![] bcast_S_S1600000 (constantI S_ 32 50000#32))) (m ((c.tc : Thread nD τ).loc main_arg9)))))⟩, ⟨S1600000x1, (m ((c.tc : Thread nD τ).loc main_arg5))⟩, ⟨S1600000x64, (Host.gather gather_S50000x64_S1600000x1_S1600000x64_1_0_n_n_0_1_164 (m ((c.tc : Thread nD τ).loc main_arg0)) (broadcastInDim S1600000x1 ![0] bcast_S1600000_S1600000x1_0 (select (cmpi .slt (m ((c.tc : Thread nD τ).loc main_arg8)) (broadcastInDim S1600000 ![] bcast_S_S1600000 (constantI S_ 32 0#32))) (addi (m ((c.tc : Thread nD τ).loc main_arg8)) (broadcastInDim S1600000 ![] bcast_S_S1600000 (constantI S_ 32 50000#32))) (m ((c.tc : Thread nD τ).loc main_arg8)))))⟩] concatenates_S1600000x2_S1600000x2_S1600000x1_S1600000x64_S1600000x69_d1

/-- The program's result: the third perceptron applied to the concatenation of two given arrays and the two
    scatter-added outputs of the first and second perceptrons. -/
def refResult (m : (ℓ : Loc nD τ sig) → Buf (Elt Ideal) ℓ) (c : Dev nD) : FVec Ideal S50000x64 .f32 :=
  mlpC (concatenate S50000x194 1 [⟨S50000x2, (m ((c.tc : Thread nD τ).loc main_arg2))⟩, ⟨S50000x64, (m ((c.tc : Thread nD τ).loc main_arg0))⟩, ⟨S50000x64, (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (m ((c.tc : Thread nD τ).loc main_arg7))) (mlpA (inpA m c) (m ((c.tc : Thread nD τ).loc main_arg10)) (m ((c.tc : Thread nD τ).loc main_arg11)) (m ((c.tc : Thread nD τ).loc main_arg12)) (m ((c.tc : Thread nD τ).loc main_arg13))))⟩, ⟨S50000x64, (Host.scatterAdd scatter_S50000x64_S1600000x1_S1600000x64_1_0_0_1 (broadcastInDim S50000x64 ![] bcast_S_S50000x64 (constant S_ .f32 0x00000000#32)) (broadcastInDim S1600000x1 ![0] bcast_S1600000_S1600000x1_0 (m ((c.tc : Thread nD τ).loc main_arg9))) (mlpB (inpB m c) (m ((c.tc : Thread nD τ).loc main_arg14)) (m ((c.tc : Thread nD τ).loc main_arg15)) (m ((c.tc : Thread nD τ).loc main_arg16)) (m ((c.tc : Thread nD τ).loc main_arg17))))⟩] concatenates_S50000x2_S50000x64_S50000x64_S50000x64_S50000x194_d1) (m ((c.tc : Thread nD τ).loc main_arg18)) (m ((c.tc : Thread nD τ).loc main_arg19)) (m ((c.tc : Thread nD τ).loc main_arg20)) (m ((c.tc : Thread nD τ).loc main_arg21))

end Cert.RefMlp

end
-- ==== Proof.BridgeRows.lean ====
/-
  The kernel's row-wise perceptron and the reference's host perceptron are one function.

  On each of the three shapes, the array whose entry `(r, q)` is `Cert.Mlp.row` of row `r` at column `q` (what a
  kernel region leaves) and the host's `tanh (leaky (X · W1 + b1) · W2 + b2)` (what the reference computes) agree at
  every index: both read there as the same row formula.
-/
import proofs.«102410_j3917010174735_1_alg».proof.Proof.KVal0
import proofs.«102410_j3917010174735_1_alg».proof.Proof.KVal1
import proofs.«102410_j3917010174735_1_alg».proof.Proof.KVal2
import proofs.«102410_j3917010174735_1_alg».proof.Proof.RefMlp

noncomputable section

namespace Cert.Bridge

open Idealize.ShloMosaic Idealize.ShloMosaic.ValueIdx

theorem rows0_eq (X : Cert.KernelIdeal.S1600000x21.Idx → Elt Ideal .f32) (W1 : Cert.KernelIdeal.S21x32.Idx → Elt Ideal .f32)
    (b1 : Cert.KernelIdeal.S32.Idx → Elt Ideal .f32) (W2 : Cert.KernelIdeal.S32x64.Idx → Elt Ideal .f32) (b2 : Cert.KernelIdeal.S64.Idx → Elt Ideal .f32) :
    Cert.KernelIdeal.Hand.mlpRows0 X W1 b1 W2 b2 = Cert.RefMlp.mlpA X W1 b1 W2 b2 := by
  funext j
  obtain ⟨r, q, rfl⟩ : ∃ (r : Fin 1600000) (q : Fin 64), j = ix2 r q := ⟨j 0, j 1, eq_ix2 j⟩
  exact (Cert.RefMlp.mlpA_apply X W1 b1 W2 b2 r q).symm

theorem rows1_eq (X : Cert.KernelIdeal.S1600000x69.Idx → Elt Ideal .f32) (W1 : Cert.KernelIdeal.S69x32.Idx → Elt Ideal .f32)
    (b1 : Cert.KernelIdeal.S32.Idx → Elt Ideal .f32) (W2 : Cert.KernelIdeal.S32x64.Idx → Elt Ideal .f32) (b2 : Cert.KernelIdeal.S64.Idx → Elt Ideal .f32) :
    Cert.KernelIdeal.Hand.mlpRows1 X W1 b1 W2 b2 = Cert.RefMlp.mlpB X W1 b1 W2 b2 := by
  funext j
  obtain ⟨r, q, rfl⟩ : ∃ (r : Fin 1600000) (q : Fin 64), j = ix2 r q := ⟨j 0, j 1, eq_ix2 j⟩
  exact (Cert.RefMlp.mlpB_apply X W1 b1 W2 b2 r q).symm

theorem rows2_eq (X : Cert.KernelIdeal.S50000x194.Idx → Elt Ideal .f32) (W1 : Cert.KernelIdeal.S194x32.Idx → Elt Ideal .f32)
    (b1 : Cert.KernelIdeal.S32.Idx → Elt Ideal .f32) (W2 : Cert.KernelIdeal.S32x64.Idx → Elt Ideal .f32) (b2 : Cert.KernelIdeal.S64.Idx → Elt Ideal .f32) :
    Cert.KernelIdeal.Hand.mlpRows2 X W1 b1 W2 b2 = Cert.RefMlp.mlpC X W1 b1 W2 b2 := by
  funext j
  obtain ⟨r, q, rfl⟩ : ∃ (r : Fin 50000) (q : Fin 64), j = ix2 r q := ⟨j 0, j 1, eq_ix2 j⟩
  exact (Cert.RefMlp.mlpC_apply X W1 b1 W2 b2 r q).symm

end Cert.Bridge

end
-- ==== Proof.Bridge.lean ====
/-
  The two programs' results are one function of the arguments.

  Both programs gather, concatenate and scatter-add with the same host operations; they differ only in how the three
  perceptrons are computed, and those agree (`BridgeRows`). So from memories that agree on the twenty-two arguments
  the reference's result term and the kernel's are equal: the feature matrices agree piece by piece, hence the
  message arrays, hence the node features, hence the results.
-/
import proofs.«102410_j3917010174735_1_alg».proof.Proof.KFinal
import proofs.«102410_j3917010174735_1_alg».proof.Proof.RefInp
import proofs.«102410_j3917010174735_1_alg».proof.Proof.BridgeRows
import proofs.«102410_j3917010174735_1_alg».proof.Proof.LibConcCongr

set_option maxRecDepth 16384

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The first feature matrices agree. -/
theorem inpA_eq (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))) (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))) (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.RefMlp.inpA m' c = Cert.KernelIdeal.Hand.feat0 m c := by
  unfold Cert.RefMlp.inpA Cert.KernelIdeal.Hand.feat0
  refine Cert.LibConcCongr.conc4_congr _ _ _ _ _ _ _ _ _ _ _ _ _ _ _ ?_ ?_ ?_ ?_
  · rw [h3, h6]; rfl
  · rw [h2, h7]; rfl
  · exact h4
  · rw [h1, h6]; rfl

/-- The second feature matrices agree. -/
theorem inpB_eq (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))) :
    Cert.RefMlp.inpB m' c = Cert.KernelIdeal.Hand.feat1 m c := by
  unfold Cert.RefMlp.inpB Cert.KernelIdeal.Hand.feat1
  refine Cert.LibConcCongr.conc4_congr _ _ _ _ _ _ _ _ _ _ _ _ _ _ _ ?_ ?_ ?_ ?_
  · rw [h2, h8]; rfl
  · rw [h2, h9]; rfl
  · exact h5
  · rw [h0, h8]; rfl

/-- THE BRIDGE: from memories agreeing on the arguments, the reference's result is the kernel's. -/
theorem result_eq
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (h9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (h10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10)))
    (h11 : (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11)))
    (h12 : (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12)))
    (h13 : (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13)))
    (h14 : (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14)))
    (h15 : (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15)))
    (h16 : (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16)))
    (h17 : (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17)))
    (h18 : (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18)))
    (h19 : (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19)))
    (h20 : (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20)))
    (h21 : (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))) :
    Cert.RefMlp.refResult m' c = Cert.KernelIdeal.Hand.result m c := by
  unfold Cert.RefMlp.refResult Cert.KernelIdeal.Hand.result
  rw [rows2_eq, h18, h19, h20, h21]
  refine congrArg (fun X => Cert.RefMlp.mlpC X _ _ _ _) ?_
  unfold Cert.KernelIdeal.Hand.feat2
  refine Cert.LibConcCongr.conc4_congr _ _ _ _ _ _ _ _ _ _ _ _ _ _ _ ?_ ?_ ?_ ?_
  · exact h2
  · exact h0
  · unfold Cert.KernelIdeal.Hand.sumU
    rw [rows0_eq, inpA_eq m m' c h1 h2 h3 h4 h6 h7, h7, h10, h11, h12, h13]; rfl
  · unfold Cert.KernelIdeal.Hand.sumH
    rw [rows1_eq, inpB_eq m m' c h0 h2 h5 h8 h9, h9, h14, h15, h16, h17]; rfl

end Cert.Bridge

end
-- ==== Proof.LibAfterAppend.lean ====
/-
  A straight line of host operations, evaluated in pieces.

  The buffer contents after a line of host operations are a fold of the operations' results over the incoming contents.
  The fold over a concatenation is the fold over the second list of the fold over the first, so a long line can be cut
  into consecutive pieces and each piece evaluated from ARBITRARY incoming contents `W` — a short evaluation with small
  terms — and the pieces composed by rewriting. Library-only; any element values, any reference signature.
-/
import Idealize.ShloMosaic.Lib.StableHlo.Run

noncomputable section

namespace Cert.LibAfterAppend

open Idealize.ShloMosaic Idealize.ShloMosaic.StableHlo

variable {τ : Topo} {sig : RefSig} {Val : EltTy → Type}

/-- The contents after two lines run one after the other are the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Five consecutive pieces. -/
theorem after_append5 (a b c d e : List (HloOp τ sig Val)) (V : Valuation τ sig Val) :
    after (a ++ (b ++ (c ++ (d ++ e)))) V = after e (after d (after c (after b (after a V)))) := by
  rw [after_append, after_append, after_append, after_append]

end Cert.LibAfterAppend

end
-- ==== Proof.RefRunOps.lean ====
/-
  The reference program's @main as a straight line of 113 host operations, cut into six consecutive pieces.

  `ops` is the whole line, `opsA` … `opsF` the pieces: the buffer contents after the line are the contents after
  `opsF` from the contents after `opsE` … from the contents after `opsA` (`after_ops`), so each piece can be
  evaluated by itself from arbitrary incoming contents.
-/
import proofs.«102410_j3917010174735_1_alg».proof.Proof.Gen.ReferenceIdeal
import proofs.«102410_j3917010174735_1_alg».proof.Proof.LibAfterAppend
import Idealize.ShloMosaic.Lib.StableHlo.Run

noncomputable section

namespace Cert.RefMlp

open Cert.ReferenceIdeal Cert.ReferenceIdeal.Gen Idealize.ShloMosaic Idealize.ShloMosaic.TcCoe Idealize.SL.Sem Idealize.ShloMosaic.StableHlo

variable {F : FTy → Type} [FloatOps F]

/-- Program lines `%c` to `%21`: three index normalisations with their gathers, and the concatenation that is the first perceptron's input. -/
def opsA : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg6 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v2 (broadcastInDim S1600000 ![] bcast_S_S1600000 : (⟨S_, .i32⟩ : BufTy).Contents (Elt F) → (⟨S1600000, .i32⟩ : BufTy).Contents (Elt F)),
    binary main_arg6 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg6 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg3 main_v5 main_v6 ((fun x i => Host.gather gather_S50000x2_S1600000x1_S1600000x2_1_0_n_n_0_1_12 x i) : (⟨S50000x2, .f32⟩ : BufTy).Contents (Elt F) → (⟨S1600000x1, .i32⟩ : BufTy).Contents (Elt F) → (⟨S1600000x2, .f32⟩ : BufTy).Contents (Elt F)),
    nullary main_c_1 (constantI S_ 32 0#32),
    unary main_c_1 main_v7 (broadcastInDim S1600000 ![] bcast_S_S1600000 : (⟨S_, .i32⟩ : BufTy).Contents (Elt F) → (⟨S1600000, .i32⟩ : BufTy).Contents (Elt F)),
    binary main_arg7 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v9 (broadcastInDim S1600000 ![] bcast_S_S1600000 : (⟨S_, .i32⟩ : BufTy).Contents (Elt F) → (⟨S1600000, .i32⟩ : BufTy).Contents (Elt F)),
    binary main_arg7 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_arg7 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_arg2 main_v12 main_v13 ((fun x i => Host.gather gather_S50000x2_S1600000x1_S1600000x2_1_0_n_n_0_1_12 x i) : (⟨S50000x2, .f32⟩ : BufTy).Contents (Elt F) → (⟨S1600000x1, .i32⟩ : BufTy).Contents (Elt F) → (⟨S1600000x2, .f32⟩ : BufTy).Contents (Elt F)),
    nullary main_c_3 (constantI S_ 32 0#32),
    unary main_c_3 main_v14 (broadcastInDim S1600000 ![] bcast_S_S1600000 : (⟨S_, .i32⟩ : BufTy).Contents (Elt F) → (⟨S1600000, .i32⟩ : BufTy).Contents (Elt F)),
    binary main_arg6 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 50000#32),
    unary main_c_4 main_v16 (broadcastInDim S1600000 ![] bcast_S_S1600000 : (⟨S_, .i32⟩ : BufTy).Contents (Elt F) → (⟨S1600000, .i32⟩ : BufTy).Contents (Elt F)),
    binary main_arg6 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_arg6 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_arg1 main_v19 main_v20 ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F)),
    nary ![main_v6, main_v13, main_arg4, main_v20] main_v21 (fun u => concatenate S1600000x21 1 [⟨S1600000x2, u 0⟩, ⟨S1600000x2, u 1⟩, ⟨S1600000x1, u 2⟩, ⟨S1600000x16, u 3⟩] concatenates_S1600000x2_S1600000x2_S1600000x1_S1600000x16_S1600000x21_d1) ]

/-- Program lines `%22` to `%35`: the first perceptron. -/
def opsB : List (HloOp τ sig (Elt F)) :=
  [ binary main_v21 main_arg10 main_v22 ((fun l r => Host.dotGeneral dot_S1600000x21_S21x32_S1600000x32_1_0_0_1_n_n none l r) : (⟨S1600000x21, .f32⟩ : BufTy).Contents (Elt F) → (⟨S21x32, .f32⟩ : BufTy).Contents (Elt F) → (⟨S1600000x32, .f32⟩ : BufTy).Contents (Elt F)),
    unary main_arg11 main_v23 (broadcastInDim S1x32 ![1] bcast_S32_S1x32_1 : (⟨S32, .f32⟩ : BufTy).Contents (Elt F) → (⟨S1x32, .f32⟩ : BufTy).Contents (Elt F)),
    unary main_v23 main_v24 (broadcastInDim S1600000x32 ![0, 1] bcast_S1x32_S1600000x32_0_1 : (⟨S1x32, .f32⟩ : BufTy).Contents (Elt F) → (⟨S1600000x32, .f32⟩ : BufTy).Contents (Elt F)),
    binary main_v22 main_v24 main_v25 (addf : (⟨S1600000x32, .f32⟩ : BufTy).Contents (Elt F) → (⟨S1600000x32, .f32⟩ : BufTy).Contents (Elt F) → (⟨S1600000x32, .f32⟩ : BufTy).Contents (Elt F)),
    nullary main_cst (constant S_ .f32 0x00000000#32),
    unary main_cst main_v26 (broadcastInDim S1600000x32 ![] bcast_S_S1600000x32 : (⟨S_, .f32⟩ : BufTy).Contents (Elt F) → (⟨S1600000x32, .f32⟩ : BufTy).Contents (Elt F)),
    binary main_v25 main_v26 main_v27 (cmpf .ogt : (⟨S1600000x32, .f32⟩ : BufTy).Contents (Elt F) → (⟨S1600000x32, .f32⟩ : BufTy).Contents (Elt F) → (⟨S1600000x32, .i1⟩ : BufTy).Contents (Elt F)),
    nullary main_cst_5 (constant S_ .f32 0x3C23D70A#32),
    unary main_cst_5 main_v28 (broadcastInDim S1600000x32 ![] bcast_S_S1600000x32 : (⟨S_, .f32⟩ : BufTy).Contents (Elt F) → (⟨S1600000x32, .f32⟩ : BufTy).Contents (Elt F)),
    binary main_v28 main_v25 main_v29 (mulf : (⟨S1600000x32, .f32⟩ : BufTy).Contents (Elt F) → (⟨S1600000x32, .f32⟩ : BufTy).Contents (Elt F) → (⟨S1600000x32, .f32⟩ : BufTy).Contents (Elt F)),
    TRef.ternary (TRef.of (T := ⟨S1600000x32, .i1⟩) main_v27) (TRef.of (T := ⟨S1600000x32, .f32⟩) main_v25) (TRef.of (T := ⟨S1600000x32, .f32⟩) main_v29) (TRef.of (T := ⟨S1600000x32, .f32⟩) main_v30) select,
    binary main_v30 main_arg12 main_v31 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    unary main_arg13 main_v32 (broadcastInDim S1x64 ![1] bcast_S64_S1x64_1 : (⟨S64, .f32⟩ : BufTy).Contents (Elt F) → (⟨S1x64, .f32⟩ : BufTy).Contents (Elt F)),
    unary main_v32 main_v33 (broadcastInDim S1600000x64 ![0, 1] bcast_S1x64_S1600000x64_0_1 : (⟨S1x64, .f32⟩ : BufTy).Contents (Elt F) → (⟨S1600000x64, .f32⟩ : BufTy).Contents (Elt F)),
    binary main_v31 main_v33 main_v34 (addf : (⟨S1600000x64, .f32⟩ : BufTy).Contents (Elt F) → (⟨S1600000x64, .f32⟩ : BufTy).Contents (Elt F) → (⟨S1600000x64, .f32⟩ : BufTy).Contents (Elt F)),
    unary main_v34 main_v35 (Host.tanh : (⟨S1600000x64, .f32⟩ : BufTy).Contents (Elt F) → (⟨S1600000x64, .f32⟩ : BufTy).Contents (Elt F)) ]

/-- Program lines `%cst_6` to `%60`: the first scatter-add, three index normalisations with their gathers, and the concatenation that is the second perceptron's input. -/
def opsC : List (HloOp τ sig (Elt F)) :=
  [ nullary main_cst_6 (constant S_ .f32 0x00000000#32),
    unary main_cst_6 main_v36 (broadcastInDim S50000x64 ![] bcast_S_S50000x64 : (⟨S_, .f32⟩ : BufTy).Contents (Elt F) → (⟨S50000x64, .f32⟩ : BufTy).Contents (Elt F)),
    unary main_arg7 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    nullary main_c_7 (constantI S_ 32 0#32),
    unary main_c_7 main_v39 (broadcastInDim S1600000 ![] bcast_S_S1600000 : (⟨S_, .i32⟩ : BufTy).Contents (Elt F) → (⟨S1600000, .i32⟩ : BufTy).Contents (Elt F)),
    binary main_arg8 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v41 (broadcastInDim S1600000 ![] bcast_S_S1600000 : (⟨S_, .i32⟩ : BufTy).Contents (Elt F) → (⟨S1600000, .i32⟩ : BufTy).Contents (Elt F)),
    binary main_arg8 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_arg8 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_arg2 main_v44 main_v45 ((fun x i => Host.gather gather_S50000x2_S1600000x1_S1600000x2_1_0_n_n_0_1_12 x i) : (⟨S50000x2, .f32⟩ : BufTy).Contents (Elt F) → (⟨S1600000x1, .i32⟩ : BufTy).Contents (Elt F) → (⟨S1600000x2, .f32⟩ : BufTy).Contents (Elt F)),
    nullary main_c_9 (constantI S_ 32 0#32),
    unary main_c_9 main_v46 (broadcastInDim S1600000 ![] bcast_S_S1600000 : (⟨S_, .i32⟩ : BufTy).Contents (Elt F) → (⟨S1600000, .i32⟩ : BufTy).Contents (Elt F)),
    binary main_arg9 main_v46 main_v47 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 50000#32),
    unary main_c_10 main_v48 (broadcastInDim S1600000 ![] bcast_S_S1600000 : (⟨S_, .i32⟩ : BufTy).Contents (Elt F) → (⟨S1600000, .i32⟩ : BufTy).Contents (Elt F)),
    binary main_arg9 main_v48 main_v49 (addi : (⟨S1600000, .i32⟩ : BufTy).Contents (Elt F) → (⟨S1600000, .i32⟩ : BufTy).Contents (Elt F) → (⟨S1600000, .i32⟩ : BufTy).Contents (Elt F)),
    ternary main_v47 main_v49 main_arg9 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v50 main_v51 (broadcastInDim S1600000x1 ![0] bcast_S1600000_S1600000x1_0 : (⟨S1600000, .i32⟩ : BufTy).Contents (Elt F) → (⟨S1600000x1, .i32⟩ : BufTy).Contents (Elt F)),
    binary main_arg2 main_v51 main_v52 ((fun x i => Host.gather gather_S50000x2_S1600000x1_S1600000x2_1_0_n_n_0_1_12 x i) : (⟨S50000x2, .f32⟩ : BufTy).Contents (Elt F) → (⟨S1600000x1, .i32⟩ : BufTy).Contents (Elt F) → (⟨S1600000x2, .f32⟩ : BufTy).Contents (Elt F)),
    nullary main_c_11 (constantI S_ 32 0#32),
    unary main_c_11 main_v53 (broadcastInDim S1600000 ![] bcast_S_S1600000 : (⟨S_, .i32⟩ : BufTy).Contents (Elt F) → (⟨S1600000, .i32⟩ : BufTy).Contents (Elt F)),
    binary main_arg8 main_v53 main_v54 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 50000#32),
    unary main_c_12 main_v55 (broadcastInDim S1600000 ![] bcast_S_S1600000 : (⟨S_, .i32⟩ : BufTy).Contents (Elt F) → (⟨S1600000, .i32⟩ : BufTy).Contents (Elt F)),
    binary main_arg8 main_v55 main_v56 (addi : (⟨S1600000, .i32⟩ : BufTy).Contents (Elt F) → (⟨S1600000, .i32⟩ : BufTy).Contents (Elt F) → (⟨S1600000, .i32⟩ : BufTy).Contents (Elt F)),
    ternary main_v54 main_v56 main_arg8 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v57 main_v58 (broadcastInDim S1600000x1 ![0] bcast_S1600000_S1600000x1_0 : (⟨S1600000, .i32⟩ : BufTy).Contents (Elt F) → (⟨S1600000x1, .i32⟩ : BufTy).Contents (Elt F)),
    binary main_arg0 main_v58 main_v59 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nary ![main_v45, main_v52, main_arg5, main_v59] main_v60 (fun u => concatenate S1600000x69 1 [⟨S1600000x2, u 0⟩, ⟨S1600000x2, u 1⟩, ⟨S1600000x1, u 2⟩, ⟨S1600000x64, u 3⟩] concatenates_S1600000x2_S1600000x2_S1600000x1_S1600000x64_S1600000x69_d1) ]

/-- Program lines `%61` to `%74`: the second perceptron. -/
def opsD : List (HloOp τ sig (Elt F)) :=
  [ binary main_v60 main_arg14 main_v61 ((fun l r => Host.dotGeneral dot_S1600000x69_S69x32_S1600000x32_1_0_0_1_n_n none l r) : (⟨S1600000x69, .f32⟩ : BufTy).Contents (Elt F) → (⟨S69x32, .f32⟩ : BufTy).Contents (Elt F) → (⟨S1600000x32, .f32⟩ : BufTy).Contents (Elt F)),
    unary main_arg15 main_v62 (broadcastInDim S1x32 ![1] bcast_S32_S1x32_1 : (⟨S32, .f32⟩ : BufTy).Contents (Elt F) → (⟨S1x32, .f32⟩ : BufTy).Contents (Elt F)),
    unary main_v62 main_v63 (broadcastInDim S1600000x32 ![0, 1] bcast_S1x32_S1600000x32_0_1 : (⟨S1x32, .f32⟩ : BufTy).Contents (Elt F) → (⟨S1600000x32, .f32⟩ : BufTy).Contents (Elt F)),
    binary main_v61 main_v63 main_v64 (addf : (⟨S1600000x32, .f32⟩ : BufTy).Contents (Elt F) → (⟨S1600000x32, .f32⟩ : BufTy).Contents (Elt F) → (⟨S1600000x32, .f32⟩ : BufTy).Contents (Elt F)),
    nullary main_cst_13 (constant S_ .f32 0x00000000#32),
    unary main_cst_13 main_v65 (broadcastInDim S1600000x32 ![] bcast_S_S1600000x32 : (⟨S_, .f32⟩ : BufTy).Contents (Elt F) → (⟨S1600000x32, .f32⟩ : BufTy).Contents (Elt F)),
    binary main_v64 main_v65 main_v66 (cmpf .ogt : (⟨S1600000x32, .f32⟩ : BufTy).Contents (Elt F) → (⟨S1600000x32, .f32⟩ : BufTy).Contents (Elt F) → (⟨S1600000x32, .i1⟩ : BufTy).Contents (Elt F)),
    nullary main_cst_14 (constant S_ .f32 0x3C23D70A#32),
    unary main_cst_14 main_v67 (broadcastInDim S1600000x32 ![] bcast_S_S1600000x32 : (⟨S_, .f32⟩ : BufTy).Contents (Elt F) → (⟨S1600000x32, .f32⟩ : BufTy).Contents (Elt F)),
    binary main_v67 main_v64 main_v68 (mulf : (⟨S1600000x32, .f32⟩ : BufTy).Contents (Elt F) → (⟨S1600000x32, .f32⟩ : BufTy).Contents (Elt F) → (⟨S1600000x32, .f32⟩ : BufTy).Contents (Elt F)),
    TRef.ternary (TRef.of (T := ⟨S1600000x32, .i1⟩) main_v66) (TRef.of (T := ⟨S1600000x32, .f32⟩) main_v64) (TRef.of (T := ⟨S1600000x32, .f32⟩) main_v68) (TRef.of (T := ⟨S1600000x32, .f32⟩) main_v69) select,
    binary main_v69 main_arg16 main_v70 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    unary main_arg17 main_v71 (broadcastInDim S1x64 ![1] bcast_S64_S1x64_1 : (⟨S64, .f32⟩ : BufTy).Contents (Elt F) → (⟨S1x64, .f32⟩ : BufTy).Contents (Elt F)),
    unary main_v71 main_v72 (broadcastInDim S1600000x64 ![0, 1] bcast_S1x64_S1600000x64_0_1 : (⟨S1x64, .f32⟩ : BufTy).Contents (Elt F) → (⟨S1600000x64, .f32⟩ : BufTy).Contents (Elt F)),
    binary main_v70 main_v72 main_v73 (addf : (⟨S1600000x64, .f32⟩ : BufTy).Contents (Elt F) → (⟨S1600000x64, .f32⟩ : BufTy).Contents (Elt F) → (⟨S1600000x64, .f32⟩ : BufTy).Contents (Elt F)),
    unary main_v73 main_v74 (Host.tanh : (⟨S1600000x64, .f32⟩ : BufTy).Contents (Elt F) → (⟨S1600000x64, .f32⟩ : BufTy).Contents (Elt F)) ]

/-- Program lines `%cst_15` to `%78`: the second scatter-add and the concatenation that is the third perceptron's input. -/
def opsE : List (HloOp τ sig (Elt F)) :=
  [ nullary main_cst_15 (constant S_ .f32 0x00000000#32),
    unary main_cst_15 main_v75 (broadcastInDim S50000x64 ![] bcast_S_S50000x64 : (⟨S_, .f32⟩ : BufTy).Contents (Elt F) → (⟨S50000x64, .f32⟩ : BufTy).Contents (Elt F)),
    unary main_arg9 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    nary ![main_arg2, main_arg0, main_v38, main_v77] main_v78 (fun u => concatenate S50000x194 1 [⟨S50000x2, u 0⟩, ⟨S50000x64, u 1⟩, ⟨S50000x64, u 2⟩, ⟨S50000x64, u 3⟩] concatenates_S50000x2_S50000x64_S50000x64_S50000x64_S50000x194_d1) ]

/-- Program lines `%79` to `%92`: the third perceptron. -/
def opsF : List (HloOp τ sig (Elt F)) :=
  [ binary main_v78 main_arg18 main_v79 ((fun l r => Host.dotGeneral dot_S50000x194_S194x32_S50000x32_1_0_0_1_n_n none l r) : (⟨S50000x194, .f32⟩ : BufTy).Contents (Elt F) → (⟨S194x32, .f32⟩ : BufTy).Contents (Elt F) → (⟨S50000x32, .f32⟩ : BufTy).Contents (Elt F)),
    unary main_arg19 main_v80 (broadcastInDim S1x32 ![1] bcast_S32_S1x32_1 : (⟨S32, .f32⟩ : BufTy).Contents (Elt F) → (⟨S1x32, .f32⟩ : BufTy).Contents (Elt F)),
    unary main_v80 main_v81 (broadcastInDim S50000x32 ![0, 1] bcast_S1x32_S50000x32_0_1 : (⟨S1x32, .f32⟩ : BufTy).Contents (Elt F) → (⟨S50000x32, .f32⟩ : BufTy).Contents (Elt F)),
    binary main_v79 main_v81 main_v82 (addf : (⟨S50000x32, .f32⟩ : BufTy).Contents (Elt F) → (⟨S50000x32, .f32⟩ : BufTy).Contents (Elt F) → (⟨S50000x32, .f32⟩ : BufTy).Contents (Elt F)),
    nullary main_cst_16 (constant S_ .f32 0x00000000#32),
    unary main_cst_16 main_v83 (broadcastInDim S50000x32 ![] bcast_S_S50000x32 : (⟨S_, .f32⟩ : BufTy).Contents (Elt F) → (⟨S50000x32, .f32⟩ : BufTy).Contents (Elt F)),
    binary main_v82 main_v83 main_v84 (cmpf .ogt : (⟨S50000x32, .f32⟩ : BufTy).Contents (Elt F) → (⟨S50000x32, .f32⟩ : BufTy).Contents (Elt F) → (⟨S50000x32, .i1⟩ : BufTy).Contents (Elt F)),
    nullary main_cst_17 (constant S_ .f32 0x3C23D70A#32),
    unary main_cst_17 main_v85 (broadcastInDim S50000x32 ![] bcast_S_S50000x32 : (⟨S_, .f32⟩ : BufTy).Contents (Elt F) → (⟨S50000x32, .f32⟩ : BufTy).Contents (Elt F)),
    binary main_v85 main_v82 main_v86 (mulf : (⟨S50000x32, .f32⟩ : BufTy).Contents (Elt F) → (⟨S50000x32, .f32⟩ : BufTy).Contents (Elt F) → (⟨S50000x32, .f32⟩ : BufTy).Contents (Elt F)),
    TRef.ternary (TRef.of (T := ⟨S50000x32, .i1⟩) main_v84) (TRef.of (T := ⟨S50000x32, .f32⟩) main_v82) (TRef.of (T := ⟨S50000x32, .f32⟩) main_v86) (TRef.of (T := ⟨S50000x32, .f32⟩) main_v87) select,
    binary main_v87 main_arg20 main_v88 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg21 main_v89 (broadcastInDim S1x64 ![1] bcast_S64_S1x64_1 : (⟨S64, .f32⟩ : BufTy).Contents (Elt F) → (⟨S1x64, .f32⟩ : BufTy).Contents (Elt F)),
    unary main_v89 main_v90 (broadcastInDim S50000x64 ![0, 1] bcast_S1x64_S50000x64_0_1 : (⟨S1x64, .f32⟩ : BufTy).Contents (Elt F) → (⟨S50000x64, .f32⟩ : BufTy).Contents (Elt F)),
    binary main_v88 main_v90 main_v91 (addf : (⟨S50000x64, .f32⟩ : BufTy).Contents (Elt F) → (⟨S50000x64, .f32⟩ : BufTy).Contents (Elt F) → (⟨S50000x64, .f32⟩ : BufTy).Contents (Elt F)),
    unary main_v91 main_v92 (Host.tanh : (⟨S50000x64, .f32⟩ : BufTy).Contents (Elt F) → (⟨S50000x64, .f32⟩ : BufTy).Contents (Elt F)) ]

/-- @main's 113 operations, in order (a called function's operations stand in its call's place). -/
abbrev ops : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg6 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v2 (broadcastInDim S1600000 ![] bcast_S_S1600000 : (⟨S_, .i32⟩ : BufTy).Contents (Elt F) → (⟨S1600000, .i32⟩ : BufTy).Contents (Elt F)),
    binary main_arg6 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg6 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg3 main_v5 main_v6 ((fun x i => Host.gather gather_S50000x2_S1600000x1_S1600000x2_1_0_n_n_0_1_12 x i) : (⟨S50000x2, .f32⟩ : BufTy).Contents (Elt F) → (⟨S1600000x1, .i32⟩ : BufTy).Contents (Elt F) → (⟨S1600000x2, .f32⟩ : BufTy).Contents (Elt F)),
    nullary main_c_1 (constantI S_ 32 0#32),
    unary main_c_1 main_v7 (broadcastInDim S1600000 ![] bcast_S_S1600000 : (⟨S_, .i32⟩ : BufTy).Contents (Elt F) → (⟨S1600000, .i32⟩ : BufTy).Contents (Elt F)),
    binary main_arg7 main_v7 main_v8 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 50000#32),
    unary main_c_2 main_v9 (broadcastInDim S1600000 ![] bcast_S_S1600000 : (⟨S_, .i32⟩ : BufTy).Contents (Elt F) → (⟨S1600000, .i32⟩ : BufTy).Contents (Elt F)),
    binary main_arg7 main_v9 main_v10 (addi : (⟨S1600000, .i32⟩ : BufTy).Contents (Elt F) → (⟨S1600000, .i32⟩ : BufTy).Contents (Elt F) → (⟨S1600000, .i32⟩ : BufTy).Contents (Elt F)),
    ternary main_v8 main_v10 main_arg7 main_v11 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v11 main_v12 (broadcastInDim S1600000x1 ![0] bcast_S1600000_S1600000x1_0 : (⟨S1600000, .i32⟩ : BufTy).Contents (Elt F) → (⟨S1600000x1, .i32⟩ : BufTy).Contents (Elt F)),
    binary main_arg2 main_v12 main_v13 ((fun x i => Host.gather gather_S50000x2_S1600000x1_S1600000x2_1_0_n_n_0_1_12 x i) : (⟨S50000x2, .f32⟩ : BufTy).Contents (Elt F) → (⟨S1600000x1, .i32⟩ : BufTy).Contents (Elt F) → (⟨S1600000x2, .f32⟩ : BufTy).Contents (Elt F)),
    nullary main_c_3 (constantI S_ 32 0#32),
    unary main_c_3 main_v14 (broadcastInDim S1600000 ![] bcast_S_S1600000 : (⟨S_, .i32⟩ : BufTy).Contents (Elt F) → (⟨S1600000, .i32⟩ : BufTy).Contents (Elt F)),
    binary main_arg6 main_v14 main_v15 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 50000#32),
    unary main_c_4 main_v16 (broadcastInDim S1600000 ![] bcast_S_S1600000 : (⟨S_, .i32⟩ : BufTy).Contents (Elt F) → (⟨S1600000, .i32⟩ : BufTy).Contents (Elt F)),
    binary main_arg6 main_v16 main_v17 (addi : (⟨S1600000, .i32⟩ : BufTy).Contents (Elt F) → (⟨S1600000, .i32⟩ : BufTy).Contents (Elt F) → (⟨S1600000, .i32⟩ : BufTy).Contents (Elt F)),
    ternary main_v15 main_v17 main_arg6 main_v18 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v18 main_v19 (broadcastInDim S1600000x1 ![0] bcast_S1600000_S1600000x1_0 : (⟨S1600000, .i32⟩ : BufTy).Contents (Elt F) → (⟨S1600000x1, .i32⟩ : BufTy).Contents (Elt F)),
    binary main_arg1 main_v19 main_v20 ((fun x i => Host.gather gather_S50000x16_S1600000x1_S1600000x16_1_0_n_n_0_1_116 x i) : (⟨S50000x16, .f32⟩ : BufTy).Contents (Elt F) → (⟨S1600000x1, .i32⟩ : BufTy).Contents (Elt F) → (⟨S1600000x16, .f32⟩ : BufTy).Contents (Elt F)),
    nary ![main_v6, main_v13, main_arg4, main_v20] main_v21 (fun u => concatenate S1600000x21 1 [⟨S1600000x2, u 0⟩, ⟨S1600000x2, u 1⟩, ⟨S1600000x1, u 2⟩, ⟨S1600000x16, u 3⟩] concatenates_S1600000x2_S1600000x2_S1600000x1_S1600000x16_S1600000x21_d1),
    binary main_v21 main_arg10 main_v22 ((fun l r => Host.dotGeneral dot_S1600000x21_S21x32_S1600000x32_1_0_0_1_n_n none l r) : (⟨S1600000x21, .f32⟩ : BufTy).Contents (Elt F) → (⟨S21x32, .f32⟩ : BufTy).Contents (Elt F) → (⟨S1600000x32, .f32⟩ : BufTy).Contents (Elt F)),
    unary main_arg11 main_v23 (broadcastInDim S1x32 ![1] bcast_S32_S1x32_1 : (⟨S32, .f32⟩ : BufTy).Contents (Elt F) → (⟨S1x32, .f32⟩ : BufTy).Contents (Elt F)),
    unary main_v23 main_v24 (broadcastInDim S1600000x32 ![0, 1] bcast_S1x32_S1600000x32_0_1 : (⟨S1x32, .f32⟩ : BufTy).Contents (Elt F) → (⟨S1600000x32, .f32⟩ : BufTy).Contents (Elt F)),
    binary main_v22 main_v24 main_v25 (addf : (⟨S1600000x32, .f32⟩ : BufTy).Contents (Elt F) → (⟨S1600000x32, .f32⟩ : BufTy).Contents (Elt F) → (⟨S1600000x32, .f32⟩ : BufTy).Contents (Elt F)),
    nullary main_cst (constant S_ .f32 0x00000000#32),
    unary main_cst main_v26 (broadcastInDim S1600000x32 ![] bcast_S_S1600000x32 : (⟨S_, .f32⟩ : BufTy).Contents (Elt F) → (⟨S1600000x32, .f32⟩ : BufTy).Contents (Elt F)),
    binary main_v25 main_v26 main_v27 (cmpf .ogt : (⟨S1600000x32, .f32⟩ : BufTy).Contents (Elt F) → (⟨S1600000x32, .f32⟩ : BufTy).Contents (Elt F) → (⟨S1600000x32, .i1⟩ : BufTy).Contents (Elt F)),
    nullary main_cst_5 (constant S_ .f32 0x3C23D70A#32),
    unary main_cst_5 main_v28 (broadcastInDim S1600000x32 ![] bcast_S_S1600000x32 : (⟨S_, .f32⟩ : BufTy).Contents (Elt F) → (⟨S1600000x32, .f32⟩ : BufTy).Contents (Elt F)),
    binary main_v28 main_v25 main_v29 (mulf : (⟨S1600000x32, .f32⟩ : BufTy).Contents (Elt F) → (⟨S1600000x32, .f32⟩ : BufTy).Contents (Elt F) → (⟨S1600000x32, .f32⟩ : BufTy).Contents (Elt F)),
    TRef.ternary (TRef.of (T := ⟨S1600000x32, .i1⟩) main_v27) (TRef.of (T := ⟨S1600000x32, .f32⟩) main_v25) (TRef.of (T := ⟨S1600000x32, .f32⟩) main_v29) (TRef.of (T := ⟨S1600000x32, .f32⟩) main_v30) select,
    binary main_v30 main_arg12 main_v31 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    unary main_arg13 main_v32 (broadcastInDim S1x64 ![1] bcast_S64_S1x64_1 : (⟨S64, .f32⟩ : BufTy).Contents (Elt F) → (⟨S1x64, .f32⟩ : BufTy).Contents (Elt F)),
    unary main_v32 main_v33 (broadcastInDim S1600000x64 ![0, 1] bcast_S1x64_S1600000x64_0_1 : (⟨S1x64, .f32⟩ : BufTy).Contents (Elt F) → (⟨S1600000x64, .f32⟩ : BufTy).Contents (Elt F)),
    binary main_v31 main_v33 main_v34 (addf : (⟨S1600000x64, .f32⟩ : BufTy).Contents (Elt F) → (⟨S1600000x64, .f32⟩ : BufTy).Contents (Elt F) → (⟨S1600000x64, .f32⟩ : BufTy).Contents (Elt F)),
    unary main_v34 main_v35 (Host.tanh : (⟨S1600000x64, .f32⟩ : BufTy).Contents (Elt F) → (⟨S1600000x64, .f32⟩ : BufTy).Contents (Elt F)),
    nullary main_cst_6 (constant S_ .f32 0x00000000#32),
    unary main_cst_6 main_v36 (broadcastInDim S50000x64 ![] bcast_S_S50000x64 : (⟨S_, .f32⟩ : BufTy).Contents (Elt F) → (⟨S50000x64, .f32⟩ : BufTy).Contents (Elt F)),
    unary main_arg7 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    nullary main_c_7 (constantI S_ 32 0#32),
    unary main_c_7 main_v39 (broadcastInDim S1600000 ![] bcast_S_S1600000 : (⟨S_, .i32⟩ : BufTy).Contents (Elt F) → (⟨S1600000, .i32⟩ : BufTy).Contents (Elt F)),
    binary main_arg8 main_v39 main_v40 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v41 (broadcastInDim S1600000 ![] bcast_S_S1600000 : (⟨S_, .i32⟩ : BufTy).Contents (Elt F) → (⟨S1600000, .i32⟩ : BufTy).Contents (Elt F)),
    binary main_arg8 main_v41 main_v42 (addi : (⟨S1600000, .i32⟩ : BufTy).Contents (Elt F) → (⟨S1600000, .i32⟩ : BufTy).Contents (Elt F) → (⟨S1600000, .i32⟩ : BufTy).Contents (Elt F)),
    ternary main_v40 main_v42 main_arg8 main_v43 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v43 main_v44 (broadcastInDim S1600000x1 ![0] bcast_S1600000_S1600000x1_0 : (⟨S1600000, .i32⟩ : BufTy).Contents (Elt F) → (⟨S1600000x1, .i32⟩ : BufTy).Contents (Elt F)),
    binary main_arg2 main_v44 main_v45 ((fun x i => Host.gather gather_S50000x2_S1600000x1_S1600000x2_1_0_n_n_0_1_12 x i) : (⟨S50000x2, .f32⟩ : BufTy).Contents (Elt F) → (⟨S1600000x1, .i32⟩ : BufTy).Contents (Elt F) → (⟨S1600000x2, .f32⟩ : BufTy).Contents (Elt F)),
    nullary main_c_9 (constantI S_ 32 0#32),
    unary main_c_9 main_v46 (broadcastInDim S1600000 ![] bcast_S_S1600000 : (⟨S_, .i32⟩ : BufTy).Contents (Elt F) → (⟨S1600000, .i32⟩ : BufTy).Contents (Elt F)),
    binary main_arg9 main_v46 main_v47 (cmpi .slt : (⟨S1600000, .i32⟩ : BufTy).Contents (Elt F) → (⟨S1600000, .i32⟩ : BufTy).Contents (Elt F) → (⟨S1600000, .i1⟩ : BufTy).Contents (Elt F)),
    nullary main_c_10 (constantI S_ 32 50000#32),
    unary main_c_10 main_v48 (broadcastInDim S1600000 ![] bcast_S_S1600000 : (⟨S_, .i32⟩ : BufTy).Contents (Elt F) → (⟨S1600000, .i32⟩ : BufTy).Contents (Elt F)),
    binary main_arg9 main_v48 main_v49 (addi : (⟨S1600000, .i32⟩ : BufTy).Contents (Elt F) → (⟨S1600000, .i32⟩ : BufTy).Contents (Elt F) → (⟨S1600000, .i32⟩ : BufTy).Contents (Elt F)),
    ternary main_v47 main_v49 main_arg9 main_v50 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v50 main_v51 (broadcastInDim S1600000x1 ![0] bcast_S1600000_S1600000x1_0 : (⟨S1600000, .i32⟩ : BufTy).Contents (Elt F) → (⟨S1600000x1, .i32⟩ : BufTy).Contents (Elt F)),
    binary main_arg2 main_v51 main_v52 ((fun x i => Host.gather gather_S50000x2_S1600000x1_S1600000x2_1_0_n_n_0_1_12 x i) : (⟨S50000x2, .f32⟩ : BufTy).Contents (Elt F) → (⟨S1600000x1, .i32⟩ : BufTy).Contents (Elt F) → (⟨S1600000x2, .f32⟩ : BufTy).Contents (Elt F)),
    nullary main_c_11 (constantI S_ 32 0#32),
    unary main_c_11 main_v53 (broadcastInDim S1600000 ![] bcast_S_S1600000 : (⟨S_, .i32⟩ : BufTy).Contents (Elt F) → (⟨S1600000, .i32⟩ : BufTy).Contents (Elt F)),
    binary main_arg8 main_v53 main_v54 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 50000#32),
    unary main_c_12 main_v55 (broadcastInDim S1600000 ![] bcast_S_S1600000 : (⟨S_, .i32⟩ : BufTy).Contents (Elt F) → (⟨S1600000, .i32⟩ : BufTy).Contents (Elt F)),
    binary main_arg8 main_v55 main_v56 (addi : (⟨S1600000, .i32⟩ : BufTy).Contents (Elt F) → (⟨S1600000, .i32⟩ : BufTy).Contents (Elt F) → (⟨S1600000, .i32⟩ : BufTy).Contents (Elt F)),
    ternary main_v54 main_v56 main_arg8 main_v57 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v57 main_v58 (broadcastInDim S1600000x1 ![0] bcast_S1600000_S1600000x1_0 : (⟨S1600000, .i32⟩ : BufTy).Contents (Elt F) → (⟨S1600000x1, .i32⟩ : BufTy).Contents (Elt F)),
    binary main_arg0 main_v58 main_v59 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nary ![main_v45, main_v52, main_arg5, main_v59] main_v60 (fun u => concatenate S1600000x69 1 [⟨S1600000x2, u 0⟩, ⟨S1600000x2, u 1⟩, ⟨S1600000x1, u 2⟩, ⟨S1600000x64, u 3⟩] concatenates_S1600000x2_S1600000x2_S1600000x1_S1600000x64_S1600000x69_d1),
    binary main_v60 main_arg14 main_v61 ((fun l r => Host.dotGeneral dot_S1600000x69_S69x32_S1600000x32_1_0_0_1_n_n none l r) : (⟨S1600000x69, .f32⟩ : BufTy).Contents (Elt F) → (⟨S69x32, .f32⟩ : BufTy).Contents (Elt F) → (⟨S1600000x32, .f32⟩ : BufTy).Contents (Elt F)),
    unary main_arg15 main_v62 (broadcastInDim S1x32 ![1] bcast_S32_S1x32_1 : (⟨S32, .f32⟩ : BufTy).Contents (Elt F) → (⟨S1x32, .f32⟩ : BufTy).Contents (Elt F)),
    unary main_v62 main_v63 (broadcastInDim S1600000x32 ![0, 1] bcast_S1x32_S1600000x32_0_1 : (⟨S1x32, .f32⟩ : BufTy).Contents (Elt F) → (⟨S1600000x32, .f32⟩ : BufTy).Contents (Elt F)),
    binary main_v61 main_v63 main_v64 (addf : (⟨S1600000x32, .f32⟩ : BufTy).Contents (Elt F) → (⟨S1600000x32, .f32⟩ : BufTy).Contents (Elt F) → (⟨S1600000x32, .f32⟩ : BufTy).Contents (Elt F)),
    nullary main_cst_13 (constant S_ .f32 0x00000000#32),
    unary main_cst_13 main_v65 (broadcastInDim S1600000x32 ![] bcast_S_S1600000x32 : (⟨S_, .f32⟩ : BufTy).Contents (Elt F) → (⟨S1600000x32, .f32⟩ : BufTy).Contents (Elt F)),
    binary main_v64 main_v65 main_v66 (cmpf .ogt : (⟨S1600000x32, .f32⟩ : BufTy).Contents (Elt F) → (⟨S1600000x32, .f32⟩ : BufTy).Contents (Elt F) → (⟨S1600000x32, .i1⟩ : BufTy).Contents (Elt F)),
    nullary main_cst_14 (constant S_ .f32 0x3C23D70A#32),
    unary main_cst_14 main_v67 (broadcastInDim S1600000x32 ![] bcast_S_S1600000x32 : (⟨S_, .f32⟩ : BufTy).Contents (Elt F) → (⟨S1600000x32, .f32⟩ : BufTy).Contents (Elt F)),
    binary main_v67 main_v64 main_v68 (mulf : (⟨S1600000x32, .f32⟩ : BufTy).Contents (Elt F) → (⟨S1600000x32, .f32⟩ : BufTy).Contents (Elt F) → (⟨S1600000x32, .f32⟩ : BufTy).Contents (Elt F)),
    TRef.ternary (TRef.of (T := ⟨S1600000x32, .i1⟩) main_v66) (TRef.of (T := ⟨S1600000x32, .f32⟩) main_v64) (TRef.of (T := ⟨S1600000x32, .f32⟩) main_v68) (TRef.of (T := ⟨S1600000x32, .f32⟩) main_v69) select,
    binary main_v69 main_arg16 main_v70 ((fun l r => Host.dotGeneral dot_S1600000x32_S32x64_S1600000x64_1_0_0_1_n_n none l r) : (⟨S1600000x32, .f32⟩ : BufTy).Contents (Elt F) → (⟨S32x64, .f32⟩ : BufTy).Contents (Elt F) → (⟨S1600000x64, .f32⟩ : BufTy).Contents (Elt F)),
    unary main_arg17 main_v71 (broadcastInDim S1x64 ![1] bcast_S64_S1x64_1 : (⟨S64, .f32⟩ : BufTy).Contents (Elt F) → (⟨S1x64, .f32⟩ : BufTy).Contents (Elt F)),
    unary main_v71 main_v72 (broadcastInDim S1600000x64 ![0, 1] bcast_S1x64_S1600000x64_0_1 : (⟨S1x64, .f32⟩ : BufTy).Contents (Elt F) → (⟨S1600000x64, .f32⟩ : BufTy).Contents (Elt F)),
    binary main_v70 main_v72 main_v73 (addf : (⟨S1600000x64, .f32⟩ : BufTy).Contents (Elt F) → (⟨S1600000x64, .f32⟩ : BufTy).Contents (Elt F) → (⟨S1600000x64, .f32⟩ : BufTy).Contents (Elt F)),
    unary main_v73 main_v74 (Host.tanh : (⟨S1600000x64, .f32⟩ : BufTy).Contents (Elt F) → (⟨S1600000x64, .f32⟩ : BufTy).Contents (Elt F)),
    nullary main_cst_15 (constant S_ .f32 0x00000000#32),
    unary main_cst_15 main_v75 (broadcastInDim S50000x64 ![] bcast_S_S50000x64 : (⟨S_, .f32⟩ : BufTy).Contents (Elt F) → (⟨S50000x64, .f32⟩ : BufTy).Contents (Elt F)),
    unary main_arg9 main_v76 (broadcastInDim S1600000x1 ![0] bcast_S1600000_S1600000x1_0 : (⟨S1600000, .i32⟩ : BufTy).Contents (Elt F) → (⟨S1600000x1, .i32⟩ : BufTy).Contents (Elt F)),
    ternary main_v75 main_v76 main_v74 main_v77 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    nary ![main_arg2, main_arg0, main_v38, main_v77] main_v78 (fun u => concatenate S50000x194 1 [⟨S50000x2, u 0⟩, ⟨S50000x64, u 1⟩, ⟨S50000x64, u 2⟩, ⟨S50000x64, u 3⟩] concatenates_S50000x2_S50000x64_S50000x64_S50000x64_S50000x194_d1),
    binary main_v78 main_arg18 main_v79 ((fun l r => Host.dotGeneral dot_S50000x194_S194x32_S50000x32_1_0_0_1_n_n none l r) : (⟨S50000x194, .f32⟩ : BufTy).Contents (Elt F) → (⟨S194x32, .f32⟩ : BufTy).Contents (Elt F) → (⟨S50000x32, .f32⟩ : BufTy).Contents (Elt F)),
    unary main_arg19 main_v80 (broadcastInDim S1x32 ![1] bcast_S32_S1x32_1 : (⟨S32, .f32⟩ : BufTy).Contents (Elt F) → (⟨S1x32, .f32⟩ : BufTy).Contents (Elt F)),
    unary main_v80 main_v81 (broadcastInDim S50000x32 ![0, 1] bcast_S1x32_S50000x32_0_1 : (⟨S1x32, .f32⟩ : BufTy).Contents (Elt F) → (⟨S50000x32, .f32⟩ : BufTy).Contents (Elt F)),
    binary main_v79 main_v81 main_v82 (addf : (⟨S50000x32, .f32⟩ : BufTy).Contents (Elt F) → (⟨S50000x32, .f32⟩ : BufTy).Contents (Elt F) → (⟨S50000x32, .f32⟩ : BufTy).Contents (Elt F)),
    nullary main_cst_16 (constant S_ .f32 0x00000000#32),
    unary main_cst_16 main_v83 (broadcastInDim S50000x32 ![] bcast_S_S50000x32 : (⟨S_, .f32⟩ : BufTy).Contents (Elt F) → (⟨S50000x32, .f32⟩ : BufTy).Contents (Elt F)),
    binary main_v82 main_v83 main_v84 (cmpf .ogt : (⟨S50000x32, .f32⟩ : BufTy).Contents (Elt F) → (⟨S50000x32, .f32⟩ : BufTy).Contents (Elt F) → (⟨S50000x32, .i1⟩ : BufTy).Contents (Elt F)),
    nullary main_cst_17 (constant S_ .f32 0x3C23D70A#32),
    unary main_cst_17 main_v85 (broadcastInDim S50000x32 ![] bcast_S_S50000x32 : (⟨S_, .f32⟩ : BufTy).Contents (Elt F) → (⟨S50000x32, .f32⟩ : BufTy).Contents (Elt F)),
    binary main_v85 main_v82 main_v86 (mulf : (⟨S50000x32, .f32⟩ : BufTy).Contents (Elt F) → (⟨S50000x32, .f32⟩ : BufTy).Contents (Elt F) → (⟨S50000x32, .f32⟩ : BufTy).Contents (Elt F)),
    TRef.ternary (TRef.of (T := ⟨S50000x32, .i1⟩) main_v84) (TRef.of (T := ⟨S50000x32, .f32⟩) main_v82) (TRef.of (T := ⟨S50000x32, .f32⟩) main_v86) (TRef.of (T := ⟨S50000x32, .f32⟩) main_v87) select,
    binary main_v87 main_arg20 main_v88 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg21 main_v89 (broadcastInDim S1x64 ![1] bcast_S64_S1x64_1 : (⟨S64, .f32⟩ : BufTy).Contents (Elt F) → (⟨S1x64, .f32⟩ : BufTy).Contents (Elt F)),
    unary main_v89 main_v90 (broadcastInDim S50000x64 ![0, 1] bcast_S1x64_S50000x64_0_1 : (⟨S1x64, .f32⟩ : BufTy).Contents (Elt F) → (⟨S50000x64, .f32⟩ : BufTy).Contents (Elt F)),
    binary main_v88 main_v90 main_v91 (addf : (⟨S50000x64, .f32⟩ : BufTy).Contents (Elt F) → (⟨S50000x64, .f32⟩ : BufTy).Contents (Elt F) → (⟨S50000x64, .f32⟩ : BufTy).Contents (Elt F)),
    unary main_v91 main_v92 (Host.tanh : (⟨S50000x64, .f32⟩ : BufTy).Contents (Elt F) → (⟨S50000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., unary_bufs_sub .., nullary_bufs_sub .., unary_bufs_sub .., unary_bufs_sub .., ternary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., unary_bufs_sub ..⟩

/-- The line is its six pieces in order. -/
theorem ops_split : (ops : List (HloOp τ sig (Elt F))) = opsA ++ (opsB ++ (opsC ++ (opsD ++ (opsE ++ opsF)))) := rfl

/-- The contents after the whole line, piece by piece. -/
theorem after_ops (V : Valuation τ sig (Elt F)) :
    after ops V = after opsF (after opsE (after opsD (after opsC (after opsB (after opsA V))))) := by
  rw [ops_split, Cert.LibAfterAppend.after_append, Cert.LibAfterAppend.after_append, Cert.LibAfterAppend.after_append,
    Cert.LibAfterAppend.after_append, Cert.LibAfterAppend.after_append]

end Cert.RefMlp

end
-- ==== Proof.RefRun.lean ====
/-
  The reference program's run, evaluated piece by piece.

  The program is a straight line of host operations cut into six pieces. Each piece is evaluated from ARBITRARY
  incoming contents `W`: the array it produces as a function of the arrays it reads, and every reference it does not
  write unchanged. Composing the six pieces from the launch contents gives the result as the third perceptron of the
  concatenation of two arguments and the scatter-added outputs of the first and second perceptrons (`refResult`), with
  every argument unchanged.
-/
import proofs.«102410_j3917010174735_1_alg».proof.Proof.RefRunOps
import proofs.«102410_j3917010174735_1_alg».proof.Proof.RefInp
import proofs.«102410_j3917010174735_1_alg».proof.Proof.LibConcCongr

noncomputable section

namespace Cert.RefMlp

open Cert.ReferenceIdeal Cert.ReferenceIdeal.Gen Idealize.ShloMosaic Idealize.ShloMosaic.TcCoe Idealize.SL.Sem Idealize.ShloMosaic.StableHlo

/-! ## What each piece writes, and what it therefore keeps -/

/-- The references piece `A` writes. -/
abbrev wA : List (Ref sig .tc) := [main_c, main_v0, main_v1, main_c_0, main_v2, main_v3, main_v4, main_v5, main_v6, main_c_1, main_v7, main_v8, main_c_2, main_v9, main_v10, main_v11, main_v12, main_v13, main_c_3, main_v14, main_v15, main_c_4, main_v16, main_v17, main_v18, main_v19, main_v20, main_v21]
theorem opsA_writes : (opsA : List (HloOp τ sig (Elt Ideal))).Forall fun op => op.writes ⊆ (wA.map (Proc.devRef (τ := τ) .tc)).toFinset := by
  unfold opsA
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A reference piece `A` does not write keeps its contents. -/
theorem keptA (W : Valuation τ sig (Elt Ideal)) (r : Ref sig .tc) (h : r ∉ wA) :
    after (opsA (F := Ideal)) W (Proc.devRef .tc r) = W (Proc.devRef .tc r) :=
  after_of_writes_sub opsA W opsA_writes h

/-- The references piece `B` writes. -/
abbrev wB : List (Ref sig .tc) := [main_v22, main_v23, main_v24, main_v25, main_cst, main_v26, main_v27, main_cst_5, main_v28, main_v29, main_v30, main_v31, main_v32, main_v33, main_v34, main_v35]
theorem opsB_writes : (opsB : List (HloOp τ sig (Elt Ideal))).Forall fun op => op.writes ⊆ (wB.map (Proc.devRef (τ := τ) .tc)).toFinset := by
  unfold opsB
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A reference piece `B` does not write keeps its contents. -/
theorem keptB (W : Valuation τ sig (Elt Ideal)) (r : Ref sig .tc) (h : r ∉ wB) :
    after (opsB (F := Ideal)) W (Proc.devRef .tc r) = W (Proc.devRef .tc r) :=
  after_of_writes_sub opsB W opsB_writes h

/-- The references piece `C` writes. -/
abbrev wC : List (Ref sig .tc) := [main_cst_6, main_v36, main_v37, main_v38, main_c_7, main_v39, main_v40, main_c_8, main_v41, main_v42, main_v43, main_v44, main_v45, main_c_9, main_v46, main_v47, main_c_10, main_v48, main_v49, main_v50, main_v51, main_v52, main_c_11, main_v53, main_v54, main_c_12, main_v55, main_v56, main_v57, main_v58, main_v59, main_v60]
theorem opsC_writes : (opsC : List (HloOp τ sig (Elt Ideal))).Forall fun op => op.writes ⊆ (wC.map (Proc.devRef (τ := τ) .tc)).toFinset := by
  unfold opsC
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A reference piece `C` does not write keeps its contents. -/
theorem keptC (W : Valuation τ sig (Elt Ideal)) (r : Ref sig .tc) (h : r ∉ wC) :
    after (opsC (F := Ideal)) W (Proc.devRef .tc r) = W (Proc.devRef .tc r) :=
  after_of_writes_sub opsC W opsC_writes h

/-- The references piece `D` writes. -/
abbrev wD : List (Ref sig .tc) := [main_v61, main_v62, main_v63, main_v64, main_cst_13, main_v65, main_v66, main_cst_14, main_v67, main_v68, main_v69, main_v70, main_v71, main_v72, main_v73, main_v74]
theorem opsD_writes : (opsD : List (HloOp τ sig (Elt Ideal))).Forall fun op => op.writes ⊆ (wD.map (Proc.devRef (τ := τ) .tc)).toFinset := by
  unfold opsD
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A reference piece `D` does not write keeps its contents. -/
theorem keptD (W : Valuation τ sig (Elt Ideal)) (r : Ref sig .tc) (h : r ∉ wD) :
    after (opsD (F := Ideal)) W (Proc.devRef .tc r) = W (Proc.devRef .tc r) :=
  after_of_writes_sub opsD W opsD_writes h

/-- The references piece `E` writes. -/
abbrev wE : List (Ref sig .tc) := [main_cst_15, main_v75, main_v76, main_v77, main_v78]
theorem opsE_writes : (opsE : List (HloOp τ sig (Elt Ideal))).Forall fun op => op.writes ⊆ (wE.map (Proc.devRef (τ := τ) .tc)).toFinset := by
  unfold opsE
  simp only [List.Forall]
  refine ⟨?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A reference piece `E` does not write keeps its contents. -/
theorem keptE (W : Valuation τ sig (Elt Ideal)) (r : Ref sig .tc) (h : r ∉ wE) :
    after (opsE (F := Ideal)) W (Proc.devRef .tc r) = W (Proc.devRef .tc r) :=
  after_of_writes_sub opsE W opsE_writes h

/-- The references piece `F` writes. -/
abbrev wF : List (Ref sig .tc) := [main_v79, main_v80, main_v81, main_v82, main_cst_16, main_v83, main_v84, main_cst_17, main_v85, main_v86, main_v87, main_v88, main_v89, main_v90, main_v91, main_v92]
theorem opsF_writes : (opsF : List (HloOp τ sig (Elt Ideal))).Forall fun op => op.writes ⊆ (wF.map (Proc.devRef (τ := τ) .tc)).toFinset := by
  unfold opsF
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, binaryIndexed_writes, unaryIndexed_writes, nary_writes, Finset.singleton_subset_iff, List.mem_toFinset]; exact List.mem_map_of_mem (by decide))
/-- A reference piece `F` does not write keeps its contents. -/
theorem keptF (W : Valuation τ sig (Elt Ideal)) (r : Ref sig .tc) (h : r ∉ wF) :
    after (opsF (F := Ideal)) W (Proc.devRef .tc r) = W (Proc.devRef .tc r) :=
  after_of_writes_sub opsF W opsF_writes h

/-! ## The two gathered inputs as functions of the arrays they read -/

/-- The first perceptron's input from the six arrays it reads: two gathered coordinate pairs, one given feature and
    sixteen gathered features per row, side by side. -/
def inpAof (a1 : FVec Ideal S50000x16 .f32) (a2 a3 : FVec Ideal S50000x2 .f32) (a4 : FVec Ideal S1600000x1 .f32)
    (a6 a7 : IVec S1600000 32) : FVec Ideal S1600000x21 .f32 :=
  concatenate S1600000x21 1 [⟨S1600000x2, (Host.gather gather_S50000x2_S1600000x1_S1600000x2_1_0_n_n_0_1_12 a3 (broadcastInDim S1600000x1 ![0] bcast_S1600000_S1600000x1_0 (select (cmpi .slt a6 (broadcastInDim S1600000 ![] bcast_S_S1600000 (constantI S_ 32 0#32))) (addi a6 (broadcastInDim S1600000 ![] bcast_S_S1600000 (constantI S_ 32 50000#32))) a6)))⟩, ⟨S1600000x2, (Host.gather gather_S50000x2_S1600000x1_S1600000x2_1_0_n_n_0_1_12 a2 (broadcastInDim S1600000x1 ![0] bcast_S1600000_S1600000x1_0 (select (cmpi .slt a7 (broadcastInDim S1600000 ![] bcast_S_S1600000 (constantI S_ 32 0#32))) (addi a7 (broadcastInDim S1600000 ![] bcast_S_S1600000 (constantI S_ 32 50000#32))) a7)))⟩, ⟨S1600000x1, a4⟩, ⟨S1600000x16, (Host.gather gather_S50000x16_S1600000x1_S1600000x16_1_0_n_n_0_1_116 a1 (broadcastInDim S1600000x1 ![0] bcast_S1600000_S1600000x1_0 (select (cmpi .slt a6 (broadcastInDim S1600000 ![] bcast_S_S1600000 (constantI S_ 32 0#32))) (addi a6 (broadcastInDim S1600000 ![] bcast_S_S1600000 (constantI S_ 32 50000#32))) a6)))⟩] concatenates_S1600000x2_S1600000x2_S1600000x1_S1600000x16_S1600000x21_d1

/-- The second perceptron's input from the five arrays it reads: two gathered coordinate pairs, one given feature and
    sixty-four gathered features per row, side by side. -/
def inpBof (a0 : FVec Ideal S50000x64 .f32) (a2 : FVec Ideal S50000x2 .f32) (a5 : FVec Ideal S1600000x1 .f32)
    (a8 a9 : IVec S1600000 32) : FVec Ideal S1600000x69 .f32 :=
  concatenate S1600000x69 1 [⟨S1600000x2, (Host.gather gather_S50000x2_S1600000x1_S1600000x2_1_0_n_n_0_1_12 a2 (broadcastInDim S1600000x1 ![0] bcast_S1600000_S1600000x1_0 (select (cmpi .slt a8 (broadcastInDim S1600000 ![] bcast_S_S1600000 (constantI S_ 32 0#32))) (addi a8 (broadcastInDim S1600000 ![] bcast_S_S1600000 (constantI S_ 32 50000#32))) a8)))⟩, ⟨S1600000x2, (Host.gather gather_S50000x2_S1600000x1_S1600000x2_1_0_n_n_0_1_12 a2 (broadcastInDim S1600000x1 ![0] bcast_S1600000_S1600000x1_0 (select (cmpi .slt a9 (broadcastInDim S1600000 ![] bcast_S_S1600000 (constantI S_ 32 0#32))) (addi a9 (broadcastInDim S1600000 ![] bcast_S_S1600000 (constantI S_ 32 50000#32))) a9)))⟩, ⟨S1600000x1, a5⟩, ⟨S1600000x64, (Host.gather gather_S50000x64_S1600000x1_S1600000x64_1_0_n_n_0_1_164 a0 (broadcastInDim S1600000x1 ![0] bcast_S1600000_S1600000x1_0 (select (cmpi .slt a8 (broadcastInDim S1600000 ![] bcast_S_S1600000 (constantI S_ 32 0#32))) (addi a8 (broadcastInDim S1600000 ![] bcast_S_S1600000 (constantI S_ 32 50000#32))) a8)))⟩] concatenates_S1600000x2_S1600000x2_S1600000x1_S1600000x64_S1600000x69_d1

/-! ## Each piece from arbitrary incoming contents -/

theorem afterA (W : Valuation τ sig (Elt Ideal)) :
    after (opsA (F := Ideal)) W (Proc.devRef .tc main_v21)
      = inpAof (W (Proc.devRef .tc main_arg1)) (W (Proc.devRef .tc main_arg2)) (W (Proc.devRef .tc main_arg3)) (W (Proc.devRef .tc main_arg4)) (W (Proc.devRef .tc main_arg6)) (W (Proc.devRef .tc main_arg7)) := by
  unfold opsA inpAof
  after_results_simp
  simp only [Matrix.cons_val]
  refine Cert.LibConcCongr.conc4_congr _ _ _ _ _ _ _ _ _ _ _ _ _ _ _ ?_ ?_ ?_ ?_
  all_goals after_results_simp

theorem afterB (W : Valuation τ sig (Elt Ideal)) :
    after (opsB (F := Ideal)) W (Proc.devRef .tc main_v35)
      = mlpA (W (Proc.devRef .tc main_v21)) (W (Proc.devRef .tc main_arg10)) (W (Proc.devRef .tc main_arg11)) (W (Proc.devRef .tc main_arg12)) (W (Proc.devRef .tc main_arg13)) := by
  unfold opsB mlpA
  after_results_simp
  rfl

theorem afterC38 (W : Valuation τ sig (Elt Ideal)) :
    after (opsC (F := Ideal)) W (Proc.devRef .tc main_v38)
      = Host.scatterAdd (F := Ideal) scatter_S50000x64_S1600000x1_S1600000x64_1_0_0_1 (broadcastInDim S50000x64 ![] bcast_S_S50000x64 (constant (F := Ideal) S_ .f32 0x00000000#32)) (broadcastInDim S1600000x1 ![0] bcast_S1600000_S1600000x1_0 (W (Proc.devRef .tc main_arg7))) (W (Proc.devRef .tc main_v35)) := by
  unfold opsC
  after_results_simp

theorem afterC60 (W : Valuation τ sig (Elt Ideal)) :
    after (opsC (F := Ideal)) W (Proc.devRef .tc main_v60)
      = inpBof (W (Proc.devRef .tc main_arg0)) (W (Proc.devRef .tc main_arg2)) (W (Proc.devRef .tc main_arg5)) (W (Proc.devRef .tc main_arg8)) (W (Proc.devRef .tc main_arg9)) := by
  unfold opsC inpBof
  after_results_simp
  simp only [Matrix.cons_val]
  refine Cert.LibConcCongr.conc4_congr _ _ _ _ _ _ _ _ _ _ _ _ _ _ _ ?_ ?_ ?_ ?_
  all_goals after_results_simp

theorem afterD (W : Valuation τ sig (Elt Ideal)) :
    after (opsD (F := Ideal)) W (Proc.devRef .tc main_v74)
      = mlpB (W (Proc.devRef .tc main_v60)) (W (Proc.devRef .tc main_arg14)) (W (Proc.devRef .tc main_arg15)) (W (Proc.devRef .tc main_arg16)) (W (Proc.devRef .tc main_arg17)) := by
  unfold opsD mlpB
  after_results_simp
  rfl

theorem afterE (W : Valuation τ sig (Elt Ideal)) :
    after (opsE (F := Ideal)) W (Proc.devRef .tc main_v78)
      = concatenate S50000x194 1 [⟨S50000x2, (W (Proc.devRef .tc main_arg2))⟩, ⟨S50000x64, (W (Proc.devRef .tc main_arg0))⟩, ⟨S50000x64, (W (Proc.devRef .tc main_v38))⟩,
          ⟨S50000x64, Host.scatterAdd (F := Ideal) scatter_S50000x64_S1600000x1_S1600000x64_1_0_0_1 (broadcastInDim S50000x64 ![] bcast_S_S50000x64 (constant (F := Ideal) S_ .f32 0x00000000#32)) (broadcastInDim S1600000x1 ![0] bcast_S1600000_S1600000x1_0 (W (Proc.devRef .tc main_arg9))) (W (Proc.devRef .tc main_v74))⟩] concatenates_S50000x2_S50000x64_S50000x64_S50000x64_S50000x194_d1 := by
  unfold opsE
  after_results_simp
  simp only [Matrix.cons_val]
  refine Cert.LibConcCongr.conc4_congr _ _ _ _ _ _ _ _ _ _ _ _ _ _ _ ?_ ?_ ?_ ?_
  all_goals after_results_simp

theorem afterF (W : Valuation τ sig (Elt Ideal)) :
    after (opsF (F := Ideal)) W (Proc.devRef .tc main_v92)
      = mlpC (W (Proc.devRef .tc main_v78)) (W (Proc.devRef .tc main_arg18)) (W (Proc.devRef .tc main_arg19)) (W (Proc.devRef .tc main_arg20)) (W (Proc.devRef .tc main_arg21)) := by
  unfold opsF mlpC
  after_results_simp
  rfl

/-! ## References no piece so far has written -/

theorem kept2 (V : Valuation τ sig (Elt Ideal)) (r : Ref sig .tc) (hA : r ∉ wA) (hB : r ∉ wB) :
    after (opsB (F := Ideal)) (after (opsA (F := Ideal)) V) (Proc.devRef .tc r) = V (Proc.devRef .tc r) := by
  rw [keptB _ r hB, keptA _ r hA]

theorem kept3 (V : Valuation τ sig (Elt Ideal)) (r : Ref sig .tc) (hA : r ∉ wA) (hB : r ∉ wB) (hC : r ∉ wC) :
    after (opsC (F := Ideal)) (after (opsB (F := Ideal)) (after (opsA (F := Ideal)) V)) (Proc.devRef .tc r) = V (Proc.devRef .tc r) := by
  rw [keptC _ r hC, keptB _ r hB, keptA _ r hA]

theorem kept4 (V : Valuation τ sig (Elt Ideal)) (r : Ref sig .tc) (hA : r ∉ wA) (hB : r ∉ wB) (hC : r ∉ wC) (hD : r ∉ wD) :
    after (opsD (F := Ideal)) (after (opsC (F := Ideal)) (after (opsB (F := Ideal)) (after (opsA (F := Ideal)) V))) (Proc.devRef .tc r) = V (Proc.devRef .tc r) := by
  rw [keptD _ r hD, keptC _ r hC, keptB _ r hB, keptA _ r hA]

theorem kept5 (V : Valuation τ sig (Elt Ideal)) (r : Ref sig .tc) (hA : r ∉ wA) (hB : r ∉ wB) (hC : r ∉ wC) (hD : r ∉ wD) (hE : r ∉ wE) :
    after (opsE (F := Ideal)) (after (opsD (F := Ideal)) (after (opsC (F := Ideal)) (after (opsB (F := Ideal)) (after (opsA (F := Ideal)) V)))) (Proc.devRef .tc r) = V (Proc.devRef .tc r) := by
  rw [keptE _ r hE, keptD _ r hD, keptC _ r hC, keptB _ r hB, keptA _ r hA]

/-- A reference no piece writes keeps its contents through the whole line. -/
theorem kept_ops (V : Valuation τ sig (Elt Ideal)) (r : Ref sig .tc) (hA : r ∉ wA) (hB : r ∉ wB) (hC : r ∉ wC) (hD : r ∉ wD)
    (hE : r ∉ wE) (hF : r ∉ wF) : after (ops (F := Ideal)) V (Proc.devRef .tc r) = V (Proc.devRef .tc r) := by
  rw [after_ops, keptF _ r hF, keptE _ r hE, keptD _ r hD, keptC _ r hC, keptB _ r hB, keptA _ r hA]

/-! ## The values along the line, as functions of the launch contents -/

/-- The first perceptron's input. -/
def val21 (V : Valuation τ sig (Elt Ideal)) : FVec Ideal S1600000x21 .f32 :=
  inpAof (V (Proc.devRef .tc main_arg1)) (V (Proc.devRef .tc main_arg2)) (V (Proc.devRef .tc main_arg3)) (V (Proc.devRef .tc main_arg4)) (V (Proc.devRef .tc main_arg6)) (V (Proc.devRef .tc main_arg7))
/-- The first perceptron's output. -/
def val35 (V : Valuation τ sig (Elt Ideal)) : FVec Ideal S1600000x64 .f32 :=
  mlpA (val21 V) (V (Proc.devRef .tc main_arg10)) (V (Proc.devRef .tc main_arg11)) (V (Proc.devRef .tc main_arg12)) (V (Proc.devRef .tc main_arg13))
/-- The first perceptron's output, scatter-added into 50000 rows. -/
def val38 (V : Valuation τ sig (Elt Ideal)) : FVec Ideal S50000x64 .f32 :=
  Host.scatterAdd (F := Ideal) scatter_S50000x64_S1600000x1_S1600000x64_1_0_0_1 (broadcastInDim S50000x64 ![] bcast_S_S50000x64 (constant (F := Ideal) S_ .f32 0x00000000#32)) (broadcastInDim S1600000x1 ![0] bcast_S1600000_S1600000x1_0 (V (Proc.devRef .tc main_arg7))) (val35 V)
/-- The second perceptron's input. -/
def val60 (V : Valuation τ sig (Elt Ideal)) : FVec Ideal S1600000x69 .f32 :=
  inpBof (V (Proc.devRef .tc main_arg0)) (V (Proc.devRef .tc main_arg2)) (V (Proc.devRef .tc main_arg5)) (V (Proc.devRef .tc main_arg8)) (V (Proc.devRef .tc main_arg9))
/-- The second perceptron's output. -/
def val74 (V : Valuation τ sig (Elt Ideal)) : FVec Ideal S1600000x64 .f32 :=
  mlpB (val60 V) (V (Proc.devRef .tc main_arg14)) (V (Proc.devRef .tc main_arg15)) (V (Proc.devRef .tc main_arg16)) (V (Proc.devRef .tc main_arg17))
/-- The third perceptron's input. -/
def val78 (V : Valuation τ sig (Elt Ideal)) : FVec Ideal S50000x194 .f32 :=
  concatenate S50000x194 1 [⟨S50000x2, (V (Proc.devRef .tc main_arg2))⟩, ⟨S50000x64, (V (Proc.devRef .tc main_arg0))⟩, ⟨S50000x64, val38 V⟩,
    ⟨S50000x64, Host.scatterAdd (F := Ideal) scatter_S50000x64_S1600000x1_S1600000x64_1_0_0_1 (broadcastInDim S50000x64 ![] bcast_S_S50000x64 (constant (F := Ideal) S_ .f32 0x00000000#32)) (broadcastInDim S1600000x1 ![0] bcast_S1600000_S1600000x1_0 (V (Proc.devRef .tc main_arg9))) (val74 V)⟩] concatenates_S50000x2_S50000x64_S50000x64_S50000x64_S50000x194_d1
/-- The result. -/
def val92 (V : Valuation τ sig (Elt Ideal)) : FVec Ideal S50000x64 .f32 :=
  mlpC (val78 V) (V (Proc.devRef .tc main_arg18)) (V (Proc.devRef .tc main_arg19)) (V (Proc.devRef .tc main_arg20)) (V (Proc.devRef .tc main_arg21))

theorem upto1_v21 (V : Valuation τ sig (Elt Ideal)) : after (opsA (F := Ideal)) V (Proc.devRef .tc main_v21) = val21 V := by
  unfold val21
  rw [afterA]

theorem upto2_v35 (V : Valuation τ sig (Elt Ideal)) : after (opsB (F := Ideal)) (after (opsA (F := Ideal)) V) (Proc.devRef .tc main_v35) = val35 V := by
  unfold val35
  rw [afterB, upto1_v21, keptA V main_arg10 (by decide), keptA V main_arg11 (by decide), keptA V main_arg12 (by decide), keptA V main_arg13 (by decide)]

theorem upto3_v38 (V : Valuation τ sig (Elt Ideal)) : after (opsC (F := Ideal)) (after (opsB (F := Ideal)) (after (opsA (F := Ideal)) V)) (Proc.devRef .tc main_v38) = val38 V := by
  unfold val38
  rw [afterC38, upto2_v35, kept2 V main_arg7 (by decide) (by decide)]

theorem upto3_v60 (V : Valuation τ sig (Elt Ideal)) : after (opsC (F := Ideal)) (after (opsB (F := Ideal)) (after (opsA (F := Ideal)) V)) (Proc.devRef .tc main_v60) = val60 V := by
  unfold val60
  rw [afterC60, kept2 V main_arg0 (by decide) (by decide), kept2 V main_arg2 (by decide) (by decide), kept2 V main_arg5 (by decide) (by decide), kept2 V main_arg8 (by decide) (by decide), kept2 V main_arg9 (by decide) (by decide)]

theorem upto4_v38 (V : Valuation τ sig (Elt Ideal)) : after (opsD (F := Ideal)) (after (opsC (F := Ideal)) (after (opsB (F := Ideal)) (after (opsA (F := Ideal)) V))) (Proc.devRef .tc main_v38) = val38 V := by
  rw [keptD _ main_v38 (by decide), upto3_v38]

theorem upto4_v74 (V : Valuation τ sig (Elt Ideal)) : after (opsD (F := Ideal)) (after (opsC (F := Ideal)) (after (opsB (F := Ideal)) (after (opsA (F := Ideal)) V))) (Proc.devRef .tc main_v74) = val74 V := by
  unfold val74
  rw [afterD, upto3_v60, kept3 V main_arg14 (by decide) (by decide) (by decide), kept3 V main_arg15 (by decide) (by decide) (by decide), kept3 V main_arg16 (by decide) (by decide) (by decide), kept3 V main_arg17 (by decide) (by decide) (by decide)]

theorem upto5_v78 (V : Valuation τ sig (Elt Ideal)) : after (opsE (F := Ideal)) (after (opsD (F := Ideal)) (after (opsC (F := Ideal)) (after (opsB (F := Ideal)) (after (opsA (F := Ideal)) V)))) (Proc.devRef .tc main_v78) = val78 V := by
  unfold val78
  rw [afterE, upto4_v38, upto4_v74, kept4 V main_arg2 (by decide) (by decide) (by decide) (by decide), kept4 V main_arg0 (by decide) (by decide) (by decide) (by decide), kept4 V main_arg9 (by decide) (by decide) (by decide) (by decide)]

/-- The contents of the result buffer after the whole line. -/
theorem ops_v92 (V : Valuation τ sig (Elt Ideal)) : after (ops (F := Ideal)) V (Proc.devRef .tc main_v92) = val92 V := by
  unfold val92
  rw [after_ops, afterF, upto5_v78, kept5 V main_arg18 (by decide) (by decide) (by decide) (by decide) (by decide), kept5 V main_arg19 (by decide) (by decide) (by decide) (by decide) (by decide), kept5 V main_arg20 (by decide) (by decide) (by decide) (by decide) (by decide), kept5 V main_arg21 (by decide) (by decide) (by decide) (by decide) (by decide)]

/-- From the launch contents the result is `refResult`: the same term, its arrays read off the launch memory. -/
theorem val92_launch (m : (ℓ : Loc nD τ sig) → Buf (Elt Ideal) ℓ) (c : Dev nD) : val92 (launchContents m c) = refResult m c := rfl

/-! ## The run -/

/-- On every device, from any memory with zero counters: every weakly fair execution of @main terminates with the result
    buffer at `refResult` and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = refResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v92).trans ((ops_v92 _).trans (val92_launch m c)),
      (h c main_arg0).trans ((kept_ops _ main_arg0 (by decide) (by decide) (by decide) (by decide) (by decide) (by decide)).trans rfl),
      (h c main_arg1).trans ((kept_ops _ main_arg1 (by decide) (by decide) (by decide) (by decide) (by decide) (by decide)).trans rfl),
      (h c main_arg2).trans ((kept_ops _ main_arg2 (by decide) (by decide) (by decide) (by decide) (by decide) (by decide)).trans rfl),
      (h c main_arg3).trans ((kept_ops _ main_arg3 (by decide) (by decide) (by decide) (by decide) (by decide) (by decide)).trans rfl),
      (h c main_arg4).trans ((kept_ops _ main_arg4 (by decide) (by decide) (by decide) (by decide) (by decide) (by decide)).trans rfl),
      (h c main_arg5).trans ((kept_ops _ main_arg5 (by decide) (by decide) (by decide) (by decide) (by decide) (by decide)).trans rfl),
      (h c main_arg6).trans ((kept_ops _ main_arg6 (by decide) (by decide) (by decide) (by decide) (by decide) (by decide)).trans rfl),
      (h c main_arg7).trans ((kept_ops _ main_arg7 (by decide) (by decide) (by decide) (by decide) (by decide) (by decide)).trans rfl),
      (h c main_arg8).trans ((kept_ops _ main_arg8 (by decide) (by decide) (by decide) (by decide) (by decide) (by decide)).trans rfl),
      (h c main_arg9).trans ((kept_ops _ main_arg9 (by decide) (by decide) (by decide) (by decide) (by decide) (by decide)).trans rfl),
      (h c main_arg10).trans ((kept_ops _ main_arg10 (by decide) (by decide) (by decide) (by decide) (by decide) (by decide)).trans rfl),
      (h c main_arg11).trans ((kept_ops _ main_arg11 (by decide) (by decide) (by decide) (by decide) (by decide) (by decide)).trans rfl),
      (h c main_arg12).trans ((kept_ops _ main_arg12 (by decide) (by decide) (by decide) (by decide) (by decide) (by decide)).trans rfl),
      (h c main_arg13).trans ((kept_ops _ main_arg13 (by decide) (by decide) (by decide) (by decide) (by decide) (by decide)).trans rfl),
      (h c main_arg14).trans ((kept_ops _ main_arg14 (by decide) (by decide) (by decide) (by decide) (by decide) (by decide)).trans rfl),
      (h c main_arg15).trans ((kept_ops _ main_arg15 (by decide) (by decide) (by decide) (by decide) (by decide) (by decide)).trans rfl),
      (h c main_arg16).trans ((kept_ops _ main_arg16 (by decide) (by decide) (by decide) (by decide) (by decide) (by decide)).trans rfl),
      (h c main_arg17).trans ((kept_ops _ main_arg17 (by decide) (by decide) (by decide) (by decide) (by decide) (by decide)).trans rfl),
      (h c main_arg18).trans ((kept_ops _ main_arg18 (by decide) (by decide) (by decide) (by decide) (by decide) (by decide)).trans rfl),
      (h c main_arg19).trans ((kept_ops _ main_arg19 (by decide) (by decide) (by decide) (by decide) (by decide) (by decide)).trans rfl),
      (h c main_arg20).trans ((kept_ops _ main_arg20 (by decide) (by decide) (by decide) (by decide) (by decide) (by decide)).trans rfl),
      (h c main_arg21).trans ((kept_ops _ main_arg21 (by decide) (by decide) (by decide) (by decide) (by decide) (by decide)).trans rfl)⟩)
    (run_seq scopedRefs_eq scopedSems_eq defs main (fun _ => ops) main_eq (fun _ => ops_sub) m ρ)

end Cert.RefMlp

end
-- ==== Proof.lean ====
/-
  The certificate of a message-passing update: two edge perceptrons, their messages scatter-added into the nodes,
  and a node perceptron, each perceptron a blocked kernel region in the kernel program and plain host algebra in
  the reference.

  The three frames. Each kernel program is three host stretches, each followed by a perceptron region; its run
  follows the contents of the core's buffers through the six items and ends with every unscoped buffer at the last
  boundary's contents, where the arguments are still the launch memory's. The reference is a straight line of host
  operations, evaluated piece by piece.

  The value claim. At the exact-real instance a region leaves, row by row, `tanh (leaky (x · W1 + b1) · W2 + b2)` —
  a change of float format is the identity there and each matrix product into a zero accumulator is the bare sum over
  the contracted axis — which is what the reference's host operations compute; the gathers, concatenations and
  scatter-additions around the perceptrons are the same operations in both programs. So from memories agreeing on
  the arguments both results are one function of the arguments. The idealization rewrote nothing, so `preserves`
  has nothing to state.
-/
import proofs.«102410_j3917010174735_1_alg».proof.Defs
import proofs.«102410_j3917010174735_1_alg».proof.Proof.Gen.Kernel
import proofs.«102410_j3917010174735_1_alg».proof.Proof.Gen.KernelIdeal
import proofs.«102410_j3917010174735_1_alg».proof.Proof.Gen.ReferenceIdeal
import proofs.«102410_j3917010174735_1_alg».proof.Proof.Gen.Pre_finite_inputs
import proofs.«102410_j3917010174735_1_alg».proof.Proof.BFrame
import proofs.«102410_j3917010174735_1_alg».proof.Proof.KFrame
import proofs.«102410_j3917010174735_1_alg».proof.Proof.KValueRun
import proofs.«102410_j3917010174735_1_alg».proof.Proof.Bridge
import proofs.«102410_j3917010174735_1_alg».proof.Proof.RefRun

noncomputable section

namespace Cert.Proof

open Idealize.ShloMosaic Idealize.SL.Sem

/-- The word-level kernel program runs and leaves its arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.RefMlp.run m ρ)

/-- The ideal pass rewrote no operation. -/
theorem preserves : Cert.preserves_Kernel_KernelIdeal := trivial

/-- From memories agreeing on the arguments both idealized programs end with the same result array. -/
theorem algebraic : Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩) (Cert.RefMlp.run m' ρ')
  obtain ⟨h0, h1, h2, h3, h4, h5, h6, h7, h8, h9, h10, h11, h12, h13, h14, h15, h16, h17, h18, h19, h20, h21⟩ := hagree c
  exact Cert.Bridge.result_eq m m' c h0 h1 h2 h3 h4 h5 h6 h7 h8 h9 h10 h11 h12 h13 h14 h15 h16 h17 h18 h19 h20 h21

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
